-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S3072 : Shape := ⟨1, ![3072]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S4x8x2x2048x2048 : Shape := ⟨5, ![4, 8, 2, 2048, 2048]⟩
abbrev S256x128 : Shape := ⟨2, ![256, 128]⟩
abbrev S2048x128 : Shape := ⟨2, ![2048, 128]⟩
abbrev S1x1x2x256x2048 : Shape := ⟨5, ![1, 1, 2, 256, 2048]⟩
abbrev S256x64 : Shape := ⟨2, ![256, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩
abbrev S1x1x1x256x2048 : Shape := ⟨5, ![1, 1, 1, 256, 2048]⟩
abbrev S4x16x2048x2048 : Shape := ⟨4, ![4, 16, 2048, 2048]⟩
abbrev S1x1024 : Shape := ⟨2, ![1, 1024]⟩

abbrev nBuf : Space → Nat
  | .hbm => 24
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x3072, .bf16⟩
  | .hbm, ⟨14, _⟩ => ⟨S3072, .f32⟩
  | .hbm, ⟨15, _⟩ => ⟨S1x3072, .f32⟩
  | .hbm, ⟨16, _⟩ => ⟨S8192x3072, .f32⟩
  | .hbm, ⟨17, _⟩ => ⟨S8192x1024, .f32⟩
  | .hbm, ⟨18, _⟩ => ⟨S4x8x2x2048x2048, .f32⟩
  | .hbm, ⟨19, _⟩ => ⟨S4x16x2048x2048, .f32⟩
  | .hbm, ⟨20, _⟩ => ⟨S1024x1024, .bf16⟩
  | .hbm, ⟨21, _⟩ => ⟨S1x1024, .f32⟩
  | .hbm, ⟨22, _⟩ => ⟨S8192x1024, .f32⟩
  | .hbm, ⟨23, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .f32⟩
  | .local _ .vmem, ⟨5, _⟩ => ⟨S512x3072, .f32⟩
  | .local _ .vmem, ⟨6, _⟩ => ⟨S256x128, .f32⟩
  | .local _ .vmem, ⟨7, _⟩ => ⟨S256x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S256x128, .f32⟩
  | .local _ .vmem, ⟨13, _⟩ => ⟨S256x128, .f32⟩
  | .local _ .vmem, ⟨14, _⟩ => ⟨S1x1x2x256x2048, .f32⟩
  | .local _ .vmem, ⟨15, _⟩ => ⟨S1x1x2x256x2048, .f32⟩
  | .local _ .vmem, ⟨16, _⟩ => ⟨S512x1024, .f32⟩
  | .local _ .vmem, ⟨17, _⟩ => ⟨S512x1024, .f32⟩
  | .local _ .vmem, ⟨18, _⟩ => ⟨S1024x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 8, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_4 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1x2x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  bitsLt_bf16_f32 : FTy.bits .bf16 < FTy.bits .f32
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  inb_S256x128_S256x64_0_0 : ∀ a, (![0, 0] : Fin 2 → Nat) a + S256x64.size a ≤ S256x128.size a
  h_S256x64 : 0 < S256x64.numel
  shapeCasts_S256x64_S256x64 : S256x64.ShapeCasts S256x64
  inb_S2048x128_S2048x64_0_0 : ∀ a, (![0, 0] : Fin 2 → Nat) a + S2048x64.size a ≤ S2048x128.size a
  h_S2048x64 : 0 < S2048x64.numel
  shapeCasts_S2048x64_S2048x64 : S2048x64.ShapeCasts S2048x64
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  inb_S1x1x2x256x2048_S1x1x1x256x2048_0_0_0_0_0 : ∀ a, (![0, 0, 0, 0, 0] : Fin 5 → Nat) a + S1x1x1x256x2048.size a ≤ S1x1x2x256x2048.size a
  h_S1x1x1x256x2048 : 0 < S1x1x1x256x2048.numel
  shapeCasts_S1x1x1x256x2048_S256x2048 : S1x1x1x256x2048.ShapeCasts S256x2048
  shapeCasts_S256x2048_S1x1x1x256x2048 : S256x2048.ShapeCasts S1x1x1x256x2048
  inb_S256x128_S256x64_0_64 : ∀ a, (![0, 64] : Fin 2 → Nat) a + S256x64.size a ≤ S256x128.size a
  inb_S2048x128_S2048x64_0_64 : ∀ a, (![0, 64] : Fin 2 → Nat) a + S2048x64.size a ≤ S2048x128.size a
  inb_S1x1x2x256x2048_S1x1x1x256x2048_0_0_1_0_0 : ∀ a, (![0, 0, 1, 0, 0] : Fin 5 → Nat) a + S1x1x1x256x2048.size a ≤ S1x1x2x256x2048.size a
  shapeCasts_S4x8x2x2048x2048_S4x16x2048x2048 : S4x8x2x2048x2048.ShapeCasts S4x16x2048x2048
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S512x1024_S1024x3072_S512x3072_1_0_0_1_n_n_wf : DotDims.WF S512x1024 S1024x3072 S512x3072 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .f32 = 32 ∨ (Rect.block (s := S8192x3072) S512x3072.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S8192x3072.size a
  hwx1_0 : ∀ i : grid1.Coords, EltTy.bits .f32 = 32 ∨ (Rect.block (s := S8192x3072) S256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x3072.size a
  hwx1_1 : ∀ i : grid1.Coords, EltTy.bits .f32 = 32 ∨ (Rect.block (s := S8192x3072) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S8192x3072.size a
  hwx1_2 : ∀ i : grid1.Coords, EltTy.bits .f32 = 32 ∨ (Rect.block (s := S8192x3072) S2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S8192x1024.size a
  hwx1_3 : ∀ i : grid1.Coords, EltTy.bits .f32 = 32 ∨ (Rect.block (s := S8192x1024) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x2x256x2048.size a ≤ S4x8x2x2048x2048.size a
  hwx1_4 : ∀ i : grid1.Coords, EltTy.bits .f32 = 32 ∨ (Rect.block (s := S4x8x2x2048x2048) S1x1x2x256x2048.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8_0) S256x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8_1) S1x1x2x256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v8_0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x16x64, .f32⟩
  | .hbm, ⟨20, _⟩ => ⟨S4x16x2048x64, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x16x64, .f32⟩
  | .hbm, ⟨26, _⟩ => ⟨S4x16x2048x64, .f32⟩
  | .hbm, ⟨27, _⟩ => ⟨S4x16x2048x2048, .f32⟩
  | .hbm, ⟨28, _⟩ => ⟨S_, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S_, .f32⟩
  | .hbm, ⟨34, _⟩ => ⟨S4x16x2048, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S4x16x2048x1, .f32⟩
  | .hbm, ⟨43, _⟩ => ⟨S4x16x2048x2048, .f32⟩
  | .hbm, ⟨44, _⟩ => ⟨S4x16x2048x2048, .f32⟩
  | .hbm, ⟨45, _⟩ => ⟨S4x16x2048x64, .f32⟩
  | .hbm, ⟨46, _⟩ => ⟨S4x2048x16x64, .f32⟩
  | .hbm, ⟨47, _⟩ => ⟨S4x2048x1024, .f32⟩
  | .hbm, ⟨48, _⟩ => ⟨S4x2048x1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_0_01_1_n_n_wf : DotDims.WF S4x2048x1024 S1024x1024 S4x2048x1024 [2] [0] [0, 1] [1] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.K.Region0.lean ====
/- Region 0 of the attention forward pass: the fused query/key/value projection, a linear layer run on a grid of 16 points.
   At point t the region's four windows hold: rows [512 t, 512 t + 512) of the [8192, 1024] activations (window 0,
   moved in at every point); the whole [1024, 3072] fused query/key/value weight in bf16 (window 1) and the whole [1, 3072]
   bias row (window 2), both moved in at the first point only and left in place by the body; rows
   [512 t, 512 t + 512) of the [8192, 3072] result (window 3, written back at every point).
   The body reads the three input blocks whole, rounds the activations to bf16, multiplies them by the weight
   accumulating in f32 from zero, adds the bias row broadcast down the 512 rows, and stores the [512, 3072]
   product whole into the output block; it also reads the output block before the store and discards what it read.
   This file states, at any contents V of the core's buffers when the region is entered: each window's block at a
   point as a read of V (iblk0); what the body leaves in the output block as a function of the three input
   blocks (out0_3: one store that covers the block, so the block is that store's value); the body's triple
   (sound_kernel0); the pipeline's proof data (dat0) and its body obligation (body_obligation0).
   An input window holds its block at every point whether or not it was moved in there: where it was not, its block
   index has not changed since the point before and the body left the block as it found it (before0_W). -/
import proofs.«114294_j50929722196421_2_alg».proof.Proof.Gen.Kernel.Launch
import proofs.«114294_j50929722196421_2_alg».proof.Proof.Gen.Kernel.Skeleton
import proofs.«114294_j50929722196421_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data whose array is V's and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight, moved in at the first point only): the same, the block index being constant. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, moved in at the first point only): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0
abbrev r0_o : Rect S512x3072 := Rect.unit (s := S512x3072) ![0, 0] S512x3072.size inb_S512x3072_S512x3072_0_0

/-! ## What the body leaves in the output window's buffer -/

/-- The output block after the body, from the three input blocks: its one store, which is of the whole block. -/
def out0_3 (x0 : Vec F S512x1024 .f32) (x1 : Vec F S1024x3072 .bf16) (x2 : Vec F S1x3072 .f32) : Vec F S512x3072 .f32 :=
  View.canon [⟨r0_o, k0_pay1 (View.ld x0 r0_x) (View.ld x1 r0_w) (View.ld x2 r0_b)⟩]

/-- The store's rectangle is the whole block, so it covers it. -/
theorem cover0_3 (p0 : Vec F S512x3072 .f32) (y : S512x3072.Idx) :
    ∃ pc ∈ ([⟨r0_o, p0⟩] : List (View.Piece (Elt F) S512x3072 .f32)), y ∈ pc.1.set :=
  View.cover_of_tiled [⟨r0_o, p0⟩] S512x3072.size (by rfl) y

/-! ## The body's triple -/

set_option maxHeartbeats 1000000 in
/-- The body on whole staging memrefs, the inputs' at read contents x0, x1, x2 and the output's at anything, runs to
    the continuation holding the inputs' as they were and the output's at out0_3 of the inputs'. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .f32) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core c: the arrays as the region finds them; after the body at point t
    each input's buffer at its block and the output's at out0_3 of the input blocks; the invariant that the rest of
    the core's scoped memory and its generator register are untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's staging buffer holds its block at every point, moved in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/- Region 1 of @main, the attention kernel, on one TensorCore, at the buffer contents `V` the region is entered with.

   The grid has 4 x 8 x 8 points (batch, head pair, row block). At a point the kernel sees five blocks: a
   256 x 128 block of queries, a 2048 x 128 block of keys and a 2048 x 128 block of values (all three cut out of the one
   fused projection array), and it fills a 256 x 128 block of the context output and a 1 x 1 x 2 x 256 x 2048 block of the
   attention weights. Each block carries TWO heads side by side: columns 0-63 belong to the first head of the pair,
   columns 64-127 to the second. For each head h of the pair the body computes
       P_h = softmax (q_h k_hᵀ * 0.125)   (row-wise, q and k rounded to bf16 first),
   stores P_h as slab h of the weights block, and stores P_h v_h (P_h and v_h rounded to bf16) into columns
   64 h .. 64 h + 63 of the context block. So each output block is written by two stores through rectangles that tile
   it, and what the body leaves there is a closed function of the three input blocks: the later store's payload on its
   rectangle, the earlier store's on the rest (`out1_3`, `out1_4`).

   This file states that function, proves the body's triple against it by running the body's memory operations in
   order (through the call of its first part, which handles head 0 and loads head 1's q and k), packages the
   pipeline's proof data `dat1` — the three input windows hold shares of the one array they all read — and proves the
   library's body obligation for it at every grid point. -/
import proofs.«114294_j50929722196421_2_alg».proof.Proof.Gen.Kernel.Launch
import proofs.«114294_j50929722196421_2_alg».proof.Proof.Gen.Kernel.Skeleton
import proofs.«114294_j50929722196421_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by a structural recursion once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses

Six rectangles: the left and right column halves of a 256 x 128 block (queries, and the context output), of a
2048 x 128 block (keys, values), and the two slabs of the weights block. -/

/-- Columns 0-63 of a 256 x 128 block: the first head's queries, and its context rows. -/
abbrev r1_q0 : Rect S256x128 := Rect.unit (s := S256x128) ![0, 0] S256x64.size inb_S256x128_S256x64_0_0
/-- Columns 64-127 of a 256 x 128 block: the second head's. -/
abbrev r1_q1 : Rect S256x128 := Rect.unit (s := S256x128) ![0, 64] S256x64.size inb_S256x128_S256x64_0_64
/-- Columns 0-63 of a 2048 x 128 block: the first head's keys (values). -/
abbrev r1_k0 : Rect S2048x128 := Rect.unit (s := S2048x128) ![0, 0] S2048x64.size inb_S2048x128_S2048x64_0_0
/-- Columns 64-127 of a 2048 x 128 block: the second head's. -/
abbrev r1_k1 : Rect S2048x128 := Rect.unit (s := S2048x128) ![0, 64] S2048x64.size inb_S2048x128_S2048x64_0_64
/-- Slab 0 of the weights block: the first head's 256 x 2048 softmax. -/
abbrev r1_p0 : Rect S1x1x2x256x2048 := Rect.unit (s := S1x1x2x256x2048) ![0, 0, 0, 0, 0] S1x1x1x256x2048.size inb_S1x1x2x256x2048_S1x1x1x256x2048_0_0_0_0_0
/-- Slab 1 of the weights block: the second head's. -/
abbrev r1_p1 : Rect S1x1x2x256x2048 := Rect.unit (s := S1x1x2x256x2048) ![0, 0, 1, 0, 0] S1x1x1x256x2048.size inb_S1x1x2x256x2048_S1x1x1x256x2048_0_0_1_0_0

/-! ## What the body leaves in each output window's buffer -/

/-- The context block after the body, from the query, key and value blocks: head 1's product on columns 64-127
    (the later store, listed first), head 0's on columns 0-63. -/
def out1_3 (x0 : Vec F S256x128 .f32) (x1 x2 : Vec F S2048x128 .f32) : Vec F S256x128 .f32 :=
  View.canon [⟨r1_q1, k1_pay3 (k1_pay7 (View.ld x0 r1_q1)) (k1_pay8 (View.ld x1 r1_k1)) (View.ld x2 r1_k1)⟩,
    ⟨r1_q0, k1_pay6 (View.ld x0 r1_q0) (View.ld x1 r1_k0) (View.ld x2 r1_k0)⟩]

/-- The weights block after the body, from the query and key blocks: head 1's softmax on slab 1 (the later store,
    listed first), head 0's on slab 0. -/
def out1_4 (x0 : Vec F S256x128 .f32) (x1 : Vec F S2048x128 .f32) : Vec F S1x1x2x256x2048 .f32 :=
  View.canon [⟨r1_p1, k1_pay2 (k1_pay7 (View.ld x0 r1_q1)) (k1_pay8 (View.ld x1 r1_k1))⟩,
    ⟨r1_p0, k1_pay5 (View.ld x0 r1_q0) (View.ld x1 r1_k0)⟩]

/-- The two column halves tile the context block (checked by evaluation), so they cover it. -/
theorem cover1_3 (p0 p1 : Vec F S256x64 .f32) (y : S256x128.Idx) :
    ∃ pc ∈ ([⟨r1_q1, p0⟩, ⟨r1_q0, p1⟩] : List (View.Piece (Elt F) S256x128 .f32)), y ∈ pc.1.set :=
  View.cover_of_tiled [⟨r1_q1, p0⟩, ⟨r1_q0, p1⟩] S256x64.size (by rfl) y

/-- The two slabs tile the weights block (checked by evaluation), so they cover it. -/
theorem cover1_4 (p0 p1 : Vec F S1x1x1x256x2048 .f32) (y : S1x1x2x256x2048.Idx) :
    ∃ pc ∈ ([⟨r1_p1, p0⟩, ⟨r1_p0, p1⟩] : List (View.Piece (Elt F) S1x1x2x256x2048 .f32)), y ∈ pc.1.set :=
  View.cover_of_tiled [⟨r1_p1, p0⟩, ⟨r1_p0, p1⟩] S1x1x1x256x2048.size (by rfl) y

/-- An input window's current staging buffer holds its block at every point, fetched there or not, for ANY proof data
    whose array is `V`'s (`hA`) and whose body leaves the block in place (`hafter`): unfetched, the block index has not
    moved since the point that fetched it. The windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 4000000 in
/-- The kernel body on whole staging memrefs, the inputs' at read contents `x0`, `x1`, `x2` and the outputs' at anything,
    runs to the continuation holding the inputs' as they were and the outputs' at `out1_3`, `out1_4` of the inputs': the
    printed functions are their skeletons, whose memory operations are run in order, through the call of the first
    part. -/
theorem sound_kernel1 (c : Dev nD) (E : Set ℕ) (i : grid1.Coords) (arg3 : Memref sig .tc .vmem S256x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S256x128 .f32) (harg6 : arg6.IsWhole) (arg7 : Memref sig .tc .vmem S1x1x2x256x2048 .f32) (harg7 : arg7.IsWhole)
    (x0 : Vec F S256x128 .f32) (x1 : Vec F S2048x128 .f32) (x2 : Vec F S2048x128 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2) ∗ owns (c : Thread nD τ) arg7 fullShare (out1_4 x0 x1)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover1_3 _ _)
  iexists _; isplitr
  swap; · iexact H4
  ipureintro
  try dsimp only
  exact View.read_writes_eq_canon _ _ _ (cover1_4 _ _)

/-! ## The pipeline's proof data -/

/-- The proof data of pipeline 1 on core `c`: the arrays as the region finds them (`V`); after the body at point `t`
    each input's buffer at its block and each output's at `out1_W` of the input blocks; the invariant the scoped rest
    and the generator register, untouched; nothing owed. The three input windows read ONE array, so each holds a
    share of it: a half, a quarter and a quarter of the whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) := by dsimp only [dat1]

/-- The share each window holds of its array (the proof data's `match` reduced). -/
theorem q1_0 (c : Dev nD) : (dat1 V c).q 0 = fullShare.left := by dsimp only [dat1]
theorem q1_1 (c : Dev nD) : (dat1 V c).q 1 = fullShare.right.left := by dsimp only [dat1]
theorem q1_2 (c : Dev nD) : (dat1 V c).q 2 = fullShare.right.right := by dsimp only [dat1]
theorem q1_3 (c : Dev nD) : (dat1 V c).q 3 = fullShare := by dsimp only [dat1]
theorem q1_4 (c : Dev nD) : (dat1 V c).q 4 = fullShare := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/- Region 2 of the attention forward pass: the output projection, a linear layer run on a grid of 16 points.
   At point t the region's four windows hold: rows [512 t, 512 t + 512) of the [8192, 1024] activations (window 0,
   moved in at every point); the whole [1024, 1024] output-projection weight in bf16 (window 1) and the whole [1, 1024]
   bias row (window 2), both moved in at the first point only and left in place by the body; rows
   [512 t, 512 t + 512) of the [8192, 1024] result (window 3, written back at every point).
   The body reads the three input blocks whole, rounds the activations to bf16, multiplies them by the weight
   accumulating in f32 from zero, adds the bias row broadcast down the 512 rows, and stores the [512, 1024]
   product whole into the output block; it also reads the output block before the store and discards what it read.
   This file states, at any contents V of the core's buffers when the region is entered: each window's block at a
   point as a read of V (iblk2); what the body leaves in the output block as a function of the three input
   blocks (out2_3: one store that covers the block, so the block is that store's value); the body's triple
   (sound_kernel2); the pipeline's proof data (dat2) and its body obligation (body_obligation2).
   An input window holds its block at every point whether or not it was moved in there: where it was not, its block
   index has not changed since the point before and the body left the block as it found it (before2_W). -/
import proofs.«114294_j50929722196421_2_alg».proof.Proof.Gen.Kernel.Launch
import proofs.«114294_j50929722196421_2_alg».proof.Proof.Gen.Kernel.Skeleton
import proofs.«114294_j50929722196421_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, for any proof data whose array is V's and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weight, moved in at the first point only): the same, the block index being constant. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the bias row, moved in at the first point only): the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_x : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0
abbrev r2_o : Rect S512x1024 := Rect.unit (s := S512x1024) ![0, 0] S512x1024.size inb_S512x1024_S512x1024_0_0

/-! ## What the body leaves in the output window's buffer -/

/-- The output block after the body, from the three input blocks: its one store, which is of the whole block. -/
def out2_3 (x0 : Vec F S512x1024 .f32) (x1 : Vec F S1024x1024 .bf16) (x2 : Vec F S1x1024 .f32) : Vec F S512x1024 .f32 :=
  View.canon [⟨r2_o, k2_pay1 (View.ld x0 r2_x) (View.ld x1 r2_w) (View.ld x2 r2_b)⟩]

/-- The store's rectangle is the whole block, so it covers it. -/
theorem cover2_3 (p0 : Vec F S512x1024 .f32) (y : S512x1024.Idx) :
    ∃ pc ∈ ([⟨r2_o, p0⟩] : List (View.Piece (Elt F) S512x1024 .f32)), y ∈ pc.1.set :=
  View.cover_of_tiled [⟨r2_o, p0⟩] S512x1024.size (by rfl) y

/-! ## The body's triple -/

set_option maxHeartbeats 1000000 in
/-- The body on whole staging memrefs, the inputs' at read contents x0, x1, x2 and the output's at anything, runs to
    the continuation holding the inputs' as they were and the output's at out2_3 of the inputs'. -/
theorem sound_kernel2 (c : Dev nD) (E : Set ℕ) (i : grid2.Coords)
    (arg1 : Memref sig .tc .vmem S512x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region's pipeline on core c: the arrays as the region finds them; after the body at point t
    each input's buffer at its block and the output's at out2_3 of the input blocks; the invariant that the rest of
    the core's scoped memory and its generator register are untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's staging buffer holds its block at every point, moved in there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region's pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of the whole program, at any instance of the float operations.

  @main is six items: a stretch of host operations (the input flattened to [8192, 1024], the three projection weights
  and biases joined into one [1024, 3072] weight and one [1, 3072] bias row), region 0 (the fused projection), region 1
  (attention per batch, head pair and block of query rows), a second stretch (the weights' array re-viewed as
  [4, 16, 2048, 2048], the output weight and bias row), region 2 (the output projection) and a last stretch (the result
  re-viewed as [4, 2048, 1024]). Between two items a core holds every unscoped buffer whole at known contents W0 … W6:
  a host stretch changes them to what its operations compute; a region changes its output arrays to what its grid
  points' write-backs leave and nothing else. Beside the buffers ride the core's generator register and its debt,
  which is nothing throughout.

  Regions 0 and 2 have four windows on four distinct arrays. Region 1 has three input windows on ONE array, the fused
  projections: at its entry that array's buffer is split into three shares, one per reader, and at its exit, the readers
  having only read, the three shares are joined again at the same contents.

  The conclusion: every weakly fair execution terminates without a fault and ends with every unscoped buffer at W6;
  the nine argument arrays are written by no item, so they end as launched.
-/
import proofs.«114294_j50929722196421_2_alg».proof.Proof.Gen.Kernel.Launch
import proofs.«114294_j50929722196421_2_alg».proof.Proof.Gen.Kernel.Skeleton
import proofs.«114294_j50929722196421_2_alg».proof.Proof.Gen.Kernel.Points
import proofs.«114294_j50929722196421_2_alg».proof.Proof.K.Region0
import proofs.«114294_j50929722196421_2_alg».proof.Proof.K.Region1
import proofs.«114294_j50929722196421_2_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Split1
variable (V : (c : Dev nD) → (b : Ref sig .tc) → Buf (Elt F) ((c : Thread nD τ).loc b))

/-- The share each window of region 1 holds its array at: the three readers of the fused projection array split the
    whole between them, an output holds its array whole. -/
theorem share1_0 (c : Dev nD) : (dat1 V c).share 0 = fullShare.left := by
  unfold Dat.share; exact (if_neg (by decide)).trans (q1_0 V c)
theorem share1_1 (c : Dev nD) : (dat1 V c).share 1 = fullShare.right.left := by
  unfold Dat.share; exact (if_neg (by decide)).trans (q1_1 V c)
theorem share1_2 (c : Dev nD) : (dat1 V c).share 2 = fullShare.right.right := by
  unfold Dat.share; exact (if_neg (by decide)).trans (q1_2 V c)
theorem share1_3 (c : Dev nD) : (dat1 V c).share 3 = fullShare := by
  unfold Dat.share; exact if_pos (by decide)
theorem share1_4 (c : Dev nD) : (dat1 V c).share 4 = fullShare := by
  unfold Dat.share; exact if_pos (by decide)

/-- Region 1's arrays, window by window: the fused projection array at three shares that make the whole, each output
    array at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v7) ↦{fullShare.left} G 0) ∗ (((c : Thread nD τ).loc main_v7) ↦{fullShare.right.left} G 1)
          ∗ (((c : Thread nD τ).loc main_v7) ↦{fullShare.right.right} G 2)
          ∗ (((c : Thread nD τ).loc main_v8_0) ↦{fullShare} G 3) ∗ (((c : Thread nD τ).loc main_v8_1) ↦{fullShare} G 4)) := by
  unfold Dat.arrays
  rw [bigSep_W1, (arr_whole1 0).set_eq_univ, (arr_whole1 3).set_eq_univ,
    (arr_whole1 4).set_eq_univ, share1_0, share1_1, share1_2, share1_3, share1_4]
end Split1

/-! ## Two facts about a pipeline's arrays -/

/-- An array whose window never writes back holds, after any number of points, what the region found in it. -/
theorem arrAt_of_no_flush {cfg : Cfg sig Λ₀} {c : Dev nD} (dat : Dat τ (Elt F) Unit ℕ (UR sig nD τ) ℕ cfg c) (w : Fin cfg.W)
    (h : ∀ t, (cfg.win w).flush t = false) : ∀ n, dat.arrAt w n = dat.A w
  | 0 => rfl
  | n + 1 => by
    rw [Dat.arrAt]
    dsimp only
    split
    · next hn => rw [h ⟨n, hn⟩]; exact arrAt_of_no_flush dat w h n
    · exact arrAt_of_no_flush dat w h n

/-- The distinct buffers behind region 1's five windows: the fused projection array and the two outputs. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v7) ↦{fullShare} V main_v7) ∗ (((c : Thread nD τ).loc main_v8_0) ↦{fullShare} V main_v8_0)
          ∗ (((c : Thread nD τ).loc main_v8_1) ↦{fullShare} V main_v8_1)) := by
  unfold Pipeline.arrBufs
  rw [show Finset.univ.image (Pipeline.arrRef spec1) = {main_v7, main_v8_0, main_v8_1} from by decide,
    bigSep_insert (by decide), bigSep_insert (by decide), bigSep_singleton]
  rfl

variable (m : (ℓ : Loc nD τ sig) → Buf (Elt F) ℓ) (ρ : Dev nD → PrngReg)

/-! ## The buffers' contents at each boundary of @main -/

/-- Core c's buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: the two output arrays at what the pipeline leaves; the fused projection array, which its three
    input windows only read, and every other buffer as entered. -/
def W3 (c : Dev nD) : Valuation τ sig (Elt F) :=
  Function.update (Function.update (W2 m c) (Proc.devRef .tc main_v8_0) ((dat1 (V2 m) c).arrAt 3 cfg1.N))
    (Proc.devRef .tc main_v8_1) ((dat1 (V2 m) c).arrAt 4 cfg1.N)
abbrev V3 : (c : Dev nD) → (b : Ref sig .tc) → Buf (Elt F) ((c : Thread nD τ).loc b) := fun c b => W3 m c b
theorem W3_v8_1 (c : Dev nD) : V3 m c main_v8_1 = (dat1 (V2 m) c).arrAt 4 cfg1.N := by
  show W3 m c (Proc.devRef .tc main_v8_1) = _
  unfold W3; rw [Function.update_self]
theorem W3_v8_0 (c : Dev nD) : V3 m c main_v8_0 = (dat1 (V2 m) c).arrAt 3 cfg1.N := by
  show W3 m c (Proc.devRef .tc main_v8_0) = _
  unfold W3
  rw [Function.update_of_ne (StableHlo.devRef_ne_of_ne (by decide : main_v8_0 ≠ main_v8_1)), Function.update_self]
theorem W3_of_ne (c : Dev nD) (b : Ref sig .tc) (h0 : b ≠ main_v8_0) (h1 : b ≠ main_v8_1) : V3 m c b = V2 m c b := by
  show W3 m c (Proc.devRef .tc b) = W2 m c (Proc.devRef .tc b)
  unfold W3
  rw [Function.update_of_ne (StableHlo.devRef_ne_of_ne h1), Function.update_of_ne (StableHlo.devRef_ne_of_ne h0)]

/-- After the second host stretch (region 2's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- At region 2's exit. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)
/-- After the last host stretch: what @main returns from. -/
abbrev W6 : Dev nD → Valuation τ sig (Elt F) := fun c => StableHlo.after hostOps3 (W5 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 1's arrays out of, and back into, the core's unscoped buffers -/

theorem unscopedRest1_congr (c : Dev nD) :
    (Pipeline.unscopedRest (Ix := Unit) (Name := ℕ) (U := UR sig nD τ) (Lvl := ℕ) spec1 c (V3 m c) : sProp 𝕄)
      = Pipeline.unscopedRest spec1 c (V2 m c) := by
  unfold Pipeline.unscopedRest
  refine bigSep_congr fun b hb => ?_
  have hb' := (Finset.mem_sdiff.mp hb).2
  rw [W3_of_ne m c b (fun e => hb' (e ▸ Finset.mem_image.mpr ⟨3, Finset.mem_univ _, rfl⟩))
    (fun e => hb' (e ▸ Finset.mem_image.mpr ⟨4, Finset.mem_univ _, rfl⟩))]

/-- ENTRY: every unscoped buffer at region 1's entry contents is the pipeline's arrays at those contents — the fused
    projection array split among its three readers — beside the buffers that are no window's array. -/
theorem entry1 (c : Dev nD) :
    (StableHlo.held (c : Thread nD τ) (Pipeline.ucRefs τ sig) (W2 m c) : sProp 𝕄)
      ⊢ iprop((dat1 (V2 m) c).arrays ((dat1 (V2 m) c).arrAt · 0) ∗ Pipeline.unscopedRest spec1 c (V2 m c)) := by
  rw [← Pipeline.unscopedBufs_held (Ix := Unit) (Name := ℕ) (U := UR sig nD τ) (Lvl := ℕ) c (W2 m c),
    Pipeline.unscopedBufs_split₀ (Pipeline.pin (pcfgs (F := F)) adm) 1 winFacts₀1.arr_unscoped c (V2 m c)]
  refine sep_mono ?_ .rfl
  show (Pipeline.arrBufs spec1 c (V2 m c) : sProp 𝕄) ⊢ _
  rw [arrBufs1_eq, arrays1_eq]
  iintro ⟨H7, H80, H81⟩
  ihave H7' := (pointsTo_share (PosShare.mem_left_op_right fullShare)).1 $$ H7
  icases H7' with ⟨Ha, Hbc⟩
  ihave Hbc' := (pointsTo_share (PosShare.mem_left_op_right fullShare.right)).1 $$ Hbc
  icases Hbc' with ⟨Hb, Hc⟩
  isplitl [Ha]; · iexact Ha
  isplitl [Hb]; · iexact Hb
  isplitl [Hc]; · iexact Hc
  isplitl [H80]; · iexact H80
  iexact H81

/-- EXIT: the arrays at what the pipeline leaves — the three readers' shares of the fused projection array, still at
    the entry contents, joined again — beside the other buffers are every unscoped buffer at the exit contents. -/
theorem exit1 (c : Dev nD) :
    iprop((dat1 (V2 m) c).arrays ((dat1 (V2 m) c).arrAt · cfg1.N) ∗ Pipeline.unscopedRest spec1 c (V2 m c))
      ⊢ (StableHlo.held (c : Thread nD τ) (Pipeline.ucRefs τ sig) (W3 m c) : sProp 𝕄) := by
  rw [← Pipeline.unscopedBufs_held (Ix := Unit) (Name := ℕ) (U := UR sig nD τ) (Lvl := ℕ) c (W3 m c),
    Pipeline.unscopedBufs_split₀ (Pipeline.pin (pcfgs (F := F)) adm) 1 winFacts₀1.arr_unscoped c (V3 m c)]
  refine BI.sep_mono ?_ (Entails.of_eq (show (Pipeline.unscopedRest spec1 c (V2 m c) : sProp 𝕄) = Pipeline.unscopedRest spec1 c (V3 m c)
    from (unscopedRest1_congr m c).symm))
  show _ ⊢ (Pipeline.arrBufs spec1 c (V3 m c) : sProp 𝕄)
  rw [arrBufs1_eq, arrays1_eq, arrAt_of_no_flush (dat1 (V2 m) c) 0 (fun _ => rfl), arrAt_of_no_flush (dat1 (V2 m) c) 1 (fun _ => rfl),
    arrAt_of_no_flush (dat1 (V2 m) c) 2 (fun _ => rfl), W3_v8_0, W3_v8_1,
    W3_of_ne m c main_v7 (by decide) (by decide)]
  iintro ⟨Ha, Hb, Hc, H80, H81⟩
  isplitl [Ha Hb Hc]
  · iapply (pointsTo_share (PosShare.mem_left_op_right fullShare)).2
    isplitl [Ha]; · iexact Ha
    iapply (pointsTo_share (PosShare.mem_left_op_right fullShare.right)).2
    isplitl [Hb]; · iexact Hb
    iexact Hc
  isplitl [H80]; · iexact H80
  iexact H81

set_option backward.isDefEq.respectTransparency.types false in
/-- Region 0 over the thread state: entered from every unscoped buffer at its entry contents, left at its exit contents.
    Its arrays are split out of the unscoped buffers and put back at what the pipeline leaves; the generator register
    goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state. Its three input windows read one array, so that array's buffer is split among them
    at entry and joined again at exit (entry1, exit1); the rest is as for the other regions. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left at its exit contents.
    Its arrays are split out of the unscoped buffers and put back at what the pipeline leaves; the generator register
    goes into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- No operation of a host stretch allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-! ## @main as segments, and the launch -/

/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's six segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)) ]

theorem main_run (c : Dev nD) : main (F := F) c = Pipeline.Seg.run (segs m) := (main_chain c).trans (by chain_rfl)

/-- The last thread state without the owes: every unscoped buffer at the last boundary's contents, the generator
    register at some state. -/
abbrev Tₙ (c : Dev nD) : sProp 𝕄 := iprop(StableHlo.held (c : Thread nD τ) (Pipeline.ucRefs τ sig) (W6 m c) ∗ ∃ r, prngReg c r)

set_option backward.isDefEq.respectTransparency.types false in
/-- THE RUN: from any memory with zero counters every weakly fair execution of @main on the TensorCores terminates,
    nothing faulting, and every final state holds each unscoped buffer at the last boundary's contents W6. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## What a host stretch leaves alone -/

/-- The first host stretch writes main_v0 … main_v6 only. -/
theorem keep0 (W : Valuation τ sig (Elt F)) (b : Ref sig .tc)
    (h : ∀ r ∈ ([main_v0, main_v1, main_v2, main_v3, main_v4, main_v5, main_v6] : List (Ref sig .tc)), b ≠ r) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (h _ (by decide))))

/-- The second host stretch writes main_v9, main_v10, main_v11 only. -/
theorem keep2 (W : Valuation τ sig (Elt F)) (b : Ref sig .tc)
    (h : ∀ r ∈ ([main_v9, main_v10, main_v11] : List (Ref sig .tc)), b ≠ r) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.reshape_writes, StableHlo.nary_writes, Finset.mem_singleton]
    repeat' apply And.intro
    all_goals exact StableHlo.devRef_ne_of_ne (h _ (by decide))))

/-- The last host stretch writes main_v13 only. -/
theorem keep3 (W : Valuation τ sig (Elt F)) (b : Ref sig .tc) (h : b ≠ main_v13) :
    StableHlo.after hostOps3 W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.reshape_writes, StableHlo.nary_writes, Finset.mem_singleton]
    exact StableHlo.devRef_ne_of_ne h))

/-! ## A buffer nothing writes ends as launched; the frame -/

/-- A buffer that no host stretch writes and that is no array of region 0 or region 2 and neither output of region 1
    holds at the end what the launch memory held. -/
theorem W6_keep (c : Dev nD) (b : Ref sig .tc)
    (h0 : ∀ r ∈ ([main_v0, main_v1, main_v2, main_v3, main_v4, main_v5, main_v6] : List (Ref sig .tc)), b ≠ r)
    (h2 : ∀ r ∈ ([main_v9, main_v10, main_v11] : List (Ref sig .tc)), b ≠ r) (h3 : b ≠ main_v13)
    (ha0 : ∀ w, Pipeline.arrRef spec0 w ≠ b) (h80 : b ≠ main_v8_0) (h81 : b ≠ main_v8_1) (ha2 : ∀ w, Pipeline.arrRef spec2 w ≠ b) :
    W6 m c (Proc.devRef .tc b) = m ((c : Thread nD τ).loc b) :=
  calc W6 m c (Proc.devRef .tc b)
    _ = W5 m c (Proc.devRef .tc b) := keep3 _ b h3
    _ = W4 m c (Proc.devRef .tc b) := W5_of_ne m c b ha2
    _ = W3 m c (Proc.devRef .tc b) := keep2 _ b h2
    _ = W2 m c (Proc.devRef .tc b) := W3_of_ne m c b h80 h81
    _ = W1 m c (Proc.devRef .tc b) := W2_of_ne m c b ha0
    _ = W0 m c (Proc.devRef .tc b) := keep0 _ b h0
    _ = m ((c : Thread nD τ).loc b) := rfl

/-- THE FRAME, at any F: every weakly fair execution of @main terminates, nothing faulting, and every final state has
    the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W6_keep m c main_arg0 (by decide) (by decide) (by decide) (by decide) (by decide) (by decide) (by decide)),
     (h c _ (mem_uc main_arg1 (by decide))).trans (W6_keep m c main_arg1 (by decide) (by decide) (by decide) (by decide) (by decide) (by decide) (by decide)),
     (h c _ (mem_uc main_arg2 (by decide))).trans (W6_keep m c main_arg2 (by decide) (by decide) (by decide) (by decide) (by decide) (by decide) (by decide)),
     (h c _ (mem_uc main_arg3 (by decide))).trans (W6_keep m c main_arg3 (by decide) (by decide) (by decide) (by decide) (by decide) (by decide) (by decide)),
     (h c _ (mem_uc main_arg4 (by decide))).trans (W6_keep m c main_arg4 (by decide) (by decide) (by decide) (by decide) (by decide) (by decide) (by decide)),
     (h c _ (mem_uc main_arg5 (by decide))).trans (W6_keep m c main_arg5 (by decide) (by decide) (by decide) (by decide) (by decide) (by decide) (by decide)),
     (h c _ (mem_uc main_arg6 (by decide))).trans (W6_keep m c main_arg6 (by decide) (by decide) (by decide) (by decide) (by decide) (by decide) (by decide)),
     (h c _ (mem_uc main_arg7 (by decide))).trans (W6_keep m c main_arg7 (by decide) (by decide) (by decide) (by decide) (by decide) (by decide) (by decide)),
     (h c _ (mem_uc main_arg8 (by decide))).trans (W6_keep m c main_arg8 (by decide) (by decide) (by decide) (by decide) (by decide) (by decide) (by decide))⟩)
    (run_all m ρ)

end Cert.Kernel.Hand

end
-- ==== Proof.KI.Region0.lean ====
/- Region 0 of the attention forward pass: the fused query/key/value projection, a linear layer run on a grid of 16 points.
   At point t the region's four windows hold: rows [512 t, 512 t + 512) of the [8192, 1024] activations (window 0,
   moved in at every point); the whole [1024, 3072] fused query/key/value weight in bf16 (window 1) and the whole [1, 3072]
   bias row (window 2), both moved in at the first point only and left in place by the body; rows
   [512 t, 512 t + 512) of the [8192, 3072] result (window 3, written back at every point).
   The body reads the three input blocks whole, rounds the activations to bf16, multiplies them by the weight
   accumulating in f32 from zero, adds the bias row broadcast down the 512 rows, and stores the [512, 3072]
   product whole into the output block; it also reads the output block before the store and discards what it read.
   This file states, at any contents V of the core's buffers when the region is entered: each window's block at a
   point as a read of V (iblk0); what the body leaves in the output block as a function of the three input
   blocks (out0_3: one store that covers the block, so the block is that store's value); the body's triple
   (sound_kernel0); the pipeline's proof data (dat0) and its body obligation (body_obligation0).
   An input window holds its block at every point whether or not it was moved in there: where it was not, its block
   index has not changed since the point before and the body left the block as it found it (before0_W). -/
import proofs.«114294_j50929722196421_2_alg».proof.Proof.Gen.KernelIdeal.Launch
import proofs.«114294_j50929722196421_2_alg».proof.Proof.Gen.KernelIdeal.Skeleton
import proofs.«114294_j50929722196421_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data whose array is V's and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight, moved in at the first point only): the same, the block index being constant. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, moved in at the first point only): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0
abbrev r0_o : Rect S512x3072 := Rect.unit (s := S512x3072) ![0, 0] S512x3072.size inb_S512x3072_S512x3072_0_0

/-! ## What the body leaves in the output window's buffer -/

/-- The output block after the body, from the three input blocks: its one store, which is of the whole block. -/
def out0_3 (x0 : Vec F S512x1024 .f32) (x1 : Vec F S1024x3072 .bf16) (x2 : Vec F S1x3072 .f32) : Vec F S512x3072 .f32 :=
  View.canon [⟨r0_o, k0_pay1 (View.ld x0 r0_x) (View.ld x1 r0_w) (View.ld x2 r0_b)⟩]

/-- The store's rectangle is the whole block, so it covers it. -/
theorem cover0_3 (p0 : Vec F S512x3072 .f32) (y : S512x3072.Idx) :
    ∃ pc ∈ ([⟨r0_o, p0⟩] : List (View.Piece (Elt F) S512x3072 .f32)), y ∈ pc.1.set :=
  View.cover_of_tiled [⟨r0_o, p0⟩] S512x3072.size (by rfl) y

/-! ## The body's triple -/

set_option maxHeartbeats 1000000 in
/-- The body on whole staging memrefs, the inputs' at read contents x0, x1, x2 and the output's at anything, runs to
    the continuation holding the inputs' as they were and the output's at out0_3 of the inputs'. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .f32) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core c: the arrays as the region finds them; after the body at point t
    each input's buffer at its block and the output's at out0_3 of the input blocks; the invariant that the rest of
    the core's scoped memory and its generator register are untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's staging buffer holds its block at every point, moved in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/- Region 1 of @main, the attention kernel, on one TensorCore, at the buffer contents `V` the region is entered with.

   The grid has 4 x 8 x 8 points (batch, head pair, row block). At a point the kernel sees five blocks: a
   256 x 128 block of queries, a 2048 x 128 block of keys and a 2048 x 128 block of values (all three cut out of the one
   fused projection array), and it fills a 256 x 128 block of the context output and a 1 x 1 x 2 x 256 x 2048 block of the
   attention weights. Each block carries TWO heads side by side: columns 0-63 belong to the first head of the pair,
   columns 64-127 to the second. For each head h of the pair the body computes
       P_h = softmax (q_h k_hᵀ * 0.125)   (row-wise, q and k rounded to bf16 first),
   stores P_h as slab h of the weights block, and stores P_h v_h (P_h and v_h rounded to bf16) into columns
   64 h .. 64 h + 63 of the context block. So each output block is written by two stores through rectangles that tile
   it, and what the body leaves there is a closed function of the three input blocks: the later store's payload on its
   rectangle, the earlier store's on the rest (`out1_3`, `out1_4`).

   This file states that function, proves the body's triple against it by running the body's memory operations in
   order (through the call of its first part, which handles head 0 and loads head 1's q and k), packages the
   pipeline's proof data `dat1` — the three input windows hold shares of the one array they all read — and proves the
   library's body obligation for it at every grid point. -/
import proofs.«114294_j50929722196421_2_alg».proof.Proof.Gen.KernelIdeal.Launch
import proofs.«114294_j50929722196421_2_alg».proof.Proof.Gen.KernelIdeal.Skeleton
import proofs.«114294_j50929722196421_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by a structural recursion once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses

Six rectangles: the left and right column halves of a 256 x 128 block (queries, and the context output), of a
2048 x 128 block (keys, values), and the two slabs of the weights block. -/

/-- Columns 0-63 of a 256 x 128 block: the first head's queries, and its context rows. -/
abbrev r1_q0 : Rect S256x128 := Rect.unit (s := S256x128) ![0, 0] S256x64.size inb_S256x128_S256x64_0_0
/-- Columns 64-127 of a 256 x 128 block: the second head's. -/
abbrev r1_q1 : Rect S256x128 := Rect.unit (s := S256x128) ![0, 64] S256x64.size inb_S256x128_S256x64_0_64
/-- Columns 0-63 of a 2048 x 128 block: the first head's keys (values). -/
abbrev r1_k0 : Rect S2048x128 := Rect.unit (s := S2048x128) ![0, 0] S2048x64.size inb_S2048x128_S2048x64_0_0
/-- Columns 64-127 of a 2048 x 128 block: the second head's. -/
abbrev r1_k1 : Rect S2048x128 := Rect.unit (s := S2048x128) ![0, 64] S2048x64.size inb_S2048x128_S2048x64_0_64
/-- Slab 0 of the weights block: the first head's 256 x 2048 softmax. -/
abbrev r1_p0 : Rect S1x1x2x256x2048 := Rect.unit (s := S1x1x2x256x2048) ![0, 0, 0, 0, 0] S1x1x1x256x2048.size inb_S1x1x2x256x2048_S1x1x1x256x2048_0_0_0_0_0
/-- Slab 1 of the weights block: the second head's. -/
abbrev r1_p1 : Rect S1x1x2x256x2048 := Rect.unit (s := S1x1x2x256x2048) ![0, 0, 1, 0, 0] S1x1x1x256x2048.size inb_S1x1x2x256x2048_S1x1x1x256x2048_0_0_1_0_0

/-! ## What the body leaves in each output window's buffer -/

/-- The context block after the body, from the query, key and value blocks: head 1's product on columns 64-127
    (the later store, listed first), head 0's on columns 0-63. -/
def out1_3 (x0 : Vec F S256x128 .f32) (x1 x2 : Vec F S2048x128 .f32) : Vec F S256x128 .f32 :=
  View.canon [⟨r1_q1, k1_pay3 (k1_pay7 (View.ld x0 r1_q1)) (k1_pay8 (View.ld x1 r1_k1)) (View.ld x2 r1_k1)⟩,
    ⟨r1_q0, k1_pay6 (View.ld x0 r1_q0) (View.ld x1 r1_k0) (View.ld x2 r1_k0)⟩]

/-- The weights block after the body, from the query and key blocks: head 1's softmax on slab 1 (the later store,
    listed first), head 0's on slab 0. -/
def out1_4 (x0 : Vec F S256x128 .f32) (x1 : Vec F S2048x128 .f32) : Vec F S1x1x2x256x2048 .f32 :=
  View.canon [⟨r1_p1, k1_pay2 (k1_pay7 (View.ld x0 r1_q1)) (k1_pay8 (View.ld x1 r1_k1))⟩,
    ⟨r1_p0, k1_pay5 (View.ld x0 r1_q0) (View.ld x1 r1_k0)⟩]

/-- The two column halves tile the context block (checked by evaluation), so they cover it. -/
theorem cover1_3 (p0 p1 : Vec F S256x64 .f32) (y : S256x128.Idx) :
    ∃ pc ∈ ([⟨r1_q1, p0⟩, ⟨r1_q0, p1⟩] : List (View.Piece (Elt F) S256x128 .f32)), y ∈ pc.1.set :=
  View.cover_of_tiled [⟨r1_q1, p0⟩, ⟨r1_q0, p1⟩] S256x64.size (by rfl) y

/-- The two slabs tile the weights block (checked by evaluation), so they cover it. -/
theorem cover1_4 (p0 p1 : Vec F S1x1x1x256x2048 .f32) (y : S1x1x2x256x2048.Idx) :
    ∃ pc ∈ ([⟨r1_p1, p0⟩, ⟨r1_p0, p1⟩] : List (View.Piece (Elt F) S1x1x2x256x2048 .f32)), y ∈ pc.1.set :=
  View.cover_of_tiled [⟨r1_p1, p0⟩, ⟨r1_p0, p1⟩] S1x1x1x256x2048.size (by rfl) y

/-- An input window's current staging buffer holds its block at every point, fetched there or not, for ANY proof data
    whose array is `V`'s (`hA`) and whose body leaves the block in place (`hafter`): unfetched, the block index has not
    moved since the point that fetched it. The windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 4000000 in
/-- The kernel body on whole staging memrefs, the inputs' at read contents `x0`, `x1`, `x2` and the outputs' at anything,
    runs to the continuation holding the inputs' as they were and the outputs' at `out1_3`, `out1_4` of the inputs': the
    printed functions are their skeletons, whose memory operations are run in order, through the call of the first
    part. -/
theorem sound_kernel1 (c : Dev nD) (E : Set ℕ) (i : grid1.Coords) (arg3 : Memref sig .tc .vmem S256x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S256x128 .f32) (harg6 : arg6.IsWhole) (arg7 : Memref sig .tc .vmem S1x1x2x256x2048 .f32) (harg7 : arg7.IsWhole)
    (x0 : Vec F S256x128 .f32) (x1 : Vec F S2048x128 .f32) (x2 : Vec F S2048x128 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2) ∗ owns (c : Thread nD τ) arg7 fullShare (out1_4 x0 x1)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover1_3 _ _)
  iexists _; isplitr
  swap; · iexact H4
  ipureintro
  try dsimp only
  exact View.read_writes_eq_canon _ _ _ (cover1_4 _ _)

/-! ## The pipeline's proof data -/

/-- The proof data of pipeline 1 on core `c`: the arrays as the region finds them (`V`); after the body at point `t`
    each input's buffer at its block and each output's at `out1_W` of the input blocks; the invariant the scoped rest
    and the generator register, untouched; nothing owed. The three input windows read ONE array, so each holds a
    share of it: a half, a quarter and a quarter of the whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) := by dsimp only [dat1]

/-- The share each window holds of its array (the proof data's `match` reduced). -/
theorem q1_0 (c : Dev nD) : (dat1 V c).q 0 = fullShare.left := by dsimp only [dat1]
theorem q1_1 (c : Dev nD) : (dat1 V c).q 1 = fullShare.right.left := by dsimp only [dat1]
theorem q1_2 (c : Dev nD) : (dat1 V c).q 2 = fullShare.right.right := by dsimp only [dat1]
theorem q1_3 (c : Dev nD) : (dat1 V c).q 3 = fullShare := by dsimp only [dat1]
theorem q1_4 (c : Dev nD) : (dat1 V c).q 4 = fullShare := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/- Region 2 of the attention forward pass: the output projection, a linear layer run on a grid of 16 points.
   At point t the region's four windows hold: rows [512 t, 512 t + 512) of the [8192, 1024] activations (window 0,
   moved in at every point); the whole [1024, 1024] output-projection weight in bf16 (window 1) and the whole [1, 1024]
   bias row (window 2), both moved in at the first point only and left in place by the body; rows
   [512 t, 512 t + 512) of the [8192, 1024] result (window 3, written back at every point).
   The body reads the three input blocks whole, rounds the activations to bf16, multiplies them by the weight
   accumulating in f32 from zero, adds the bias row broadcast down the 512 rows, and stores the [512, 1024]
   product whole into the output block; it also reads the output block before the store and discards what it read.
   This file states, at any contents V of the core's buffers when the region is entered: each window's block at a
   point as a read of V (iblk2); what the body leaves in the output block as a function of the three input
   blocks (out2_3: one store that covers the block, so the block is that store's value); the body's triple
   (sound_kernel2); the pipeline's proof data (dat2) and its body obligation (body_obligation2).
   An input window holds its block at every point whether or not it was moved in there: where it was not, its block
   index has not changed since the point before and the body left the block as it found it (before2_W). -/
import proofs.«114294_j50929722196421_2_alg».proof.Proof.Gen.KernelIdeal.Launch
import proofs.«114294_j50929722196421_2_alg».proof.Proof.Gen.KernelIdeal.Skeleton
import proofs.«114294_j50929722196421_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, for any proof data whose array is V's and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weight, moved in at the first point only): the same, the block index being constant. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the bias row, moved in at the first point only): the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_x : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0
abbrev r2_o : Rect S512x1024 := Rect.unit (s := S512x1024) ![0, 0] S512x1024.size inb_S512x1024_S512x1024_0_0

/-! ## What the body leaves in the output window's buffer -/

/-- The output block after the body, from the three input blocks: its one store, which is of the whole block. -/
def out2_3 (x0 : Vec F S512x1024 .f32) (x1 : Vec F S1024x1024 .bf16) (x2 : Vec F S1x1024 .f32) : Vec F S512x1024 .f32 :=
  View.canon [⟨r2_o, k2_pay1 (View.ld x0 r2_x) (View.ld x1 r2_w) (View.ld x2 r2_b)⟩]

/-- The store's rectangle is the whole block, so it covers it. -/
theorem cover2_3 (p0 : Vec F S512x1024 .f32) (y : S512x1024.Idx) :
    ∃ pc ∈ ([⟨r2_o, p0⟩] : List (View.Piece (Elt F) S512x1024 .f32)), y ∈ pc.1.set :=
  View.cover_of_tiled [⟨r2_o, p0⟩] S512x1024.size (by rfl) y

/-! ## The body's triple -/

set_option maxHeartbeats 1000000 in
/-- The body on whole staging memrefs, the inputs' at read contents x0, x1, x2 and the output's at anything, runs to
    the continuation holding the inputs' as they were and the output's at out2_3 of the inputs'. -/
theorem sound_kernel2 (c : Dev nD) (E : Set ℕ) (i : grid2.Coords)
    (arg1 : Memref sig .tc .vmem S512x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region's pipeline on core c: the arrays as the region finds them; after the body at point t
    each input's buffer at its block and the output's at out2_3 of the input blocks; the invariant that the rest of
    the core's scoped memory and its generator register are untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's staging buffer holds its block at every point, moved in there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region's pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the whole program, at any instance of the float operations.

  @main is six items: a stretch of host operations (the input flattened to [8192, 1024], the three projection weights
  and biases joined into one [1024, 3072] weight and one [1, 3072] bias row), region 0 (the fused projection), region 1
  (attention per batch, head pair and block of query rows), a second stretch (the weights' array re-viewed as
  [4, 16, 2048, 2048], the output weight and bias row), region 2 (the output projection) and a last stretch (the result
  re-viewed as [4, 2048, 1024]). Between two items a core holds every unscoped buffer whole at known contents W0 … W6:
  a host stretch changes them to what its operations compute; a region changes its output arrays to what its grid
  points' write-backs leave and nothing else. Beside the buffers ride the core's generator register and its debt,
  which is nothing throughout.

  Regions 0 and 2 have four windows on four distinct arrays. Region 1 has three input windows on ONE array, the fused
  projections: at its entry that array's buffer is split into three shares, one per reader, and at its exit, the readers
  having only read, the three shares are joined again at the same contents.

  The conclusion: every weakly fair execution terminates without a fault and ends with every unscoped buffer at W6;
  the nine argument arrays are written by no item, so they end as launched.
-/
import proofs.«114294_j50929722196421_2_alg».proof.Proof.Gen.KernelIdeal.Launch
import proofs.«114294_j50929722196421_2_alg».proof.Proof.Gen.KernelIdeal.Skeleton
import proofs.«114294_j50929722196421_2_alg».proof.Proof.Gen.KernelIdeal.Points
import proofs.«114294_j50929722196421_2_alg».proof.Proof.KI.Region0
import proofs.«114294_j50929722196421_2_alg».proof.Proof.KI.Region1
import proofs.«114294_j50929722196421_2_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Split1
variable (V : (c : Dev nD) → (b : Ref sig .tc) → Buf (Elt F) ((c : Thread nD τ).loc b))

/-- The share each window of region 1 holds its array at: the three readers of the fused projection array split the
    whole between them, an output holds its array whole. -/
theorem share1_0 (c : Dev nD) : (dat1 V c).share 0 = fullShare.left := by
  unfold Dat.share; exact (if_neg (by decide)).trans (q1_0 V c)
theorem share1_1 (c : Dev nD) : (dat1 V c).share 1 = fullShare.right.left := by
  unfold Dat.share; exact (if_neg (by decide)).trans (q1_1 V c)
theorem share1_2 (c : Dev nD) : (dat1 V c).share 2 = fullShare.right.right := by
  unfold Dat.share; exact (if_neg (by decide)).trans (q1_2 V c)
theorem share1_3 (c : Dev nD) : (dat1 V c).share 3 = fullShare := by
  unfold Dat.share; exact if_pos (by decide)
theorem share1_4 (c : Dev nD) : (dat1 V c).share 4 = fullShare := by
  unfold Dat.share; exact if_pos (by decide)

/-- Region 1's arrays, window by window: the fused projection array at three shares that make the whole, each output
    array at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v7) ↦{fullShare.left} G 0) ∗ (((c : Thread nD τ).loc main_v7) ↦{fullShare.right.left} G 1)
          ∗ (((c : Thread nD τ).loc main_v7) ↦{fullShare.right.right} G 2)
          ∗ (((c : Thread nD τ).loc main_v8_0) ↦{fullShare} G 3) ∗ (((c : Thread nD τ).loc main_v8_1) ↦{fullShare} G 4)) := by
  unfold Dat.arrays
  rw [bigSep_W1, (arr_whole1 0).set_eq_univ, (arr_whole1 3).set_eq_univ,
    (arr_whole1 4).set_eq_univ, share1_0, share1_1, share1_2, share1_3, share1_4]
end Split1

/-! ## Two facts about a pipeline's arrays -/

/-- An array whose window never writes back holds, after any number of points, what the region found in it. -/
theorem arrAt_of_no_flush {cfg : Cfg sig Λ₀} {c : Dev nD} (dat : Dat τ (Elt F) Unit ℕ (UR sig nD τ) ℕ cfg c) (w : Fin cfg.W)
    (h : ∀ t, (cfg.win w).flush t = false) : ∀ n, dat.arrAt w n = dat.A w
  | 0 => rfl
  | n + 1 => by
    rw [Dat.arrAt]
    dsimp only
    split
    · next hn => rw [h ⟨n, hn⟩]; exact arrAt_of_no_flush dat w h n
    · exact arrAt_of_no_flush dat w h n

/-- The distinct buffers behind region 1's five windows: the fused projection array and the two outputs. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v7) ↦{fullShare} V main_v7) ∗ (((c : Thread nD τ).loc main_v8_0) ↦{fullShare} V main_v8_0)
          ∗ (((c : Thread nD τ).loc main_v8_1) ↦{fullShare} V main_v8_1)) := by
  unfold Pipeline.arrBufs
  rw [show Finset.univ.image (Pipeline.arrRef spec1) = {main_v7, main_v8_0, main_v8_1} from by decide,
    bigSep_insert (by decide), bigSep_insert (by decide), bigSep_singleton]
  rfl

variable (m : (ℓ : Loc nD τ sig) → Buf (Elt F) ℓ) (ρ : Dev nD → PrngReg)

/-! ## The buffers' contents at each boundary of @main -/

/-- Core c's buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: the two output arrays at what the pipeline leaves; the fused projection array, which its three
    input windows only read, and every other buffer as entered. -/
def W3 (c : Dev nD) : Valuation τ sig (Elt F) :=
  Function.update (Function.update (W2 m c) (Proc.devRef .tc main_v8_0) ((dat1 (V2 m) c).arrAt 3 cfg1.N))
    (Proc.devRef .tc main_v8_1) ((dat1 (V2 m) c).arrAt 4 cfg1.N)
abbrev V3 : (c : Dev nD) → (b : Ref sig .tc) → Buf (Elt F) ((c : Thread nD τ).loc b) := fun c b => W3 m c b
theorem W3_v8_1 (c : Dev nD) : V3 m c main_v8_1 = (dat1 (V2 m) c).arrAt 4 cfg1.N := by
  show W3 m c (Proc.devRef .tc main_v8_1) = _
  unfold W3; rw [Function.update_self]
theorem W3_v8_0 (c : Dev nD) : V3 m c main_v8_0 = (dat1 (V2 m) c).arrAt 3 cfg1.N := by
  show W3 m c (Proc.devRef .tc main_v8_0) = _
  unfold W3
  rw [Function.update_of_ne (StableHlo.devRef_ne_of_ne (by decide : main_v8_0 ≠ main_v8_1)), Function.update_self]
theorem W3_of_ne (c : Dev nD) (b : Ref sig .tc) (h0 : b ≠ main_v8_0) (h1 : b ≠ main_v8_1) : V3 m c b = V2 m c b := by
  show W3 m c (Proc.devRef .tc b) = W2 m c (Proc.devRef .tc b)
  unfold W3
  rw [Function.update_of_ne (StableHlo.devRef_ne_of_ne h1), Function.update_of_ne (StableHlo.devRef_ne_of_ne h0)]

/-- After the second host stretch (region 2's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- At region 2's exit. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)
/-- After the last host stretch: what @main returns from. -/
abbrev W6 : Dev nD → Valuation τ sig (Elt F) := fun c => StableHlo.after hostOps3 (W5 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 1's arrays out of, and back into, the core's unscoped buffers -/

theorem unscopedRest1_congr (c : Dev nD) :
    (Pipeline.unscopedRest (Ix := Unit) (Name := ℕ) (U := UR sig nD τ) (Lvl := ℕ) spec1 c (V3 m c) : sProp 𝕄)
      = Pipeline.unscopedRest spec1 c (V2 m c) := by
  unfold Pipeline.unscopedRest
  refine bigSep_congr fun b hb => ?_
  have hb' := (Finset.mem_sdiff.mp hb).2
  rw [W3_of_ne m c b (fun e => hb' (e ▸ Finset.mem_image.mpr ⟨3, Finset.mem_univ _, rfl⟩))
    (fun e => hb' (e ▸ Finset.mem_image.mpr ⟨4, Finset.mem_univ _, rfl⟩))]

/-- ENTRY: every unscoped buffer at region 1's entry contents is the pipeline's arrays at those contents — the fused
    projection array split among its three readers — beside the buffers that are no window's array. -/
theorem entry1 (c : Dev nD) :
    (StableHlo.held (c : Thread nD τ) (Pipeline.ucRefs τ sig) (W2 m c) : sProp 𝕄)
      ⊢ iprop((dat1 (V2 m) c).arrays ((dat1 (V2 m) c).arrAt · 0) ∗ Pipeline.unscopedRest spec1 c (V2 m c)) := by
  rw [← Pipeline.unscopedBufs_held (Ix := Unit) (Name := ℕ) (U := UR sig nD τ) (Lvl := ℕ) c (W2 m c),
    Pipeline.unscopedBufs_split₀ (Pipeline.pin (pcfgs (F := F)) adm) 1 winFacts₀1.arr_unscoped c (V2 m c)]
  refine sep_mono ?_ .rfl
  show (Pipeline.arrBufs spec1 c (V2 m c) : sProp 𝕄) ⊢ _
  rw [arrBufs1_eq, arrays1_eq]
  iintro ⟨H7, H80, H81⟩
  ihave H7' := (pointsTo_share (PosShare.mem_left_op_right fullShare)).1 $$ H7
  icases H7' with ⟨Ha, Hbc⟩
  ihave Hbc' := (pointsTo_share (PosShare.mem_left_op_right fullShare.right)).1 $$ Hbc
  icases Hbc' with ⟨Hb, Hc⟩
  isplitl [Ha]; · iexact Ha
  isplitl [Hb]; · iexact Hb
  isplitl [Hc]; · iexact Hc
  isplitl [H80]; · iexact H80
  iexact H81

/-- EXIT: the arrays at what the pipeline leaves — the three readers' shares of the fused projection array, still at
    the entry contents, joined again — beside the other buffers are every unscoped buffer at the exit contents. -/
theorem exit1 (c : Dev nD) :
    iprop((dat1 (V2 m) c).arrays ((dat1 (V2 m) c).arrAt · cfg1.N) ∗ Pipeline.unscopedRest spec1 c (V2 m c))
      ⊢ (StableHlo.held (c : Thread nD τ) (Pipeline.ucRefs τ sig) (W3 m c) : sProp 𝕄) := by
  rw [← Pipeline.unscopedBufs_held (Ix := Unit) (Name := ℕ) (U := UR sig nD τ) (Lvl := ℕ) c (W3 m c),
    Pipeline.unscopedBufs_split₀ (Pipeline.pin (pcfgs (F := F)) adm) 1 winFacts₀1.arr_unscoped c (V3 m c)]
  refine BI.sep_mono ?_ (Entails.of_eq (show (Pipeline.unscopedRest spec1 c (V2 m c) : sProp 𝕄) = Pipeline.unscopedRest spec1 c (V3 m c)
    from (unscopedRest1_congr m c).symm))
  show _ ⊢ (Pipeline.arrBufs spec1 c (V3 m c) : sProp 𝕄)
  rw [arrBufs1_eq, arrays1_eq, arrAt_of_no_flush (dat1 (V2 m) c) 0 (fun _ => rfl), arrAt_of_no_flush (dat1 (V2 m) c) 1 (fun _ => rfl),
    arrAt_of_no_flush (dat1 (V2 m) c) 2 (fun _ => rfl), W3_v8_0, W3_v8_1,
    W3_of_ne m c main_v7 (by decide) (by decide)]
  iintro ⟨Ha, Hb, Hc, H80, H81⟩
  isplitl [Ha Hb Hc]
  · iapply (pointsTo_share (PosShare.mem_left_op_right fullShare)).2
    isplitl [Ha]; · iexact Ha
    iapply (pointsTo_share (PosShare.mem_left_op_right fullShare.right)).2
    isplitl [Hb]; · iexact Hb
    iexact Hc
  isplitl [H80]; · iexact H80
  iexact H81

set_option backward.isDefEq.respectTransparency.types false in
/-- Region 0 over the thread state: entered from every unscoped buffer at its entry contents, left at its exit contents.
    Its arrays are split out of the unscoped buffers and put back at what the pipeline leaves; the generator register
    goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state. Its three input windows read one array, so that array's buffer is split among them
    at entry and joined again at exit (entry1, exit1); the rest is as for the other regions. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left at its exit contents.
    Its arrays are split out of the unscoped buffers and put back at what the pipeline leaves; the generator register
    goes into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- No operation of a host stretch allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-! ## @main as segments, and the launch -/

/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's six segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)) ]

theorem main_run (c : Dev nD) : main (F := F) c = Pipeline.Seg.run (segs m) := (main_chain c).trans (by chain_rfl)

/-- The last thread state without the owes: every unscoped buffer at the last boundary's contents, the generator
    register at some state. -/
abbrev Tₙ (c : Dev nD) : sProp 𝕄 := iprop(StableHlo.held (c : Thread nD τ) (Pipeline.ucRefs τ sig) (W6 m c) ∗ ∃ r, prngReg c r)

set_option backward.isDefEq.respectTransparency.types false in
/-- THE RUN: from any memory with zero counters every weakly fair execution of @main on the TensorCores terminates,
    nothing faulting, and every final state holds each unscoped buffer at the last boundary's contents W6. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## What a host stretch leaves alone -/

/-- The first host stretch writes main_v0 … main_v6 only. -/
theorem keep0 (W : Valuation τ sig (Elt F)) (b : Ref sig .tc)
    (h : ∀ r ∈ ([main_v0, main_v1, main_v2, main_v3, main_v4, main_v5, main_v6] : List (Ref sig .tc)), b ≠ r) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (h _ (by decide))))

/-- The second host stretch writes main_v9, main_v10, main_v11 only. -/
theorem keep2 (W : Valuation τ sig (Elt F)) (b : Ref sig .tc)
    (h : ∀ r ∈ ([main_v9, main_v10, main_v11] : List (Ref sig .tc)), b ≠ r) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.reshape_writes, StableHlo.nary_writes, Finset.mem_singleton]
    repeat' apply And.intro
    all_goals exact StableHlo.devRef_ne_of_ne (h _ (by decide))))

/-- The last host stretch writes main_v13 only. -/
theorem keep3 (W : Valuation τ sig (Elt F)) (b : Ref sig .tc) (h : b ≠ main_v13) :
    StableHlo.after hostOps3 W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.reshape_writes, StableHlo.nary_writes, Finset.mem_singleton]
    exact StableHlo.devRef_ne_of_ne h))

/-! ## A buffer nothing writes ends as launched; the frame -/

/-- A buffer that no host stretch writes and that is no array of region 0 or region 2 and neither output of region 1
    holds at the end what the launch memory held. -/
theorem W6_keep (c : Dev nD) (b : Ref sig .tc)
    (h0 : ∀ r ∈ ([main_v0, main_v1, main_v2, main_v3, main_v4, main_v5, main_v6] : List (Ref sig .tc)), b ≠ r)
    (h2 : ∀ r ∈ ([main_v9, main_v10, main_v11] : List (Ref sig .tc)), b ≠ r) (h3 : b ≠ main_v13)
    (ha0 : ∀ w, Pipeline.arrRef spec0 w ≠ b) (h80 : b ≠ main_v8_0) (h81 : b ≠ main_v8_1) (ha2 : ∀ w, Pipeline.arrRef spec2 w ≠ b) :
    W6 m c (Proc.devRef .tc b) = m ((c : Thread nD τ).loc b) :=
  calc W6 m c (Proc.devRef .tc b)
    _ = W5 m c (Proc.devRef .tc b) := keep3 _ b h3
    _ = W4 m c (Proc.devRef .tc b) := W5_of_ne m c b ha2
    _ = W3 m c (Proc.devRef .tc b) := keep2 _ b h2
    _ = W2 m c (Proc.devRef .tc b) := W3_of_ne m c b h80 h81
    _ = W1 m c (Proc.devRef .tc b) := W2_of_ne m c b ha0
    _ = W0 m c (Proc.devRef .tc b) := keep0 _ b h0
    _ = m ((c : Thread nD τ).loc b) := rfl

/-- THE FRAME, at any F: every weakly fair execution of @main terminates, nothing faulting, and every final state has
    the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W6_keep m c main_arg0 (by decide) (by decide) (by decide) (by decide) (by decide) (by decide) (by decide)),
     (h c _ (mem_uc main_arg1 (by decide))).trans (W6_keep m c main_arg1 (by decide) (by decide) (by decide) (by decide) (by decide) (by decide) (by decide)),
     (h c _ (mem_uc main_arg2 (by decide))).trans (W6_keep m c main_arg2 (by decide) (by decide) (by decide) (by decide) (by decide) (by decide) (by decide)),
     (h c _ (mem_uc main_arg3 (by decide))).trans (W6_keep m c main_arg3 (by decide) (by decide) (by decide) (by decide) (by decide) (by decide) (by decide)),
     (h c _ (mem_uc main_arg4 (by decide))).trans (W6_keep m c main_arg4 (by decide) (by decide) (by decide) (by decide) (by decide) (by decide) (by decide)),
     (h c _ (mem_uc main_arg5 (by decide))).trans (W6_keep m c main_arg5 (by decide) (by decide) (by decide) (by decide) (by decide) (by decide) (by decide)),
     (h c _ (mem_uc main_arg6 (by decide))).trans (W6_keep m c main_arg6 (by decide) (by decide) (by decide) (by decide) (by decide) (by decide) (by decide)),
     (h c _ (mem_uc main_arg7 (by decide))).trans (W6_keep m c main_arg7 (by decide) (by decide) (by decide) (by decide) (by decide) (by decide) (by decide)),
     (h c _ (mem_uc main_arg8 (by decide))).trans (W6_keep m c main_arg8 (by decide) (by decide) (by decide) (by decide) (by decide) (by decide) (by decide))⟩)
    (run_all m ρ)

end Cert.KernelIdeal.Hand

end
-- ==== Proof.Spec.lean ====
/-
  What both programs compute, as one function of the nine argument arrays, element by element on the extended reals.

  Multi-head attention over x : [4, 2048, 1024] with 16 heads of width 64. A projection of x by a weight W and a bias b
  is, at batch bi, position s and column e, the sum over d of x(bi, s, d) · W(d, e), plus b(e). Head h owns the columns
  64·h … 64·h + 63 of the three projections (queries, keys, values). The score of query position q against key
  position k in head h is the inner product of the two 64-wide rows, divided by 8 (the square root of the head
  width). Each score row is normalised by the exponential of its difference to the row's maximum, divided by the sum of
  those exponentials: the attention weights, the second result. The weights applied to the value rows give, per head,
  64 columns of a [4, 2048, 1024] context array; the first result is the projection of that array by Wo and bo.

  The three float words that occur (−∞ as the maximum's start value, 8.0, and the zero a sum starts from) are kept as
  the words the programs print, read at the exact instance; nothing here depends on the order in which a sum is taken.
-/
import Idealize.ShloMosaic.PureOps.Ideal
import Idealize.ShloMosaic.Lib.ValueIdx

noncomputable section

open scoped BigOperators
open Idealize.ShloMosaic Idealize.ShloMosaic.ValueIdx

namespace Cert.Attn

/-- An activation array [4, 2048, 1024], a weight [1024, 1024] and a bias [1024], as functions of an index. -/
abbrev Act : Type := (⟨3, ![4, 2048, 1024]⟩ : Shape).Idx → EReal
abbrev Wgt : Type := (⟨2, ![1024, 1024]⟩ : Shape).Idx → EReal
abbrev Bias : Type := (⟨1, ![1024]⟩ : Shape).Idx → EReal
/-- The attention weights [4, 16, 2048, 2048]. -/
abbrev Wts : Type := (⟨4, ![4, 16, 2048, 2048]⟩ : Shape).Idx → EReal

/-- The start value of a row maximum: the word of −∞. -/
def negInf : EReal := Ideal.ofBits .f32 0xFF800000#32
/-- The divisor of the scores: the word of 8.0. -/
def eight : EReal := Ideal.ofBits .f32 0x41000000#32

/-- Column d of head h among the 1024 columns of a projection. -/
def col (h : Fin 16) (d : Fin 64) : Fin 1024 := ⟨h.val * 64 + d.val, by have := h.isLt; have := d.isLt; omega⟩

/-- The head a column belongs to. -/
def headOf (e : Fin 1024) : Fin 16 := ⟨e.val / 64, by have := e.isLt; omega⟩

/-- x · W + b at (bi, s, e). -/
def proj (x : Act) (W : Wgt) (b : Bias) (bi : Fin 4) (s : Fin 2048) (e : Fin 1024) : EReal :=
  (∑ d : Fin 1024, x (ix3 bi s d) * W (ix2 d e)) + b (ix1 e)

section
variable (x : Act) (Wq : Wgt) (bq : Bias) (Wk : Wgt) (bk : Bias) (Wv : Wgt) (bv : Bias) (Wo : Wgt) (bo : Bias)

/-- The score of query q against key k in head h of batch bi: the inner product of the two projected rows over the
    head's 64 columns, divided by 8. -/
def score (bi : Fin 4) (h : Fin 16) (q k : Fin 2048) : EReal :=
  Ideal.div (∑ d : Fin 64, proj x Wq bq bi q (col h d) * proj x Wk bk bi k (col h d)) eight

/-- The maximum of a score row, taken from −∞. -/
def rowMax (bi : Fin 4) (h : Fin 16) (q : Fin 2048) : EReal :=
  (Finset.univ : Finset (Fin 2048)).fold max negInf (fun k => score x Wq bq Wk bk bi h q k)

/-- The exponential of a score's difference to its row's maximum. -/
def ex (bi : Fin 4) (h : Fin 16) (q k : Fin 2048) : EReal :=
  Ideal.exp (score x Wq bq Wk bk bi h q k - rowMax x Wq bq Wk bk bi h q)

/-- The sum of a row's exponentials. -/
def den (bi : Fin 4) (h : Fin 16) (q : Fin 2048) : EReal :=
  ∑ k : Fin 2048, ex x Wq bq Wk bk bi h q k

/-- The attention weight of key k for query q. -/
def attn (bi : Fin 4) (h : Fin 16) (q k : Fin 2048) : EReal :=
  Ideal.div (ex x Wq bq Wk bk bi h q k) (den x Wq bq Wk bk bi h q)

/-- The context array at (bi, s, e): the weights of e's head at row s applied to column e of the value projection. -/
def ctx (bi : Fin 4) (s : Fin 2048) (e : Fin 1024) : EReal :=
  ∑ k : Fin 2048, attn x Wq bq Wk bk bi (headOf e) s k * proj x Wv bv bi k e

/-- The first result: the context array projected by Wo and bo. -/
def outAt (bi : Fin 4) (s : Fin 2048) (e : Fin 1024) : EReal :=
  (∑ d : Fin 1024, ctx x Wq bq Wk bk Wv bv bi s d * Wo (ix2 d e)) + bo (ix1 e)

/-- The first result as an array. -/
def G_out : Act := fun i => outAt x Wq bq Wk bk Wv bv Wo bo (i 0) (i 1) (i 2)

/-- The second result as an array. -/
def G_attn : Wts := fun i => attn x Wq bq Wk bk (i 0) (i 1) (i 2) (i 3)

end

/-- A column's head and lane recover the column. -/
theorem col_headOf (e : Fin 1024) : col (headOf e) ⟨e.val % 64, Nat.mod_lt _ (by decide)⟩ = e :=
  Fin.ext (by show e.val / 64 * 64 + e.val % 64 = e.val; omega)

/-- The head of a head's column is that head. -/
theorem headOf_col (h : Fin 16) (d : Fin 64) : headOf (col h d) = h :=
  Fin.ext (by show (h.val * 64 + d.val) / 64 = h.val; have := d.isLt; omega)

/-- A maximum taken from a start value is at least that value, so a further maximum with it changes nothing. -/
theorem max_start_fold {ι : Type} (s : Finset ι) (a : EReal) (f : ι → EReal) : max a (s.fold max a f) = s.fold max a f :=
  max_eq_right (Finset.le_fold_max a |>.mpr (Or.inl le_rfl))

end Cert.Attn

end
-- ==== Proof.KForm.lean ====
/-
  The same stages as the kernel computes them, over the arrays its three regions pass to each other.

  Region 0 leaves one fused array A : [8192, 3072]: row bi·2048 + s is batch bi, position s; columns 0 … 1023 are the
  query projection, 1024 … 2047 the key projection, 2048 … 3071 the value projection. Region 1 reads, for a batch, a
  pair of heads and a block of 256 query rows, the 128 columns of the pair in each of the three column ranges; it
  multiplies the inner products by the word of 0.125 (where the specification divides by 8), normalises each row as the
  specification does, and writes the weights into a [4, 8, 2, 2048, 2048] array (batch, head pair, head of the pair,
  query, key) and the weighted value rows into a [8192, 1024] array. Region 2 multiplies that array by the output
  weight and adds the output bias.
-/
import proofs.«114294_j50929722196421_2_alg».proof.Proof.Spec

noncomputable section

open scoped BigOperators
open Idealize.ShloMosaic Idealize.ShloMosaic.ValueIdx

namespace Cert.Attn

/-- The fused projection array [8192, 3072], a [8192, 1024] activation array and a [1024, n] weight, as functions. -/
abbrev Fused : Type := (⟨2, ![8192, 3072]⟩ : Shape).Idx → EReal
abbrev Flat : Type := (⟨2, ![8192, 1024]⟩ : Shape).Idx → EReal

/-- The word of 0.125 the kernel multiplies the inner products by. -/
def eighth : EReal := Ideal.ofBits .f32 0x3E000000#32

/-- Row bi·2048 + s of a flattened [4·2048, n] array. -/
def row (bi : Fin 4) (s : Fin 2048) : Fin 8192 := ⟨bi.val * 2048 + s.val, by have := bi.isLt; have := s.isLt; omega⟩
/-- The batch and the position of a flattened row. -/
def batchOf (r : Fin 8192) : Fin 4 := ⟨r.val / 2048, by have := r.isLt; omega⟩
def posOf (r : Fin 8192) : Fin 2048 := ⟨r.val % 2048, Nat.mod_lt _ (by decide)⟩
theorem row_batchOf_posOf (r : Fin 8192) : row (batchOf r) (posOf r) = r :=
  Fin.ext (by show r.val / 2048 * 2048 + r.val % 2048 = r.val; omega)
theorem batchOf_row (bi : Fin 4) (s : Fin 2048) : batchOf (row bi s) = bi :=
  Fin.ext (by show (bi.val * 2048 + s.val) / 2048 = bi.val; have := s.isLt; omega)
theorem posOf_row (bi : Fin 4) (s : Fin 2048) : posOf (row bi s) = s :=
  Fin.ext (by show (bi.val * 2048 + s.val) % 2048 = s.val; have := s.isLt; omega)
/-- The query, key and value columns of column e among the fused array's 3072. -/
def qcol (e : Fin 1024) : Fin 3072 := ⟨e.val, by have := e.isLt; omega⟩
def kcol (e : Fin 1024) : Fin 3072 := ⟨1024 + e.val, by have := e.isLt; omega⟩
def vcol (e : Fin 1024) : Fin 3072 := ⟨2048 + e.val, by have := e.isLt; omega⟩
/-- Head 2·h2 + hh: the hh-th head of pair h2. -/
def headOfPair (h2 : Fin 8) (hh : Fin 2) : Fin 16 := ⟨2 * h2.val + hh.val, by have := h2.isLt; have := hh.isLt; omega⟩

section
variable (A : Fused)

/-- The kernel's score: the inner product of a query row and a key row over a head's 64 columns, times 0.125. -/
def kscore (bi : Fin 4) (h : Fin 16) (q k : Fin 2048) : EReal :=
  (∑ d : Fin 64, A (ix2 (row bi q) (qcol (col h d))) * A (ix2 (row bi k) (kcol (col h d)))) * eighth

/-- The maximum of a kernel score row, taken from −∞. -/
def kmax (bi : Fin 4) (h : Fin 16) (q : Fin 2048) : EReal :=
  (Finset.univ : Finset (Fin 2048)).fold max negInf (fun k => kscore A bi h q k)

/-- The exponential of a kernel score's difference to its row's maximum. -/
def kex (bi : Fin 4) (h : Fin 16) (q k : Fin 2048) : EReal :=
  Ideal.exp (kscore A bi h q k - kmax A bi h q)

/-- The kernel's attention weight. -/
def kattn (bi : Fin 4) (h : Fin 16) (q k : Fin 2048) : EReal :=
  Ideal.div (kex A bi h q k) (∑ k' : Fin 2048, kex A bi h q k')

/-- The kernel's context array at (bi·2048 + s, e). -/
def kctx (bi : Fin 4) (s : Fin 2048) (e : Fin 1024) : EReal :=
  ∑ k : Fin 2048, kattn A bi (headOf e) s k * A (ix2 (row bi k) (vcol e))

end

/-- A flattened array times a [1024, n] weight plus a [1, n] bias row, at (r, e): what regions 0 and 2 compute. -/
def linAt {n : Nat} (X : (⟨2, ![8192, 1024]⟩ : Shape).Idx → EReal) (W : (⟨2, ![1024, n]⟩ : Shape).Idx → EReal)
    (B : (⟨2, ![1, n]⟩ : Shape).Idx → EReal) (r : Fin 8192) (e : Fin n) : EReal :=
  (∑ d : Fin 1024, X (ix2 r d) * W (ix2 d e)) + B (ix2 0 e)

/-- Multiplying by the word of 0.125 is dividing by the word of 8.0, on every extended real. -/
theorem mul_eighth (x : EReal) : x * eighth = Ideal.div x eight := by
  have h8 : eight = ((8 : ℝ) : EReal) := by
    unfold eight; simp [Ideal.ofBits, Ideal.ieee, -EReal.coe_mul]; norm_num
  have h18 : eighth = ((1 / 8 : ℝ) : EReal) := by
    unfold eighth; simp [Ideal.ofBits, Ideal.ieee, -EReal.coe_mul]; norm_num
  rw [h8, h18, Ideal.div_coe (by norm_num : (8 : ℝ) ≠ 0)]

end Cert.Attn

end
-- ==== Proof.Pay.lean ====
/-
  Each value the three kernel bodies store, read at one index, on the extended reals.

  The two projection bodies store, for a [512, 1024] block x of rows, a weight W and a one-row bias b, the block
  x · W + b: at row p and column e the sum over the 1024 inner positions d of x(p, d) · W(d, e), plus b(0, e).

  The attention body takes, per head, a query block q : [256, 64] and key and value blocks k, v : [2048, 64]. The score
  of query row r against key row j is the inner product of the two 64-wide rows times the word of 0.125; a score row is
  normalised by the exponential of its difference to the row's maximum (taken from the word of −∞), divided by the sum of
  those exponentials: the block's attention weights, stored as they are, and, applied to the value rows, stored as a
  [256, 64] block. The second head of a pair is the same function of the blocks the first part hands on, which are the
  loaded blocks themselves: a change of format is the identity on the extended reals, and so is a cast to the same shape.

  Every statement is at explicit coordinates. A matrix product into the zero matrix is read as the sum over its one
  contracted axis; a row maximum and a row sum as the fold and the sum over the 2048 columns; a column cast, a row
  broadcast, a transpose and the cast to [1, 1, 1, 256, 2048] each read one entry of their operand.
-/
import proofs.«114294_j50929722196421_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The two projection products, read at an entry -/

abbrev D0 := dot_S512x1024_S1024x3072_S512x3072_1_0_0_1_n_n
abbrev D3 := dot_S512x1024_S1024x1024_S512x1024_1_0_0_1_n_n

theorem D0_lhs0 (i : S512x3072.Idx) (q : D0.contr.Idx) : (D0.lhsIdx i q 0).val = (i 0).val := by
  unfold DotDims.lhsIdx
  rw [dif_neg (show ¬(0 : Fin S512x1024.rank) ∈ D0.lhsBatch by decide), dif_pos (show (0 : Fin S512x1024.rank) ∈ D0.lhsNonContracting by decide)]
  rfl
theorem D0_lhs1 (i : S512x3072.Idx) (q : D0.contr.Idx) : (D0.lhsIdx i q 1).val = (q ⟨0, by decide⟩).val :=
  D0.lhsIdx_val_of_single rfl i q
theorem D0_rhs0 (i : S512x3072.Idx) (q : D0.contr.Idx) : (D0.rhsIdx i q 0).val = (q ⟨0, by decide⟩).val :=
  D0.rhsIdx_val_of_single rfl i q
theorem D0_rhs1 (i : S512x3072.Idx) (q : D0.contr.Idx) : (D0.rhsIdx i q 1).val = (i 1).val := by
  unfold DotDims.rhsIdx
  rw [dif_neg (show ¬(1 : Fin S1024x3072.rank) ∈ D0.rhsBatch by decide), dif_pos (show (1 : Fin S1024x3072.rank) ∈ D0.rhsNonContracting by decide)]
  rfl

/-- A [512, 1024] by [1024, 3072] product into the zero matrix, at (p, e): the sum over the 1024 inner positions. -/
theorem D0_apply {φ₁ φ₂ : FTy} (lhs : FVec Ideal S512x1024 φ₁) (rhs : FVec Ideal S1024x3072 φ₂) (p : Fin 512) (e : Fin 3072) :
    matmul D0 none lhs rhs (constant (F := Ideal) S512x3072 .f32 0x00000000#32) (ix2 p e)
      = ∑ d : Fin 1024, lhs (ix2 p d) * rhs (ix2 d e) := by
  simp only [matmul]
  rw [Ideal.matmul_constant_zero_apply, ← Equiv.sum_comp (contrEquiv1 D0 1024 rfl rfl).symm]
  refine Finset.sum_congr rfl fun k _ => ?_
  have hk := contrEquiv1_symm_val D0 1024 rfl rfl k
  have el : D0.lhsIdx (ix2 p e) ((contrEquiv1 D0 1024 rfl rfl).symm k) = ix2 p k := funext fun a => Fin.ext (by
    match a with
    | ⟨0, _⟩ => exact D0_lhs0 _ _
    | ⟨1, _⟩ => exact (D0_lhs1 _ _).trans hk)
  have er : D0.rhsIdx (ix2 p e) ((contrEquiv1 D0 1024 rfl rfl).symm k) = ix2 k e := funext fun a => Fin.ext (by
    match a with
    | ⟨0, _⟩ => exact (D0_rhs0 _ _).trans hk
    | ⟨1, _⟩ => exact D0_rhs1 _ _)
  rw [el, er]

theorem D3_lhs0 (i : S512x1024.Idx) (q : D3.contr.Idx) : (D3.lhsIdx i q 0).val = (i 0).val := by
  unfold DotDims.lhsIdx
  rw [dif_neg (show ¬(0 : Fin S512x1024.rank) ∈ D3.lhsBatch by decide), dif_pos (show (0 : Fin S512x1024.rank) ∈ D3.lhsNonContracting by decide)]
  rfl
theorem D3_lhs1 (i : S512x1024.Idx) (q : D3.contr.Idx) : (D3.lhsIdx i q 1).val = (q ⟨0, by decide⟩).val :=
  D3.lhsIdx_val_of_single rfl i q
theorem D3_rhs0 (i : S512x1024.Idx) (q : D3.contr.Idx) : (D3.rhsIdx i q 0).val = (q ⟨0, by decide⟩).val :=
  D3.rhsIdx_val_of_single rfl i q
theorem D3_rhs1 (i : S512x1024.Idx) (q : D3.contr.Idx) : (D3.rhsIdx i q 1).val = (i 1).val := by
  unfold DotDims.rhsIdx
  rw [dif_neg (show ¬(1 : Fin S1024x1024.rank) ∈ D3.rhsBatch by decide), dif_pos (show (1 : Fin S1024x1024.rank) ∈ D3.rhsNonContracting by decide)]
  rfl

/-- A [512, 1024] by [1024, 1024] product into the zero matrix, at (p, e): the sum over the 1024 inner positions. -/
theorem D3_apply {φ₁ φ₂ : FTy} (lhs : FVec Ideal S512x1024 φ₁) (rhs : FVec Ideal S1024x1024 φ₂) (p : Fin 512) (e : Fin 1024) :
    matmul D3 none lhs rhs (constant (F := Ideal) S512x1024 .f32 0x00000000#32) (ix2 p e)
      = ∑ d : Fin 1024, lhs (ix2 p d) * rhs (ix2 d e) := by
  simp only [matmul]
  rw [Ideal.matmul_constant_zero_apply, ← Equiv.sum_comp (contrEquiv1 D3 1024 rfl rfl).symm]
  refine Finset.sum_congr rfl fun k _ => ?_
  have hk := contrEquiv1_symm_val D3 1024 rfl rfl k
  have el : D3.lhsIdx (ix2 p e) ((contrEquiv1 D3 1024 rfl rfl).symm k) = ix2 p k := funext fun a => Fin.ext (by
    match a with
    | ⟨0, _⟩ => exact D3_lhs0 _ _
    | ⟨1, _⟩ => exact (D3_lhs1 _ _).trans hk)
  have er : D3.rhsIdx (ix2 p e) ((contrEquiv1 D3 1024 rfl rfl).symm k) = ix2 k e := funext fun a => Fin.ext (by
    match a with
    | ⟨0, _⟩ => exact (D3_rhs0 _ _).trans hk
    | ⟨1, _⟩ => exact D3_rhs1 _ _)
  rw [el, er]

/-! ## The projection payloads at an index -/

/-- The fused projection's stored block at (p, e): row p of x against column e of the weight, plus the bias row at e. -/
theorem k0_pay1_apply (v0 : Vec Ideal S512x1024 .f32) (v3 : Vec Ideal S1024x3072 .bf16) (v6 : Vec Ideal S1x3072 .f32) (p : Fin 512) (e : Fin 3072) :
    k0_pay1 v0 v3 v6 (ix2 p e) = (∑ d : Fin 1024, v0 (ix2 p d) * v3 (ix2 d e)) + v6 (ix2 0 e) := by
  unfold k0_pay1
  simp only [shapeCast_self]
  rw [addf_apply, D0_apply, broadcastTo_1b_ab_apply]
  rfl

/-- The output projection's stored block at (p, e), likewise. -/
theorem k2_pay1_apply (v0 : Vec Ideal S512x1024 .f32) (v3 : Vec Ideal S1024x1024 .bf16) (v6 : Vec Ideal S1x1024 .f32) (p : Fin 512) (e : Fin 1024) :
    k2_pay1 v0 v3 v6 (ix2 p e) = (∑ d : Fin 1024, v0 (ix2 p d) * v3 (ix2 d e)) + v6 (ix2 0 e) := by
  unfold k2_pay1
  simp only [shapeCast_self]
  rw [addf_apply, D3_apply, broadcastTo_1b_ab_apply]
  rfl

/-! ## Layout steps of the row softmax, read at coordinates -/

variable {α : Type}

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its rows to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix [a, b] cast to [1, 1, 1, a, b] reads, at (u, v, w, i, j), the matrix at (i, j). -/
theorem shapeCast_ab_111ab_apply {a b : ℕ} (x : (⟨2, ![a, b]⟩ : Shape).Idx → α)
    (h : (⟨2, ![a, b]⟩ : Shape).ShapeCasts ⟨5, ![1, 1, 1, a, b]⟩) (u v w : Fin 1) (i : Fin a) (j : Fin b) :
    shapeCast ⟨5, ![1, 1, 1, a, b]⟩ x h (ix5 u v w i j) = x (ix2 i j) :=
  shapeCast_apply x h _ _ (by
    have hu : u.val = 0 := by omega
    have hv : v.val = 0 := by omega
    have hw : w.val = 0 := by omega
    rw [Shape.rowMajor_val_five, Shape.rowMajor_val_two]
    show i.val * b + j.val = (((u.val * 1 + v.val) * 1 + w.val) * a + i.val) * b + j.val
    rw [hu, hv, hw]; simp)

/-! ## The two row reductions of a [256, 2048] matrix -/

/-- The index over row r with column k inserted is (r, k). -/
theorem lift_row (r : Fin 256) (k : Fin 2048) : reduces_S256x2048_S256.lift (ix1 r) k = ix2 r k :=
  funext fun a => Fin.ext (by match a with | ⟨0, _⟩ => rfl | ⟨1, _⟩ => rfl)

/-- The maximum over the columns, from the word of −∞, at row r. -/
theorem rowMax_apply (src : FVec Ideal S256x2048 .f32) (r : Fin 256) :
    multiReduction .maximumf [1] S256 src 0xFF800000#32 reduces_S256x2048_S256 (.inl rfl) rfl (ix1 r)
      = (Finset.univ : Finset (Fin 2048)).fold max (Ideal.ofBits .f32 0xFF800000#32) (fun j => src (ix2 r j)) := by
  refine (Ideal.multiReduction_maximumf_single src 0xFF800000#32 reduces_S256x2048_S256 (.inl rfl) rfl (ix1 r)).trans ?_
  have hf : (fun k : Fin 2048 => src (reduces_S256x2048_S256.lift (ix1 r) k)) = fun j => src (ix2 r j) :=
    funext fun k => congrArg src (lift_row r k)
  exact congrArg (fun f => (Finset.univ : Finset (Fin 2048)).fold max (Ideal.ofBits .f32 0xFF800000#32) f) hf

/-- The sum over the columns at row r. -/
theorem rowSum_apply (src : FVec Ideal S256x2048 .f32) (r : Fin 256) :
    multiReduction .add [1] S256 src 0x00000000#32 reduces_S256x2048_S256 (.inl rfl) rfl (ix1 r)
      = ∑ j : Fin 2048, src (ix2 r j) := by
  refine (Ideal.multiReduction_add_single src 0x00000000#32 reduces_S256x2048_S256 (.inl rfl) rfl (ix1 r)).trans ?_
  exact Finset.sum_congr rfl fun k _ => congrArg src (lift_row r k)

/-! ## The two matrix products of the attention body, read at an entry -/

abbrev D1 := dot_S256x64_S64x2048_S256x2048_1_0_0_1_n_n
abbrev D2 := dot_S256x2048_S2048x64_S256x64_1_0_0_1_n_n

theorem D1_lhs0 (i : S256x2048.Idx) (q : D1.contr.Idx) : (D1.lhsIdx i q 0).val = (i 0).val := by
  unfold DotDims.lhsIdx
  rw [dif_neg (show ¬(0 : Fin S256x64.rank) ∈ D1.lhsBatch by decide), dif_pos (show (0 : Fin S256x64.rank) ∈ D1.lhsNonContracting by decide)]
  rfl
theorem D1_lhs1 (i : S256x2048.Idx) (q : D1.contr.Idx) : (D1.lhsIdx i q 1).val = (q ⟨0, by decide⟩).val :=
  D1.lhsIdx_val_of_single rfl i q
theorem D1_rhs0 (i : S256x2048.Idx) (q : D1.contr.Idx) : (D1.rhsIdx i q 0).val = (q ⟨0, by decide⟩).val :=
  D1.rhsIdx_val_of_single rfl i q
theorem D1_rhs1 (i : S256x2048.Idx) (q : D1.contr.Idx) : (D1.rhsIdx i q 1).val = (i 1).val := by
  unfold DotDims.rhsIdx
  rw [dif_neg (show ¬(1 : Fin S64x2048.rank) ∈ D1.rhsBatch by decide), dif_pos (show (1 : Fin S64x2048.rank) ∈ D1.rhsNonContracting by decide)]
  rfl

/-- A [256, 64] by [64, 2048] product into the zero matrix, at (r, j): the sum over the 64 inner positions. -/
theorem D1_apply {φ₁ φ₂ : FTy} (lhs : FVec Ideal S256x64 φ₁) (rhs : FVec Ideal S64x2048 φ₂) (r : Fin 256) (j : Fin 2048) :
    matmul D1 none lhs rhs (constant (F := Ideal) S256x2048 .f32 0x00000000#32) (ix2 r j)
      = ∑ d : Fin 64, lhs (ix2 r d) * rhs (ix2 d j) := by
  simp only [matmul]
  rw [Ideal.matmul_constant_zero_apply, ← Equiv.sum_comp (contrEquiv1 D1 64 rfl rfl).symm]
  refine Finset.sum_congr rfl fun k _ => ?_
  have hk := contrEquiv1_symm_val D1 64 rfl rfl k
  have el : D1.lhsIdx (ix2 r j) ((contrEquiv1 D1 64 rfl rfl).symm k) = ix2 r k := funext fun a => Fin.ext (by
    match a with
    | ⟨0, _⟩ => exact D1_lhs0 _ _
    | ⟨1, _⟩ => exact (D1_lhs1 _ _).trans hk)
  have er : D1.rhsIdx (ix2 r j) ((contrEquiv1 D1 64 rfl rfl).symm k) = ix2 k j := funext fun a => Fin.ext (by
    match a with
    | ⟨0, _⟩ => exact (D1_rhs0 _ _).trans hk
    | ⟨1, _⟩ => exact D1_rhs1 _ _)
  rw [el, er]

theorem D2_lhs0 (i : S256x64.Idx) (q : D2.contr.Idx) : (D2.lhsIdx i q 0).val = (i 0).val := by
  unfold DotDims.lhsIdx
  rw [dif_neg (show ¬(0 : Fin S256x2048.rank) ∈ D2.lhsBatch by decide), dif_pos (show (0 : Fin S256x2048.rank) ∈ D2.lhsNonContracting by decide)]
  rfl
theorem D2_lhs1 (i : S256x64.Idx) (q : D2.contr.Idx) : (D2.lhsIdx i q 1).val = (q ⟨0, by decide⟩).val :=
  D2.lhsIdx_val_of_single rfl i q
theorem D2_rhs0 (i : S256x64.Idx) (q : D2.contr.Idx) : (D2.rhsIdx i q 0).val = (q ⟨0, by decide⟩).val :=
  D2.rhsIdx_val_of_single rfl i q
theorem D2_rhs1 (i : S256x64.Idx) (q : D2.contr.Idx) : (D2.rhsIdx i q 1).val = (i 1).val := by
  unfold DotDims.rhsIdx
  rw [dif_neg (show ¬(1 : Fin S2048x64.rank) ∈ D2.rhsBatch by decide), dif_pos (show (1 : Fin S2048x64.rank) ∈ D2.rhsNonContracting by decide)]
  rfl

/-- A [256, 2048] by [2048, 64] product into the zero matrix, at (r, d): the sum over the 2048 inner positions. -/
theorem D2_apply {φ₁ φ₂ : FTy} (lhs : FVec Ideal S256x2048 φ₁) (rhs : FVec Ideal S2048x64 φ₂) (r : Fin 256) (d : Fin 64) :
    matmul D2 none lhs rhs (constant (F := Ideal) S256x64 .f32 0x00000000#32) (ix2 r d)
      = ∑ j : Fin 2048, lhs (ix2 r j) * rhs (ix2 j d) := by
  simp only [matmul]
  rw [Ideal.matmul_constant_zero_apply, ← Equiv.sum_comp (contrEquiv1 D2 2048 rfl rfl).symm]
  refine Finset.sum_congr rfl fun k _ => ?_
  have hk := contrEquiv1_symm_val D2 2048 rfl rfl k
  have el : D2.lhsIdx (ix2 r d) ((contrEquiv1 D2 2048 rfl rfl).symm k) = ix2 r k := funext fun a => Fin.ext (by
    match a with
    | ⟨0, _⟩ => exact D2_lhs0 _ _
    | ⟨1, _⟩ => exact (D2_lhs1 _ _).trans hk)
  have er : D2.rhsIdx (ix2 r d) ((contrEquiv1 D2 2048 rfl rfl).symm k) = ix2 k d := funext fun a => Fin.ext (by
    match a with
    | ⟨0, _⟩ => exact (D2_rhs0 _ _).trans hk
    | ⟨1, _⟩ => exact D2_rhs1 _ _)
  rw [el, er]

/-! ## The row softmax as the body prints it -/

/-- The printed chain from a score matrix to its row softmax: row maximum from −∞, difference, exponential, row sum, quotient. -/
def softmaxRows (x : FVec Ideal S256x2048 .f32) : FVec Ideal S256x2048 .f32 :=
  divf (exp (subf x (broadcastTo S256x2048 (shapeCast S256x1 (multiReduction .maximumf [1] S256 x 0xFF800000#32 reduces_S256x2048_S256 (.inl rfl) rfl) shapeCasts_S256_S256x1) broadcasts_S256x1_S256x2048)))
    (broadcastTo S256x2048 (shapeCast S256x1 (multiReduction .add [1] S256 (exp (subf x (broadcastTo S256x2048 (shapeCast S256x1 (multiReduction .maximumf [1] S256 x 0xFF800000#32 reduces_S256x2048_S256 (.inl rfl) rfl) shapeCasts_S256_S256x1) broadcasts_S256x1_S256x2048))) 0x00000000#32 reduces_S256x2048_S256 (.inl rfl) rfl) shapeCasts_S256_S256x1) broadcasts_S256x1_S256x2048)

/-- The maximum of row r of x, from the word of −∞. -/
def rowMaxOf (x : FVec Ideal S256x2048 .f32) (r : Fin 256) : EReal :=
  (Finset.univ : Finset (Fin 2048)).fold max (Ideal.ofBits .f32 0xFF800000#32) (fun j => x (ix2 r j))

/-- The broadcast row maximum at (r, j). -/
theorem bmax_apply (x : FVec Ideal S256x2048 .f32) (r : Fin 256) (j : Fin 2048) :
    broadcastTo S256x2048 (shapeCast S256x1 (multiReduction .maximumf [1] S256 x 0xFF800000#32 reduces_S256x2048_S256 (.inl rfl) rfl) shapeCasts_S256_S256x1) broadcasts_S256x1_S256x2048 (ix2 r j)
      = rowMaxOf x r :=
  (broadcastTo_a1_ab_apply _ _ r j).trans ((shapeCast_a_a1_apply _ _ r 0).trans (rowMax_apply x r))

/-- The broadcast row sum at (r, j). -/
theorem bsum_apply (y : FVec Ideal S256x2048 .f32) (r : Fin 256) (j : Fin 2048) :
    broadcastTo S256x2048 (shapeCast S256x1 (multiReduction .add [1] S256 y 0x00000000#32 reduces_S256x2048_S256 (.inl rfl) rfl) shapeCasts_S256_S256x1) broadcasts_S256x1_S256x2048 (ix2 r j)
      = ∑ j' : Fin 2048, y (ix2 r j') :=
  (broadcastTo_a1_ab_apply _ _ r j).trans ((shapeCast_a_a1_apply _ _ r 0).trans (rowSum_apply y r))

/-- The row softmax at (r, j). -/
theorem softmaxRows_apply (x : FVec Ideal S256x2048 .f32) (r : Fin 256) (j : Fin 2048) :
    softmaxRows x (ix2 r j)
      = Ideal.div (Ideal.exp (x (ix2 r j) - rowMaxOf x r)) (∑ j' : Fin 2048, Ideal.exp (x (ix2 r j') - rowMaxOf x r)) := by
  unfold softmaxRows
  rw [divf_apply]
  refine congrArg₂ Ideal.div ?_ ((bsum_apply _ r j).trans (Finset.sum_congr rfl fun j' _ => ?_))
  · show Ideal.exp (x (ix2 r j) - _) = _
    rw [bmax_apply]
  · show Ideal.exp (x (ix2 r j') - _) = _
    rw [bmax_apply]

/-- The row softmax at (r, j), once row r of the matrix is known as a function f of the column. -/
theorem softmaxRows_apply_of (x : FVec Ideal S256x2048 .f32) (r : Fin 256) (f : Fin 2048 → EReal)
    (hx : ∀ j, x (ix2 r j) = f j) (j : Fin 2048) :
    softmaxRows x (ix2 r j)
      = Ideal.div (Ideal.exp (f j - (Finset.univ : Finset (Fin 2048)).fold max (Ideal.ofBits .f32 0xFF800000#32) f))
          (∑ j' : Fin 2048, Ideal.exp (f j' - (Finset.univ : Finset (Fin 2048)).fold max (Ideal.ofBits .f32 0xFF800000#32) f)) := by
  have hm : rowMaxOf x r = (Finset.univ : Finset (Fin 2048)).fold max (Ideal.ofBits .f32 0xFF800000#32) f :=
    congrArg (fun g => (Finset.univ : Finset (Fin 2048)).fold max (Ideal.ofBits .f32 0xFF800000#32) g) (funext hx)
  rw [softmaxRows_apply, hm, hx]
  exact congrArg (Ideal.div _) (Finset.sum_congr rfl fun j' _ => by rw [hx])

/-! ## The attention block's quantities

For a query block q : [256, 64] and key and value blocks k, v : [2048, 64] of one head. The factor is the word the body
multiplies by, kept as a word. -/

/-- The scaled score of query row r against key row j. -/
def blkScore (q : S256x64.Idx → EReal) (k : S2048x64.Idx → EReal) (r : Fin 256) (j : Fin 2048) : EReal :=
  (∑ d : Fin 64, q (ix2 r d) * k (ix2 j d)) * Ideal.ofBits .f32 0x3E000000#32

/-- The maximum of score row r, from the word of −∞. -/
def blkMax (q : S256x64.Idx → EReal) (k : S2048x64.Idx → EReal) (r : Fin 256) : EReal :=
  (Finset.univ : Finset (Fin 2048)).fold max (Ideal.ofBits .f32 0xFF800000#32) (fun j => blkScore q k r j)

/-- The exponential of a score's difference to its row's maximum. -/
def blkExp (q : S256x64.Idx → EReal) (k : S2048x64.Idx → EReal) (r : Fin 256) (j : Fin 2048) : EReal :=
  Ideal.exp (blkScore q k r j - blkMax q k r)

/-- The attention weight of key row j for query row r. -/
def blkAttn (q : S256x64.Idx → EReal) (k : S2048x64.Idx → EReal) (r : Fin 256) (j : Fin 2048) : EReal :=
  Ideal.div (blkExp q k r j) (∑ j' : Fin 2048, blkExp q k r j')

/-- The scaled product of a query block with the transpose of a key block, at (r, j). -/
theorem scaled_apply (q : FVec Ideal S256x64 .bf16) (k : FVec Ideal S2048x64 .bf16) (r : Fin 256) (j : Fin 2048) :
    mulf (matmul D1 none q (transpose S64x2048 [1, 0] k transposes_S2048x64_p1_0_S64x2048) (constant (F := Ideal) S256x2048 .f32 0x00000000#32))
        (broadcast S256x2048 (Scalar.ofBits (F := Ideal) .f32 0x3E000000#32)) (ix2 r j)
      = blkScore q k r j := by
  rw [mulf_apply, D1_apply, broadcast_apply]
  unfold blkScore
  refine congrArg₂ (· * ·) (Finset.sum_congr rfl fun d _ => ?_) rfl
  rw [transpose_ix2_apply]

/-- The row softmax of that scaled product is the block's attention weights. -/
theorem softmax_scaled_apply (q : FVec Ideal S256x64 .bf16) (k : FVec Ideal S2048x64 .bf16) (r : Fin 256) (j : Fin 2048) :
    softmaxRows (mulf (matmul D1 none q (transpose S64x2048 [1, 0] k transposes_S2048x64_p1_0_S64x2048) (constant (F := Ideal) S256x2048 .f32 0x00000000#32))
        (broadcast S256x2048 (Scalar.ofBits (F := Ideal) .f32 0x3E000000#32))) (ix2 r j)
      = blkAttn q k r j :=
  softmaxRows_apply_of _ r (fun j => blkScore q k r j) (fun j => scaled_apply q k r j) j

/-! ## The payloads of the attention body at an index -/

theorem k1_pay4_apply (q : Vec Ideal S256x64 .f32) (k : Vec Ideal S2048x64 .f32) (r : Fin 256) (j : Fin 2048) :
    k1_pay4 q k (ix2 r j) = blkAttn q k r j := by
  unfold k1_pay4
  simp only [shapeCast_self]
  exact softmax_scaled_apply (truncf .bf16 q bitsLt_bf16_f32) (truncf .bf16 k bitsLt_bf16_f32) r j

theorem k1_pay5_apply (q : Vec Ideal S256x64 .f32) (k : Vec Ideal S2048x64 .f32) (r : Fin 256) (j : Fin 2048) :
    k1_pay5 q k (ix5 0 0 0 r j) = blkAttn q k r j := by
  unfold k1_pay5
  exact (shapeCast_ab_111ab_apply _ _ 0 0 0 r j).trans (k1_pay4_apply q k r j)

theorem k1_pay6_apply (q : Vec Ideal S256x64 .f32) (k : Vec Ideal S2048x64 .f32) (v : Vec Ideal S2048x64 .f32) (r : Fin 256) (d : Fin 64) :
    k1_pay6 q k v (ix2 r d) = ∑ j : Fin 2048, blkAttn q k r j * v (ix2 j d) := by
  unfold k1_pay6
  simp only [shapeCast_self]
  refine (D2_apply _ _ r d).trans (Finset.sum_congr rfl fun j _ => ?_)
  rw [truncf_apply, truncf_apply, k1_pay4_apply]

theorem k1_pay7_apply (q' : Vec Ideal S256x64 .f32) (r : Fin 256) (d : Fin 64) : k1_pay7 q' (ix2 r d) = q' (ix2 r d) := by
  unfold k1_pay7
  simp only [shapeCast_self]
  rfl

theorem k1_pay8_apply (k' : Vec Ideal S2048x64 .f32) (j : Fin 2048) (d : Fin 64) : k1_pay8 k' (ix2 j d) = k' (ix2 j d) := by
  unfold k1_pay8
  simp only [shapeCast_self]

theorem k1_pay1_apply (v30 : FVec Ideal S256x64 .bf16) (v32 : FVec Ideal S2048x64 .f32) (r : Fin 256) (j : Fin 2048) :
    k1_pay1 v30 v32 (ix2 r j) = blkAttn v30 v32 r j := by
  unfold k1_pay1
  exact softmax_scaled_apply v30 (truncf .bf16 v32 bitsLt_bf16_f32) r j

theorem k1_pay2_apply (v30 : FVec Ideal S256x64 .bf16) (v32 : FVec Ideal S2048x64 .f32) (r : Fin 256) (j : Fin 2048) :
    k1_pay2 v30 v32 (ix5 0 0 0 r j) = blkAttn v30 v32 r j := by
  unfold k1_pay2
  exact (shapeCast_ab_111ab_apply _ _ 0 0 0 r j).trans (k1_pay1_apply v30 v32 r j)

theorem k1_pay3_apply (v30 : FVec Ideal S256x64 .bf16) (v32 : FVec Ideal S2048x64 .f32) (v34 : Vec Ideal S2048x64 .f32) (r : Fin 256) (d : Fin 64) :
    k1_pay3 v30 v32 v34 (ix2 r d) = ∑ j : Fin 2048, blkAttn v30 v32 r j * v34 (ix2 j d) := by
  unfold k1_pay3
  simp only [shapeCast_self]
  refine (D2_apply _ _ r d).trans (Finset.sum_congr rfl fun j _ => ?_)
  rw [truncf_apply, truncf_apply, k1_pay1_apply]

/-! ## The second head of a pair, in terms of the blocks it loads -/

/-- The query block handed on is the loaded block. -/
theorem k1_pay7_eq (q' : Vec Ideal S256x64 .f32) : (k1_pay7 q' : S256x64.Idx → EReal) = q' := by
  unfold k1_pay7
  simp only [shapeCast_self]
  rfl

/-- The key block handed on is the loaded block. -/
theorem k1_pay8_eq (k' : Vec Ideal S2048x64 .f32) : (k1_pay8 k' : S2048x64.Idx → EReal) = k' := by
  unfold k1_pay8
  simp only [shapeCast_self]

/-- The second head's stored weights at (0, 0, 0, r, j). -/
theorem k1_pay2_second (q' : Vec Ideal S256x64 .f32) (k' : Vec Ideal S2048x64 .f32) (r : Fin 256) (j : Fin 2048) :
    k1_pay2 (k1_pay7 q') (k1_pay8 k') (ix5 0 0 0 r j) = blkAttn q' k' r j := by
  rw [k1_pay2_apply, k1_pay7_eq, k1_pay8_eq]

/-- The second head's stored context block at (r, d). -/
theorem k1_pay3_second (q' : Vec Ideal S256x64 .f32) (k' : Vec Ideal S2048x64 .f32) (v34 : Vec Ideal S2048x64 .f32) (r : Fin 256) (d : Fin 64) :
    k1_pay3 (k1_pay7 q') (k1_pay8 k') v34 (ix2 r d) = ∑ j : Fin 2048, blkAttn q' k' r j * v34 (ix2 j d) := by
  rw [k1_pay3_apply, k1_pay7_eq, k1_pay8_eq]

end Cert.KernelIdeal.Pay

end
-- ==== Proof.Val.Lin.lean ====
/- The arrays the two projection regions leave, entry by entry, on the extended reals.

   Region 0 runs over 16 points; point t reads rows 512 t … 512 t + 511 of the [8192, 1024] activations, the whole
   [1024, 3072] weight and the whole [1, 3072] bias row, and writes rows 512 t … 512 t + 511 of the [8192, 3072] result,
   every column. What it stores at (p, e) of its block is the sum over d of x(p, d) · W(d, e), plus b(0, e). Row r of the
   result lies in the block of point r / 512 and in no other, and the 16 blocks fill the array, so the array after the
   region is, at (r, e), the sum over d of X(r, d) · W(d, e), plus B(0, e). Region 2 is the same with a [1024, 1024]
   weight, a [1, 1024] bias row and a [8192, 1024] result.

   The steps, for each region: the block indices of the four windows at a point, decided over the grid; each input block
   read at an index as the array read at the index the block's rectangle names (a block's coordinate is its index times
   its extent plus the coordinate inside the block); what a point writes back as the block of one function of the
   arrays; every index of the result covered by a point's block; so the result is that function. -/
import proofs.«114294_j50929722196421_2_alg».proof.Proof.KI.Region0
import proofs.«114294_j50929722196421_2_alg».proof.Proof.KI.Region2
import proofs.«114294_j50929722196421_2_alg».proof.Proof.KForm
import proofs.«114294_j50929722196421_2_alg».proof.Proof.Pay
import Idealize.ShloMosaic.Lib.Pipeline.Value

noncomputable section

open scoped BigOperators

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

-- the core's buffer contents when a region is entered
variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-! ## Region 0: the [8192, 3072] array it leaves -/

/-- The array region 0 leaves, as one function of the three arrays it reads: the activations times the weight plus
    the bias row, entry by entry. -/
abbrev G0 (c : Dev nD) : S8192x3072.Idx → EReal :=
  fun i => Cert.Attn.linAt (V c main_v0) (V c main_v4) (V c main_v6) (i 0) (i 1)

/-- The block indices over the grid: at point t the activations' and the result's blocks are block row t, column 0;
    the weight's and the bias row's are block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activations' block at point t, at (p, d): the array at row 512 t + p, column d. -/
theorem iblk0_0_apply (c : Dev nD) (t : Fin cfg0.N) (p : Fin 512) (d : Fin 1024) (r : Fin 8192) (hr : r.val = t.val * 512 + p.val) :
    (Hand.iblk0 V c 0 t : Vec Ideal S512x1024 .f32) (ix2 p d) = V c main_v0 (ix2 r d) := by
  obtain ⟨e0, e1, -⟩ := idx_facts0 t
  unfold Hand.iblk0
  rw [View.read_apply]
  show V c main_v0 _ = V c main_v0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * d.val = d.val; rw [e1]; omega

/-- The weight's block at any point is the whole weight. -/
theorem iblk0_1_apply (c : Dev nD) (t : Fin cfg0.N) (d : Fin 1024) (e : Fin 3072) :
    (Hand.iblk0 V c 1 t : Vec Ideal S1024x3072 .bf16) (ix2 d e) = V c main_v4 (ix2 d e) := by
  obtain ⟨-, -, e0, e1, -⟩ := idx_facts0 t
  unfold Hand.iblk0
  rw [View.read_apply]
  show V c main_v4 _ = V c main_v4 _
  congr 1
  funext a
  apply Fin.ext
  match a with
  | ⟨0, _⟩ => show win0_1.index t (0 : Fin 2) * 1024 + 1 * d.val = d.val; rw [e0]; omega
  | ⟨1, _⟩ => show win0_1.index t (1 : Fin 2) * 3072 + 1 * e.val = e.val; rw [e1]; omega

/-- The bias row's block at any point is the whole row. -/
theorem iblk0_2_apply (c : Dev nD) (t : Fin cfg0.N) (e : Fin 3072) :
    (Hand.iblk0 V c 2 t : Vec Ideal S1x3072 .f32) (ix2 0 e) = V c main_v6 (ix2 0 e) := by
  obtain ⟨-, -, -, -, e0, e1, -⟩ := idx_facts0 t
  unfold Hand.iblk0
  rw [View.read_apply]
  show V c main_v6 _ = V c main_v6 _
  congr 1
  funext a
  apply Fin.ext
  match a with
  | ⟨0, _⟩ => show win0_2.index t (0 : Fin 2) * 1 + 1 * (0 : Fin 1).val = (0 : Fin 1).val; rw [e0]; omega
  | ⟨1, _⟩ => show win0_2.index t (1 : Fin 2) * 3072 + 1 * e.val = e.val; rw [e1]; omega

/-- The stored block at an index, over any three blocks: row (j 0) of the first against column (j 1) of the second, plus
    the third at column (j 1). -/
theorem pay0_at (x0 : Vec Ideal S512x1024 .f32) (x1 : Vec Ideal S1024x3072 .bf16) (x2 : Vec Ideal S1x3072 .f32) (j : S512x3072.Idx) :
    k0_pay1 x0 x1 x2 j = (∑ d : Fin 1024, x0 (ix2 (j 0) d) * x1 (ix2 d (j 1))) + x2 (ix2 0 (j 1)) := by
  rw [eq_ix2 j]
  exact Pay.k0_pay1_apply x0 x1 x2 (j 0) (j 1)

/-- What point t writes back is block t of G0: rows 512 t … 512 t + 511, every column. -/
theorem flushed0_eq (c : Dev nD) (t : Fin cfg0.N) :
    (Hand.dat0 V c).flushed 3 t = ((cfg0.win 3).blk t).view.read (Elt Ideal) (G0 V c) := by
  show (cfg0.win 3).cut (grid0.coords t) ((Hand.dat0 V c).after 3 t) = _
  rw [Hand.after0_3]
  unfold Hand.out0_3
  rw [View.canon_unit_zero hz]
  simp only [View.ld_unit_zero (S := S512x1024) hz, View.ld_unit_zero (S := S1024x3072) hz, View.ld_unit_zero (S := S1x3072) hz]
  obtain ⟨-, -, -, -, -, -, e0, e1⟩ := idx_facts0 t
  funext j
  have hj0 : (j 0).val < 512 := (j 0).isLt
  have ht : t.val < 16 := by have h := t.isLt; have hN : cfg0.N = 16 := N_0; omega
  show k0_pay1 (Hand.iblk0 V c 0 t) (Hand.iblk0 V c 1 t) (Hand.iblk0 V c 2 t) j = G0 V c (((cfg0.win 3).blk t).view.emb j)
  rw [pay0_at]
  have hemb : ((cfg0.win 3).blk t).view.emb j = ix2 (⟨t.val * 512 + (j 0).val, by omega⟩ : Fin 8192) (j 1) := by
    funext a
    apply Fin.ext
    match a with
    | ⟨0, _⟩ => show win0_3.index t (0 : Fin 2) * 512 + 1 * (j 0).val = t.val * 512 + (j 0).val; rw [e0]; omega
    | ⟨1, _⟩ => show win0_3.index t (1 : Fin 2) * 3072 + 1 * (j 1).val = (j 1).val; rw [e1]; omega
  rw [hemb]
  show _ = Cert.Attn.linAt (V c main_v0) (V c main_v4) (V c main_v6) (⟨t.val * 512 + (j 0).val, by omega⟩ : Fin 8192) (j 1)
  unfold Cert.Attn.linAt
  refine congrArg₂ (fun a b : EReal => a + b) (Finset.sum_congr rfl fun d _ => ?_) (iblk0_2_apply V c t (j 1))
  exact congrArg₂ (fun a b : EReal => a * b) (iblk0_0_apply V c t (j 0) d ⟨t.val * 512 + (j 0).val, by omega⟩ rfl) (iblk0_1_apply V c t d (j 1))

/-- An index of the array is in point t's block iff each coordinate is in the block's range on its axis. -/
theorem mem_blk0 (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v7).slice (win0_3.rect t)).set ↔ _
  rw [View.set_slice_whole, Rect.mem_set_unit]
  exact Iff.rfl

/-- Every index of the array is in the block of the point its row belongs to: row r is in block r / 512. -/
theorem cover0 (i : S8192x3072.Idx) : ∃ t : Fin cfg0.N, (cfg0.win 3).flush t = true ∧ i ∈ ((cfg0.win 3).blk t).view.set := by
  have hi0 : (i 0).val < 8192 := (i 0).isLt
  have hi1 : (i 1).val < 3072 := (i 1).isLt
  have hN : cfg0.N = 16 := N_0
  let t : Fin cfg0.N := ⟨(i 0).val / 512, by rw [hN]; omega⟩
  have htv : t.val = (i 0).val / 512 := rfl
  obtain ⟨-, -, -, -, -, -, e0, e1⟩ := idx_facts0 t
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; rw [e0, htv]; omega
  | ⟨1, _⟩ => show win0_3.index t (1 : Fin 2) * 3072 ≤ (i 1).val ∧ (i 1).val < win0_3.index t (1 : Fin 2) * 3072 + 3072; rw [e1]; omega

/-- The array after region 0: the activations times the weight plus the bias row, entry by entry. -/
theorem final0 (c : Dev nD) : (Hand.dat0 V c).arrAt 3 cfg0.N
    = fun i => Cert.Attn.linAt (V c main_v0) (V c main_v4) (V c main_v6) (i 0) (i 1) :=
  (Hand.dat0 V c).arrAt_eq_of_cover 3 (G0 V c) (fun t _ => flushed0_eq V c t) (cover0)

/-! ## Region 2: the [8192, 1024] array it leaves -/

/-- The array region 2 leaves, as one function of the three arrays it reads: the activations times the weight plus
    the bias row, entry by entry. -/
abbrev G2 (c : Dev nD) : S8192x1024.Idx → EReal :=
  fun i => Cert.Attn.linAt (V c main_v8_0) (V c main_v10) (V c main_v11) (i 0) (i 1)

/-- The block indices over the grid: at point t the activations' and the result's blocks are block row t, column 0;
    the weight's and the bias row's are block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The activations' block at point t, at (p, d): the array at row 512 t + p, column d. -/
theorem iblk2_0_apply (c : Dev nD) (t : Fin cfg2.N) (p : Fin 512) (d : Fin 1024) (r : Fin 8192) (hr : r.val = t.val * 512 + p.val) :
    (Hand.iblk2 V c 0 t : Vec Ideal S512x1024 .f32) (ix2 p d) = V c main_v8_0 (ix2 r d) := by
  obtain ⟨e0, e1, -⟩ := idx_facts2 t
  unfold Hand.iblk2
  rw [View.read_apply]
  show V c main_v8_0 _ = V c main_v8_0 _
  congr 1
  funext a
  apply Fin.ext
  match a with
  | ⟨0, _⟩ => show win2_0.index t (0 : Fin 2) * 512 + 1 * p.val = r.val; rw [e0, hr]; omega
  | ⟨1, _⟩ => show win2_0.index t (1 : Fin 2) * 1024 + 1 * d.val = d.val; rw [e1]; omega

/-- The weight's block at any point is the whole weight. -/
theorem iblk2_1_apply (c : Dev nD) (t : Fin cfg2.N) (d : Fin 1024) (e : Fin 1024) :
    (Hand.iblk2 V c 1 t : Vec Ideal S1024x1024 .bf16) (ix2 d e) = V c main_v10 (ix2 d e) := by
  obtain ⟨-, -, e0, e1, -⟩ := idx_facts2 t
  unfold Hand.iblk2
  rw [View.read_apply]
  show V c main_v10 _ = V c main_v10 _
  congr 1
  funext a
  apply Fin.ext
  match a with
  | ⟨0, _⟩ => show win2_1.index t (0 : Fin 2) * 1024 + 1 * d.val = d.val; rw [e0]; omega
  | ⟨1, _⟩ => show win2_1.index t (1 : Fin 2) * 1024 + 1 * e.val = e.val; rw [e1]; omega

/-- The bias row's block at any point is the whole row. -/
theorem iblk2_2_apply (c : Dev nD) (t : Fin cfg2.N) (e : Fin 1024) :
    (Hand.iblk2 V c 2 t : Vec Ideal S1x1024 .f32) (ix2 0 e) = V c main_v11 (ix2 0 e) := by
  obtain ⟨-, -, -, -, e0, e1, -⟩ := idx_facts2 t
  unfold Hand.iblk2
  rw [View.read_apply]
  show V c main_v11 _ = V c main_v11 _
  congr 1
  funext a
  apply Fin.ext
  match a with
  | ⟨0, _⟩ => show win2_2.index t (0 : Fin 2) * 1 + 1 * (0 : Fin 1).val = (0 : Fin 1).val; rw [e0]; omega
  | ⟨1, _⟩ => show win2_2.index t (1 : Fin 2) * 1024 + 1 * e.val = e.val; rw [e1]; omega

/-- The stored block at an index, over any three blocks: row (j 0) of the first against column (j 1) of the second, plus
    the third at column (j 1). -/
theorem pay2_at (x0 : Vec Ideal S512x1024 .f32) (x1 : Vec Ideal S1024x1024 .bf16) (x2 : Vec Ideal S1x1024 .f32) (j : S512x1024.Idx) :
    k2_pay1 x0 x1 x2 j = (∑ d : Fin 1024, x0 (ix2 (j 0) d) * x1 (ix2 d (j 1))) + x2 (ix2 0 (j 1)) := by
  rw [eq_ix2 j]
  exact Pay.k2_pay1_apply x0 x1 x2 (j 0) (j 1)

/-- What point t writes back is block t of G2: rows 512 t … 512 t + 511, every column. -/
theorem flushed2_eq (c : Dev nD) (t : Fin cfg2.N) :
    (Hand.dat2 V c).flushed 3 t = ((cfg2.win 3).blk t).view.read (Elt Ideal) (G2 V c) := by
  show (cfg2.win 3).cut (grid2.coords t) ((Hand.dat2 V c).after 3 t) = _
  rw [Hand.after2_3]
  unfold Hand.out2_3
  rw [View.canon_unit_zero hz]
  simp only [View.ld_unit_zero (S := S512x1024) hz, View.ld_unit_zero (S := S1024x1024) hz, View.ld_unit_zero (S := S1x1024) hz]
  obtain ⟨-, -, -, -, -, -, e0, e1⟩ := idx_facts2 t
  funext j
  have hj0 : (j 0).val < 512 := (j 0).isLt
  have ht : t.val < 16 := by have h := t.isLt; have hN : cfg2.N = 16 := N_2; omega
  show k2_pay1 (Hand.iblk2 V c 0 t) (Hand.iblk2 V c 1 t) (Hand.iblk2 V c 2 t) j = G2 V c (((cfg2.win 3).blk t).view.emb j)
  rw [pay2_at]
  have hemb : ((cfg2.win 3).blk t).view.emb j = ix2 (⟨t.val * 512 + (j 0).val, by omega⟩ : Fin 8192) (j 1) := by
    funext a
    apply Fin.ext
    match a with
    | ⟨0, _⟩ => show win2_3.index t (0 : Fin 2) * 512 + 1 * (j 0).val = t.val * 512 + (j 0).val; rw [e0]; omega
    | ⟨1, _⟩ => show win2_3.index t (1 : Fin 2) * 1024 + 1 * (j 1).val = (j 1).val; rw [e1]; omega
  rw [hemb]
  show _ = Cert.Attn.linAt (V c main_v8_0) (V c main_v10) (V c main_v11) (⟨t.val * 512 + (j 0).val, by omega⟩ : Fin 8192) (j 1)
  unfold Cert.Attn.linAt
  refine congrArg₂ (fun a b : EReal => a + b) (Finset.sum_congr rfl fun d _ => ?_) (iblk2_2_apply V c t (j 1))
  exact congrArg₂ (fun a b : EReal => a * b) (iblk2_0_apply V c t (j 0) d ⟨t.val * 512 + (j 0).val, by omega⟩ rfl) (iblk2_1_apply V c t d (j 1))

/-- An index of the array is in point t's block iff each coordinate is in the block's range on its axis. -/
theorem mem_blk2 (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v12).slice (win2_3.rect t)).set ↔ _
  rw [View.set_slice_whole, Rect.mem_set_unit]
  exact Iff.rfl

/-- Every index of the array is in the block of the point its row belongs to: row r is in block r / 512. -/
theorem cover2 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 16 := N_2
  let t : Fin cfg2.N := ⟨(i 0).val / 512, by rw [hN]; omega⟩
  have htv : t.val = (i 0).val / 512 := rfl
  obtain ⟨-, -, -, -, -, -, e0, e1⟩ := idx_facts2 t
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; rw [e0, htv]; omega
  | ⟨1, _⟩ => show win2_3.index t (1 : Fin 2) * 1024 ≤ (i 1).val ∧ (i 1).val < win2_3.index t (1 : Fin 2) * 1024 + 1024; rw [e1]; omega

/-- The array after region 2: the activations times the weight plus the bias row, entry by entry. -/
theorem final2 (c : Dev nD) : (Hand.dat2 V c).arrAt 3 cfg2.N
    = fun i => Cert.Attn.linAt (V c main_v8_0) (V c main_v10) (V c main_v11) (i 0) (i 1) :=
  (Hand.dat2 V c).arrAt_eq_of_cover 3 (G2 V c) (fun t _ => flushed2_eq V c t) (cover2)

end Cert.KernelIdeal.Val

end
-- ==== Proof.Val.Glue.lean ====
/-
  The host operations around the three kernel regions, read at an index.

  Before the first region the program views x : [4, 2048, 1024] as [8192, 1024] (row bi·2048 + s is batch bi, position s),
  narrows the three projection weights to the 16-bit format (at the exact instance a change of format is the identity),
  lays them side by side as one [1024, 3072] weight (columns 0 … 1023 the query weight, 1024 … 2047 the key weight,
  2048 … 3071 the value weight), lays the three biases end to end as one vector of 3072 and views it as a [1, 3072] row.
  Between the second and third regions it views the weights array [4, 8, 2, 2048, 2048] (batch, head pair, head of the
  pair, query, key) as [4, 16, 2048, 2048] (head 2·h2 + hh), narrows the output weight, and views the output bias as a
  [1, 1024] row. After the third region it views the [8192, 1024] result as [4, 2048, 1024]. A view keeps the row-major
  position of every entry; a side-by-side arrangement reads the piece whose span holds the coordinate.

  Everything here is stated for an arbitrary contents W of the buffers before the stretch.
-/
import proofs.«114294_j50929722196421_2_alg».proof.Proof.Gen.KernelIdeal.Regions
import proofs.«114294_j50929722196421_2_alg».proof.Proof.KForm
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.TcCoe Idealize.SL.Sem
open Idealize.ShloMosaic.StableHlo Idealize.ShloMosaic.ValueIdx

variable (W : Valuation τ sig (Elt Ideal))

/-! ## After the third region -/

/-- The result [8192, 1024] viewed as [4, 2048, 1024]. -/
theorem glue_v13 (bi : Fin 4) (s : Fin 2048) (e : Fin 1024) :
    (StableHlo.after hostOps3 W main_v13 : S4x2048x1024.Idx → EReal) (ix3 bi s e)
      = (W main_v12 : S8192x1024.Idx → EReal) (ix2 (Cert.Attn.row bi s) e) := by
  have ev : (StableHlo.after hostOps3 W (Proc.devRef .tc main_v13) : S4x2048x1024.Idx → EReal)
      = shapeCast S4x2048x1024 (W main_v12 : S8192x1024.Idx → EReal) shapeCasts_S8192x1024_S4x2048x1024 := by
    dsimp only [hostOps3]; after_results; rfl
  rw [ev]
  refine shapeCast_apply _ shapeCasts_S8192x1024_S4x2048x1024 (ix3 bi s e) (ix2 (Cert.Attn.row bi s) e) ?_
  rw [Shape.rowMajor_val_two, Shape.rowMajor_val_three]
  show (bi.val * 2048 + s.val) * 1024 + e.val = (bi.val * 2048 + s.val) * 1024 + e.val
  rfl

/-! ## Between the second and third regions -/

/-- The output weight narrowed to the 16-bit format: the same entries. -/
theorem glue_v10 (d e : Fin 1024) :
    (StableHlo.after hostOps2 W main_v10 : S1024x1024.Idx → EReal) (ix2 d e)
      = (W main_arg7 : S1024x1024.Idx → EReal) (ix2 d e) := by
  have ev : (StableHlo.after hostOps2 W (Proc.devRef .tc main_v10) : S1024x1024.Idx → EReal)
      = (truncf .bf16 (W main_arg7 : FVec Ideal S1024x1024 .f32) bitsLt_bf16_f32 : FVec Ideal S1024x1024 .bf16) := by
    dsimp only [hostOps2]; after_results
  rw [ev]
  exact truncf_apply _ _ _

/-- The output bias viewed as a [1, 1024] row. -/
theorem glue_v11 (e : Fin 1024) :
    (StableHlo.after hostOps2 W main_v11 : S1x1024.Idx → EReal) (ix2 (0 : Fin 1) e)
      = (W main_arg8 : S1024.Idx → EReal) (ix1 e) := by
  have ev : (StableHlo.after hostOps2 W (Proc.devRef .tc main_v11) : S1x1024.Idx → EReal)
      = shapeCast S1x1024 (W main_arg8 : S1024.Idx → EReal) shapeCasts_S1024_S1x1024 := by
    dsimp only [hostOps2]; after_results; rfl
  rw [ev]
  refine shapeCast_apply _ shapeCasts_S1024_S1x1024 (ix2 (0 : Fin 1) e) (ix1 e) ?_
  rw [Shape.rowMajor_val_one, Shape.rowMajor_val_two]
  show e.val = 0 * 1024 + e.val
  omega

/-- The weights array [4, 8, 2, 2048, 2048] viewed as [4, 16, 2048, 2048]: head 2·h2 + hh is the hh-th head of pair h2. -/
theorem glue_v9 (bi : Fin 4) (h2 : Fin 8) (hh : Fin 2) (q k : Fin 2048) :
    (StableHlo.after hostOps2 W main_v9 : S4x16x2048x2048.Idx → EReal) (ix4 bi (Cert.Attn.headOfPair h2 hh) q k)
      = (W main_v8_1 : S4x8x2x2048x2048.Idx → EReal) (ix5 bi h2 hh q k) := by
  have ev : (StableHlo.after hostOps2 W (Proc.devRef .tc main_v9) : S4x16x2048x2048.Idx → EReal)
      = shapeCast S4x16x2048x2048 (W main_v8_1 : S4x8x2x2048x2048.Idx → EReal) shapeCasts_S4x8x2x2048x2048_S4x16x2048x2048 := by
    dsimp only [hostOps2]; after_results; rfl
  rw [ev]
  refine shapeCast_apply _ shapeCasts_S4x8x2x2048x2048_S4x16x2048x2048 (ix4 bi (Cert.Attn.headOfPair h2 hh) q k) (ix5 bi h2 hh q k) ?_
  rw [Shape.rowMajor_val_five, Shape.rowMajor_val_four]
  show ((((bi.val * 8 + h2.val) * 2 + hh.val) * 2048 + q.val) * 2048 + k.val)
    = ((bi.val * 16 + (2 * h2.val + hh.val)) * 2048 + q.val) * 2048 + k.val
  omega

/-! ## Before the first region -/

/-- x : [4, 2048, 1024] viewed as [8192, 1024]. -/
theorem glue_v0 (bi : Fin 4) (s : Fin 2048) (d : Fin 1024) :
    (StableHlo.after hostOps0 W main_v0 : S8192x1024.Idx → EReal) (ix2 (Cert.Attn.row bi s) d)
      = (W main_arg0 : S4x2048x1024.Idx → EReal) (ix3 bi s d) := by
  have ev : (StableHlo.after hostOps0 W (Proc.devRef .tc main_v0) : S8192x1024.Idx → EReal)
      = shapeCast S8192x1024 (W main_arg0 : S4x2048x1024.Idx → EReal) shapeCasts_S4x2048x1024_S8192x1024 := by
    dsimp only [hostOps0]; after_results; rfl
  rw [ev]
  refine shapeCast_apply _ shapeCasts_S4x2048x1024_S8192x1024 (ix2 (Cert.Attn.row bi s) d) (ix3 bi s d) ?_
  rw [Shape.rowMajor_val_two, Shape.rowMajor_val_three]
  show (bi.val * 2048 + s.val) * 1024 + d.val = (bi.val * 2048 + s.val) * 1024 + d.val
  rfl

/-- The fused weight as laid out by the stretch: the three narrowed weights side by side. -/
theorem after_v4 : (StableHlo.after hostOps0 W (Proc.devRef .tc main_v4) : S1024x3072.Idx → EReal)
      = concatenate S1024x3072 1
          [⟨S1024x1024, (truncf .bf16 (W main_arg1 : FVec Ideal S1024x1024 .f32) bitsLt_bf16_f32 : FVec Ideal S1024x1024 .bf16)⟩,
           ⟨S1024x1024, (truncf .bf16 (W main_arg3 : FVec Ideal S1024x1024 .f32) bitsLt_bf16_f32 : FVec Ideal S1024x1024 .bf16)⟩,
           ⟨S1024x1024, (truncf .bf16 (W main_arg5 : FVec Ideal S1024x1024 .f32) bitsLt_bf16_f32 : FVec Ideal S1024x1024 .bf16)⟩]
          concatenates_S1024x1024_S1024x1024_S1024x1024_S1024x3072_d1 := by
  dsimp only [hostOps0]
  after_results
  dsimp only [Matrix.cons_val]
  repeat (first
      | rw [unary_result]
      | (rw [unary_result_ne]; rotate_left; decide)
      | (rw [nary_result_ne]; rotate_left; decide)
      | (rw [reshape_result_ne]; rotate_left; decide))

/-- The fused bias row as laid out by the stretch: the three biases end to end, viewed as one row. -/
theorem after_v6 : (StableHlo.after hostOps0 W (Proc.devRef .tc main_v6) : S1x3072.Idx → EReal)
      = shapeCast S1x3072 (concatenate S3072 0
          [⟨S1024, (W main_arg2 : S1024.Idx → EReal)⟩, ⟨S1024, (W main_arg4 : S1024.Idx → EReal)⟩, ⟨S1024, (W main_arg6 : S1024.Idx → EReal)⟩]
          concatenates_S1024_S1024_S1024_S3072_d0) shapeCasts_S3072_S1x3072 := by
  dsimp only [hostOps0]
  after_results
  dsimp only [Matrix.cons_val]
  repeat (first
      | rw [unary_result]
      | (rw [unary_result_ne]; rotate_left; decide)
      | (rw [nary_result_ne]; rotate_left; decide)
      | (rw [reshape_result_ne]; rotate_left; decide))
  rfl

/-- Column e of the fused weight is the query weight's column. -/
theorem glue_v4_q (d e : Fin 1024) :
    (StableHlo.after hostOps0 W main_v4 : S1024x3072.Idx → EReal) (ix2 d (Cert.Attn.qcol e))
      = (W main_arg1 : S1024x1024.Idx → EReal) (ix2 d e) := by
  rw [after_v4]
  refine (concatenate_apply_piece (1 : Fin S1024x3072.rank)
    [⟨S1024x1024, (truncf .bf16 (W main_arg1 : FVec Ideal S1024x1024 .f32) bitsLt_bf16_f32 : FVec Ideal S1024x1024 .bf16)⟩,
     ⟨S1024x1024, (truncf .bf16 (W main_arg3 : FVec Ideal S1024x1024 .f32) bitsLt_bf16_f32 : FVec Ideal S1024x1024 .bf16)⟩,
     ⟨S1024x1024, (truncf .bf16 (W main_arg5 : FVec Ideal S1024x1024 .f32) bitsLt_bf16_f32 : FVec Ideal S1024x1024 .bf16)⟩]
    concatenates_S1024x1024_S1024x1024_S1024x1024_S1024x3072_d1
    (ix2 d (Cert.Attn.qcol e)) 0 (show 0 < 3 by decide) S1024x1024
    (truncf .bf16 (W main_arg1 : FVec Ideal S1024x1024 .f32) bitsLt_bf16_f32 : FVec Ideal S1024x1024 .bf16) rfl rfl 0 rfl
    (ix2 d e) (fun b hb => ?_) ?_).trans (truncf_apply _ _ _)
  · fin_cases b
    · rfl
    · exact absurd rfl hb
  · show 0 + e.val = e.val
    omega

/-- Column 1024 + e of the fused weight is the key weight's column. -/
theorem glue_v4_k (d e : Fin 1024) :
    (StableHlo.after hostOps0 W main_v4 : S1024x3072.Idx → EReal) (ix2 d (Cert.Attn.kcol e))
      = (W main_arg3 : S1024x1024.Idx → EReal) (ix2 d e) := by
  rw [after_v4]
  refine (concatenate_apply_piece (1 : Fin S1024x3072.rank)
    [⟨S1024x1024, (truncf .bf16 (W main_arg1 : FVec Ideal S1024x1024 .f32) bitsLt_bf16_f32 : FVec Ideal S1024x1024 .bf16)⟩,
     ⟨S1024x1024, (truncf .bf16 (W main_arg3 : FVec Ideal S1024x1024 .f32) bitsLt_bf16_f32 : FVec Ideal S1024x1024 .bf16)⟩,
     ⟨S1024x1024, (truncf .bf16 (W main_arg5 : FVec Ideal S1024x1024 .f32) bitsLt_bf16_f32 : FVec Ideal S1024x1024 .bf16)⟩]
    concatenates_S1024x1024_S1024x1024_S1024x1024_S1024x3072_d1
    (ix2 d (Cert.Attn.kcol e)) 1 (show 1 < 3 by decide) S1024x1024
    (truncf .bf16 (W main_arg3 : FVec Ideal S1024x1024 .f32) bitsLt_bf16_f32 : FVec Ideal S1024x1024 .bf16) rfl rfl 1024 rfl
    (ix2 d e) (fun b hb => ?_) ?_).trans (truncf_apply _ _ _)
  · fin_cases b
    · rfl
    · exact absurd rfl hb
  · show 1024 + e.val = 1024 + e.val
    rfl

/-- Column 2048 + e of the fused weight is the value weight's column. -/
theorem glue_v4_v (d e : Fin 1024) :
    (StableHlo.after hostOps0 W main_v4 : S1024x3072.Idx → EReal) (ix2 d (Cert.Attn.vcol e))
      = (W main_arg5 : S1024x1024.Idx → EReal) (ix2 d e) := by
  rw [after_v4]
  refine (concatenate_apply_piece (1 : Fin S1024x3072.rank)
    [⟨S1024x1024, (truncf .bf16 (W main_arg1 : FVec Ideal S1024x1024 .f32) bitsLt_bf16_f32 : FVec Ideal S1024x1024 .bf16)⟩,
     ⟨S1024x1024, (truncf .bf16 (W main_arg3 : FVec Ideal S1024x1024 .f32) bitsLt_bf16_f32 : FVec Ideal S1024x1024 .bf16)⟩,
     ⟨S1024x1024, (truncf .bf16 (W main_arg5 : FVec Ideal S1024x1024 .f32) bitsLt_bf16_f32 : FVec Ideal S1024x1024 .bf16)⟩]
    concatenates_S1024x1024_S1024x1024_S1024x1024_S1024x3072_d1
    (ix2 d (Cert.Attn.vcol e)) 2 (show 2 < 3 by decide) S1024x1024
    (truncf .bf16 (W main_arg5 : FVec Ideal S1024x1024 .f32) bitsLt_bf16_f32 : FVec Ideal S1024x1024 .bf16) rfl rfl 2048 rfl
    (ix2 d e) (fun b hb => ?_) ?_).trans (truncf_apply _ _ _)
  · fin_cases b
    · rfl
    · exact absurd rfl hb
  · show 2048 + e.val = 2048 + e.val
    rfl

/-- Entry e of the fused bias row is the query bias's entry e. -/
theorem glue_v6_q (e : Fin 1024) :
    (StableHlo.after hostOps0 W main_v6 : S1x3072.Idx → EReal) (ix2 (0 : Fin 1) (Cert.Attn.qcol e))
      = (W main_arg2 : S1024.Idx → EReal) (ix1 e) := by
  rw [after_v6]
  refine (shapeCast_apply _ shapeCasts_S3072_S1x3072 (ix2 (0 : Fin 1) (Cert.Attn.qcol e)) (ix1 (Cert.Attn.qcol e)) ?_).trans ?_
  · rw [Shape.rowMajor_val_one, Shape.rowMajor_val_two]
    show (Cert.Attn.qcol e).val = 0 * 3072 + (Cert.Attn.qcol e).val
    omega
  refine concatenate_apply_piece (0 : Fin S3072.rank)
    [⟨S1024, (W main_arg2 : S1024.Idx → EReal)⟩, ⟨S1024, (W main_arg4 : S1024.Idx → EReal)⟩, ⟨S1024, (W main_arg6 : S1024.Idx → EReal)⟩]
    concatenates_S1024_S1024_S1024_S3072_d0
    (ix1 (Cert.Attn.qcol e)) 0 (show 0 < 3 by decide) S1024 (W main_arg2 : S1024.Idx → EReal) rfl rfl 0 rfl
    (ix1 e) (fun b hb => ?_) ?_
  · fin_cases b
    exact absurd rfl hb
  · show 0 + e.val = e.val
    omega

/-- Entry 1024 + e of the fused bias row is the key bias's entry e. -/
theorem glue_v6_k (e : Fin 1024) :
    (StableHlo.after hostOps0 W main_v6 : S1x3072.Idx → EReal) (ix2 (0 : Fin 1) (Cert.Attn.kcol e))
      = (W main_arg4 : S1024.Idx → EReal) (ix1 e) := by
  rw [after_v6]
  refine (shapeCast_apply _ shapeCasts_S3072_S1x3072 (ix2 (0 : Fin 1) (Cert.Attn.kcol e)) (ix1 (Cert.Attn.kcol e)) ?_).trans ?_
  · rw [Shape.rowMajor_val_one, Shape.rowMajor_val_two]
    show (Cert.Attn.kcol e).val = 0 * 3072 + (Cert.Attn.kcol e).val
    omega
  refine concatenate_apply_piece (0 : Fin S3072.rank)
    [⟨S1024, (W main_arg2 : S1024.Idx → EReal)⟩, ⟨S1024, (W main_arg4 : S1024.Idx → EReal)⟩, ⟨S1024, (W main_arg6 : S1024.Idx → EReal)⟩]
    concatenates_S1024_S1024_S1024_S3072_d0
    (ix1 (Cert.Attn.kcol e)) 1 (show 1 < 3 by decide) S1024 (W main_arg4 : S1024.Idx → EReal) rfl rfl 1024 rfl
    (ix1 e) (fun b hb => ?_) ?_
  · fin_cases b
    exact absurd rfl hb
  · show 1024 + e.val = 1024 + e.val
    rfl

/-- Entry 2048 + e of the fused bias row is the value bias's entry e. -/
theorem glue_v6_v (e : Fin 1024) :
    (StableHlo.after hostOps0 W main_v6 : S1x3072.Idx → EReal) (ix2 (0 : Fin 1) (Cert.Attn.vcol e))
      = (W main_arg6 : S1024.Idx → EReal) (ix1 e) := by
  rw [after_v6]
  refine (shapeCast_apply _ shapeCasts_S3072_S1x3072 (ix2 (0 : Fin 1) (Cert.Attn.vcol e)) (ix1 (Cert.Attn.vcol e)) ?_).trans ?_
  · rw [Shape.rowMajor_val_one, Shape.rowMajor_val_two]
    show (Cert.Attn.vcol e).val = 0 * 3072 + (Cert.Attn.vcol e).val
    omega
  refine concatenate_apply_piece (0 : Fin S3072.rank)
    [⟨S1024, (W main_arg2 : S1024.Idx → EReal)⟩, ⟨S1024, (W main_arg4 : S1024.Idx → EReal)⟩, ⟨S1024, (W main_arg6 : S1024.Idx → EReal)⟩]
    concatenates_S1024_S1024_S1024_S3072_d0
    (ix1 (Cert.Attn.vcol e)) 2 (show 2 < 3 by decide) S1024 (W main_arg6 : S1024.Idx → EReal) rfl rfl 2048 rfl
    (ix1 e) (fun b hb => ?_) ?_
  · fin_cases b
    exact absurd rfl hb
  · show 2048 + e.val = 2048 + e.val
    rfl

end Cert.KernelIdeal.Val

end
-- ==== Proof.Val.AttnPts.lean ====
/- Region 1's grid points by coordinates, for the value of the attention kernel at the exact instance.

   Grid point t of the region has coordinates (bi, h2, qi): a batch, a pair of heads, a block of 256 query rows. The
   five windows' block indices at t are fixed functions of those three (decided once over the 256 points). Head
   2·h2 + hh of the pair owns columns 64·hh … 64·hh + 63 of each 128-wide block. If a 256 x 64 block holds the query
   rows of one head and a 2048 x 64 block its key rows, the row softmax computed over the blocks is the one computed
   over the whole fused array. -/
import proofs.«114294_j50929722196421_2_alg».proof.Proof.KI.Region1
import proofs.«114294_j50929722196421_2_alg».proof.Proof.KForm
import proofs.«114294_j50929722196421_2_alg».proof.Proof.Pay
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.Attn
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-! ## Coordinates -/

/-- Query row r of row block qi among a batch's 2048 positions. -/
def qrow (qi : Fin 8) (r : Fin 256) : Fin 2048 := ⟨256 * qi.val + r.val, by have := qi.isLt; have := r.isLt; omega⟩
/-- Column e of head pair h2 among a projection's 1024 columns. -/
def pcol (h2 : Fin 8) (e : Fin 128) : Fin 1024 := ⟨128 * h2.val + e.val, by have := h2.isLt; have := e.isLt; omega⟩
/-- Lane d of head hh of a pair among the pair's 128 columns. -/
def lane (hh : Fin 2) (d : Fin 64) : Fin 128 := ⟨64 * hh.val + d.val, by have := hh.isLt; have := d.isLt; omega⟩

/-- A pair's column at a head's lane is that head's column. -/
theorem pcol_lane (h2 : Fin 8) (hh : Fin 2) (d : Fin 64) : pcol h2 (lane hh d) = col (headOfPair h2 hh) d :=
  Fin.ext (by show 128 * h2.val + (64 * hh.val + d.val) = (2 * h2.val + hh.val) * 64 + d.val; omega)

/-- The head a pair's column belongs to. -/
theorem headOf_pcol_lane (h2 : Fin 8) (hh : Fin 2) (d : Fin 64) : headOf (pcol h2 (lane hh d)) = headOfPair h2 hh := by
  rw [pcol_lane, headOf_col]

/-! ## The index maps, decided over the grid -/

/-- The printed index maps of the five windows in terms of the weights window's (batch, pair, 0, row block, 0), and
    the ranges of those three. -/
theorem idx_facts1 : ∀ t : Fin cfg1.N,
    win1_0.index t (0 : Fin 2) = win1_4.index t (0 : Fin 5) * 8 + win1_4.index t (3 : Fin 5)
    ∧ win1_0.index t (1 : Fin 2) = win1_4.index t (1 : Fin 5)
    ∧ win1_1.index t (0 : Fin 2) = win1_4.index t (0 : Fin 5)
    ∧ win1_1.index t (1 : Fin 2) = 8 + win1_4.index t (1 : Fin 5)
    ∧ win1_2.index t (0 : Fin 2) = win1_4.index t (0 : Fin 5)
    ∧ win1_2.index t (1 : Fin 2) = 16 + win1_4.index t (1 : Fin 5)
    ∧ win1_3.index t (0 : Fin 2) = win1_4.index t (0 : Fin 5) * 8 + win1_4.index t (3 : Fin 5)
    ∧ win1_3.index t (1 : Fin 2) = win1_4.index t (1 : Fin 5)
    ∧ win1_4.index t (2 : Fin 5) = 0 ∧ win1_4.index t (4 : Fin 5) = 0
    ∧ win1_4.index t (0 : Fin 5) < 4 ∧ win1_4.index t (1 : Fin 5) < 8 ∧ win1_4.index t (3 : Fin 5) < 8 :=
  (by decide +kernel : ∀ t : Fin grid1.N, _)

/-- Every (batch, pair, row block) is some point's. -/
theorem idx_onto1 : ∀ (q0 : Fin 4) (q1 : Fin 8) (q3 : Fin 8), ∃ t : Fin cfg1.N, win1_4.index t = ![q0.val, q1.val, 0, q3.val, 0] :=
  (by decide +kernel : ∀ (q0 : Fin 4) (q1 : Fin 8) (q3 : Fin 8), ∃ t : Fin grid1.N, win1_4.index t = ![q0.val, q1.val, 0, q3.val, 0])

/-- The batch, the head pair and the query row block of grid point t. -/
def bi1 (t : Fin cfg1.N) : Fin 4 := ⟨win1_4.index t (0 : Fin 5), (idx_facts1 t).2.2.2.2.2.2.2.2.2.2.1⟩
def h21 (t : Fin cfg1.N) : Fin 8 := ⟨win1_4.index t (1 : Fin 5), (idx_facts1 t).2.2.2.2.2.2.2.2.2.2.2.1⟩
def qi1 (t : Fin cfg1.N) : Fin 8 := ⟨win1_4.index t (3 : Fin 5), (idx_facts1 t).2.2.2.2.2.2.2.2.2.2.2.2⟩

/-! ## A head's softmax over a point's blocks is the array's -/

/-- If a 256 x 64 block q holds the query rows 256·qi … of head h in batch bi and a 2048 x 64 block k the head's key
    rows, the block's attention weights are the array's. -/
theorem blkAttn_eq (A : Fused) (bi : Fin 4) (h : Fin 16) (qi : Fin 8)
    (q : S256x64.Idx → EReal) (k : S2048x64.Idx → EReal)
    (hq : ∀ (r : Fin 256) (d : Fin 64), q (ix2 r d) = A (ix2 (row bi (qrow qi r)) (qcol (col h d))))
    (hk : ∀ (j : Fin 2048) (d : Fin 64), k (ix2 j d) = A (ix2 (row bi j) (kcol (col h d))))
    (r : Fin 256) (j : Fin 2048) : Pay.blkAttn q k r j = kattn A bi h (qrow qi r) j := by
  unfold Pay.blkAttn Pay.blkExp Pay.blkMax Pay.blkScore kattn kex kmax kscore eighth negInf
  simp only [hq, hk]

/-! ## A head's columns of a 128-wide block -/

theorem ld_q0 (x0 : Vec Ideal S256x128 .f32) (r : Fin 256) (d : Fin 64) : View.ld x0 Hand.r1_q0 (ix2 r d) = x0 (ix2 r (lane 0 d)) := by
  show x0 (Hand.r1_q0.emb (ix2 r d)) = _
  congr 1; funext a; apply Fin.ext
  match a with
  | ⟨0, _⟩ => show 0 + 1 * r.val = r.val; omega
  | ⟨1, _⟩ => show 0 + 1 * d.val = 64 * 0 + d.val; omega
theorem ld_q1 (x0 : Vec Ideal S256x128 .f32) (r : Fin 256) (d : Fin 64) : View.ld x0 Hand.r1_q1 (ix2 r d) = x0 (ix2 r (lane 1 d)) := by
  show x0 (Hand.r1_q1.emb (ix2 r d)) = _
  congr 1; funext a; apply Fin.ext
  match a with
  | ⟨0, _⟩ => show 0 + 1 * r.val = r.val; omega
  | ⟨1, _⟩ => show 64 + 1 * d.val = 64 * 1 + d.val; omega
theorem ld_k0 (x1 : Vec Ideal S2048x128 .f32) (j : Fin 2048) (d : Fin 64) : View.ld x1 Hand.r1_k0 (ix2 j d) = x1 (ix2 j (lane 0 d)) := by
  show x1 (Hand.r1_k0.emb (ix2 j d)) = _
  congr 1; funext a; apply Fin.ext
  match a with
  | ⟨0, _⟩ => show 0 + 1 * j.val = j.val; omega
  | ⟨1, _⟩ => show 0 + 1 * d.val = 64 * 0 + d.val; omega
theorem ld_k1 (x1 : Vec Ideal S2048x128 .f32) (j : Fin 2048) (d : Fin 64) : View.ld x1 Hand.r1_k1 (ix2 j d) = x1 (ix2 j (lane 1 d)) := by
  show x1 (Hand.r1_k1.emb (ix2 j d)) = _
  congr 1; funext a; apply Fin.ext
  match a with
  | ⟨0, _⟩ => show 0 + 1 * j.val = j.val; omega
  | ⟨1, _⟩ => show 64 + 1 * d.val = 64 * 1 + d.val; omega

end Cert.KernelIdeal.Val

end
-- ==== Proof.Val.AttnW.lean ====
/- The attention weights after region 1, as a function of the fused projection array the region finds, index by index,
   at the exact instance.

   Point (bi, h2, qi) of the grid reads rows 2048·bi + 256·qi … of the pair's query columns and all 2048 rows of batch bi
   of the pair's key columns; what its body leaves in the weights block at (0, 0, hh, r, j) is the softmax weight of key j
   for query 256·qi + r in head 2·h2 + hh — the point's block of ONE function of the whole array. The 256 points' blocks
   tile the [4, 8, 2, 2048, 2048] array, so the array ends at that function. -/
import proofs.«114294_j50929722196421_2_alg».proof.Proof.Val.AttnPts
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.Attn
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-! ## Two slab stores, read at an index -/

/-- Slab 0 of the weights block holds the earlier store's payload: slab 1's later store does not reach it. -/
theorem canon_slab0 (w1 w0 : Vec Ideal S1x1x1x256x2048 .f32) (a0 a1 : Fin 1) (r : Fin 256) (j : Fin 2048) :
    View.canon ([⟨Hand.r1_p1, w1⟩, ⟨Hand.r1_p0, w0⟩] : List (View.Piece (Elt Ideal) S1x1x2x256x2048 .f32)) (ix5 a0 a1 (0 : Fin 2) r j)
      = w0 (ix5 (0 : Fin 1) (0 : Fin 1) (0 : Fin 1) r j) := by
  have ha0 : a0.val = 0 := by have := a0.isLt; omega
  have ha1 : a1.val = 0 := by have := a1.isLt; omega
  have hn : (ix5 a0 a1 (0 : Fin 2) r j : S1x1x2x256x2048.Idx) ∉ (⟨Hand.r1_p1, w1⟩ : View.Piece (Elt Ideal) S1x1x2x256x2048 .f32).1.set := fun h => by
    have h' : (ix5 a0 a1 (0 : Fin 2) r j : S1x1x2x256x2048.Idx) ∈ (Rect.unit (s := S1x1x2x256x2048) ![0, 0, 1, 0, 0] S1x1x1x256x2048.size inb_S1x1x2x256x2048_S1x1x1x256x2048_0_0_1_0_0).set := h
    have h2' := (Rect.mem_set_unit.mp h' (2 : Fin 5)).1
    exact absurd h2' (by show ¬ (1 ≤ 0); omega)
  have he : (ix5 a0 a1 (0 : Fin 2) r j : S1x1x2x256x2048.Idx) = Hand.r1_p0.emb (ix5 (0 : Fin 1) (0 : Fin 1) (0 : Fin 1) r j) := by
    funext a; apply Fin.ext
    match a with
    | ⟨0, _⟩ => show a0.val = 0 + 1 * 0; omega
    | ⟨1, _⟩ => show a1.val = 0 + 1 * 0; omega
    | ⟨2, _⟩ => show 0 = 0 + 1 * 0; omega
    | ⟨3, _⟩ => show r.val = 0 + 1 * r.val; omega
    | ⟨4, _⟩ => show j.val = 0 + 1 * j.val; omega
  refine (View.canon_cons_of_not_mem (⟨Hand.r1_p1, w1⟩ : View.Piece (Elt Ideal) S1x1x2x256x2048 .f32) [⟨Hand.r1_p0, w0⟩] hn).trans ?_
  refine (congrArg (View.canon ([⟨Hand.r1_p0, w0⟩] : List (View.Piece (Elt Ideal) S1x1x2x256x2048 .f32))) he).trans ?_
  exact View.canon_cons_emb Hand.r1_p0 w0 [] (ix5 (0 : Fin 1) (0 : Fin 1) (0 : Fin 1) r j)

/-- Slab 1 holds the later store's payload. -/
theorem canon_slab1 (w1 w0 : Vec Ideal S1x1x1x256x2048 .f32) (a0 a1 : Fin 1) (r : Fin 256) (j : Fin 2048) :
    View.canon ([⟨Hand.r1_p1, w1⟩, ⟨Hand.r1_p0, w0⟩] : List (View.Piece (Elt Ideal) S1x1x2x256x2048 .f32)) (ix5 a0 a1 (1 : Fin 2) r j)
      = w1 (ix5 (0 : Fin 1) (0 : Fin 1) (0 : Fin 1) r j) := by
  have ha0 : a0.val = 0 := by have := a0.isLt; omega
  have ha1 : a1.val = 0 := by have := a1.isLt; omega
  have he : (ix5 a0 a1 (1 : Fin 2) r j : S1x1x2x256x2048.Idx) = Hand.r1_p1.emb (ix5 (0 : Fin 1) (0 : Fin 1) (0 : Fin 1) r j) := by
    funext a; apply Fin.ext
    match a with
    | ⟨0, _⟩ => show a0.val = 0 + 1 * 0; omega
    | ⟨1, _⟩ => show a1.val = 0 + 1 * 0; omega
    | ⟨2, _⟩ => show 1 = 1 + 1 * 0; omega
    | ⟨3, _⟩ => show r.val = 0 + 1 * r.val; omega
    | ⟨4, _⟩ => show j.val = 0 + 1 * j.val; omega
  refine (congrArg (View.canon ([⟨Hand.r1_p1, w1⟩, ⟨Hand.r1_p0, w0⟩] : List (View.Piece (Elt Ideal) S1x1x2x256x2048 .f32))) he).trans ?_
  exact View.canon_cons_emb Hand.r1_p1 w1 [⟨Hand.r1_p0, w0⟩] (ix5 (0 : Fin 1) (0 : Fin 1) (0 : Fin 1) r j)

/-! ## A point's query and key blocks are rows and columns of the fused array -/

/-- The query block at point t: rows 256·qi … of batch bi, the pair's 128 query columns. -/
theorem iblk1_0_apply (c : Dev nD) (t : Fin cfg1.N) (r : Fin 256) (e : Fin 128) :
    (Hand.iblk1 V c 0 t : Vec Ideal S256x128 .f32) (ix2 r e)
      = (V c main_v7 : Fused) (ix2 (row (bi1 t) (qrow (qi1 t) r)) (qcol (pcol (h21 t) e))) := by
  obtain ⟨e0, e1, -⟩ := idx_facts1 t
  unfold Hand.iblk1
  rw [View.read_apply]
  show V c main_v7 (((cfg1.win 0).blk t).view.emb (ix2 r e)) = V c main_v7 _
  congr 1
  funext a; apply Fin.ext
  match a with
  | ⟨0, _⟩ =>
    show win1_0.index t (0 : Fin 2) * 256 + 1 * r.val = win1_4.index t (0 : Fin 5) * 2048 + (256 * win1_4.index t (3 : Fin 5) + r.val)
    omega
  | ⟨1, _⟩ =>
    show win1_0.index t (1 : Fin 2) * 128 + 1 * e.val = 128 * win1_4.index t (1 : Fin 5) + e.val
    omega

/-- The key block at point t: all 2048 rows of batch bi, the pair's 128 key columns. -/
theorem iblk1_1_apply (c : Dev nD) (t : Fin cfg1.N) (j : Fin 2048) (e : Fin 128) :
    (Hand.iblk1 V c 1 t : Vec Ideal S2048x128 .f32) (ix2 j e)
      = (V c main_v7 : Fused) (ix2 (row (bi1 t) j) (kcol (pcol (h21 t) e))) := by
  obtain ⟨-, -, e0, e1, -⟩ := idx_facts1 t
  unfold Hand.iblk1
  rw [View.read_apply]
  show V c main_v7 (((cfg1.win 1).blk t).view.emb (ix2 j e)) = V c main_v7 _
  congr 1
  funext a; apply Fin.ext
  match a with
  | ⟨0, _⟩ =>
    show win1_1.index t (0 : Fin 2) * 2048 + 1 * j.val = win1_4.index t (0 : Fin 5) * 2048 + j.val
    omega
  | ⟨1, _⟩ =>
    show win1_1.index t (1 : Fin 2) * 128 + 1 * e.val = 1024 + (128 * win1_4.index t (1 : Fin 5) + e.val)
    omega

/-! ## The weights block a point leaves -/

/-- Over ANY blocks that hold those rows and columns of an array A, the weights block the body leaves is, at
    (0, 0, hh, r, j), the array's attention weight of key j for query 256·qi + r in head 2·h2 + hh of batch bi. -/
theorem out1_4_apply (A : Fused) (bi : Fin 4) (h2 qi : Fin 8)
    (x0 : Vec Ideal S256x128 .f32) (x1 : Vec Ideal S2048x128 .f32)
    (hx0 : ∀ (r : Fin 256) (e : Fin 128), x0 (ix2 r e) = A (ix2 (row bi (qrow qi r)) (qcol (pcol h2 e))))
    (hx1 : ∀ (j : Fin 2048) (e : Fin 128), x1 (ix2 j e) = A (ix2 (row bi j) (kcol (pcol h2 e))))
    (y : S1x1x2x256x2048.Idx) :
    Hand.out1_4 x0 x1 y = kattn A bi (headOfPair h2 (y 2)) (qrow qi (y 3)) (y 4) := by
  obtain ⟨a0, a1, hh, r, j, rfl⟩ : ∃ (a0 a1 : Fin 1) (hh : Fin 2) (r : Fin 256) (j : Fin 2048), y = ix5 a0 a1 hh r j :=
    ⟨y 0, y 1, y 2, y 3, y 4, eq_ix5 y⟩
  show Hand.out1_4 x0 x1 (ix5 a0 a1 hh r j) = kattn A bi (headOfPair h2 hh) (qrow qi r) j
  unfold Hand.out1_4
  have hcase : hh = 0 ∨ hh = 1 := by
    rcases hh with ⟨v, hv⟩
    rcases v with _ | _ | v
    · left; rfl
    · right; rfl
    · omega
  rcases hcase with rfl | rfl
  · -- the first head
    refine (canon_slab0 _ _ a0 a1 r j).trans ?_
    refine (Pay.k1_pay5_apply _ _ r j).trans ?_
    exact blkAttn_eq A bi (headOfPair h2 0) qi _ _ (fun r d => by rw [ld_q0, hx0, pcol_lane]) (fun j d => by rw [ld_k0, hx1, pcol_lane]) r j
  · -- the second head
    refine (canon_slab1 _ _ a0 a1 r j).trans ?_
    refine (Pay.k1_pay2_second _ _ r j).trans ?_
    exact blkAttn_eq A bi (headOfPair h2 1) qi _ _ (fun r d => by rw [ld_q1, hx0, pcol_lane]) (fun j d => by rw [ld_k1, hx1, pcol_lane]) r j

/-! ## From the blocks to the array -/

/-- A read of point t's block of a function G of the weights array's index: the block's (0, 0, hh, r, j) is the array's
    (bi, h2, hh, 256·qi + r, j). -/
theorem read_blk1_4 (G : S4x8x2x2048x2048.Idx → EReal) (t : Fin cfg1.N) (y : ((cfg1.win 4).xblock (grid1.coords t)).Idx) :
    ((cfg1.win 4).blk t).view.read (Elt Ideal) G y
      = G (ix5 (bi1 t) (h21 t) ((cfg1.win 4).xinj (grid1.coords t) y 2) (qrow (qi1 t) ((cfg1.win 4).xinj (grid1.coords t) y 3)) ((cfg1.win 4).xinj (grid1.coords t) y 4)) := by
  obtain ⟨-, -, -, -, -, -, -, -, e2, e4, -⟩ := idx_facts1 t
  rw [View.read_apply]
  show G (((cfg1.win 4).blk t).view.emb y) = G _
  congr 1
  funext a; apply Fin.ext
  have h0 : (y 0).val < 1 := (y 0).isLt
  have h1 : (y 1).val < 1 := (y 1).isLt
  match a with
  | ⟨0, _⟩ => show win1_4.index t (0 : Fin 5) * 1 + 1 * (y 0).val = win1_4.index t (0 : Fin 5); omega
  | ⟨1, _⟩ => show win1_4.index t (1 : Fin 5) * 1 + 1 * (y 1).val = win1_4.index t (1 : Fin 5); omega
  | ⟨2, _⟩ => show win1_4.index t (2 : Fin 5) * 2 + 1 * (y 2).val = (y 2).val; omega
  | ⟨3, _⟩ => show win1_4.index t (3 : Fin 5) * 256 + 1 * (y 3).val = 256 * win1_4.index t (3 : Fin 5) + (y 3).val; omega
  | ⟨4, _⟩ => show win1_4.index t (4 : Fin 5) * 2048 + 1 * (y 4).val = (y 4).val; omega

/-- WHAT POINT t WRITES BACK into the weights array is its block of the array-level attention weights. -/
theorem flushed1_4_eq (c : Dev nD) (t : Fin cfg1.N) :
    (Hand.dat1 V c).flushed 4 t = ((cfg1.win 4).blk t).view.read (Elt Ideal)
      (fun i => kattn (V c main_v7) (i 0) (headOfPair (i 1) (i 2)) (i 3) (i 4)) := by
  show (cfg1.win 4).cut (grid1.coords t) ((Hand.dat1 V c).after 4 t) = _
  rw [Hand.after1_4]
  funext y
  have hL := out1_4_apply (V c main_v7) (bi1 t) (h21 t) (qi1 t) (Hand.iblk1 V c 0 t) (Hand.iblk1 V c 1 t)
    (iblk1_0_apply V c t) (iblk1_1_apply V c t) ((cfg1.win 4).xinj (grid1.coords t) y)
  exact hL.trans (read_blk1_4 (fun i => kattn (V c main_v7) (i 0) (headOfPair (i 1) (i 2)) (i 3) (i 4)) t y).symm

/-- An index of the weights array is in point t's block iff each coordinate is in the block's range on its axis. -/
theorem mem_blk1_4 (t : Fin cfg1.N) (i : S4x8x2x2048x2048.Idx) :
    i ∈ ((cfg1.win 4).blk t).view.set ↔ ∀ a : Fin 5, win1_4.index t a * S1x1x2x256x2048.size a ≤ (i a).val ∧ (i a).val < win1_4.index t a * S1x1x2x256x2048.size a + S1x1x2x256x2048.size a := by
  show i ∈ ((View.whole main_v8_1).slice (win1_4.rect t)).set ↔ _
  rw [View.set_slice_whole, Rect.mem_set_unit]
  exact Iff.rfl

/-- Every index of the weights array is in the block of the point (batch, pair, row / 256). -/
theorem blocks_cover1_4 (i : S4x8x2x2048x2048.Idx) :
    ∃ t : Fin cfg1.N, (cfg1.win 4).flush t = true ∧ i ∈ ((cfg1.win 4).blk t).view.set := by
  have hi0 : (i 0).val < 4 := (i 0).isLt
  have hi1 : (i 1).val < 8 := (i 1).isLt
  have hi2 : (i 2).val < 2 := (i 2).isLt
  have hi3 : (i 3).val < 2048 := (i 3).isLt
  have hi4 : (i 4).val < 2048 := (i 4).isLt
  obtain ⟨t, ht⟩ := idx_onto1 ⟨(i 0).val, hi0⟩ ⟨(i 1).val, hi1⟩ ⟨(i 3).val / 256, by omega⟩
  have q0 : win1_4.index t (0 : Fin 5) = (i 0).val := congrFun ht 0
  have q1 : win1_4.index t (1 : Fin 5) = (i 1).val := congrFun ht 1
  have q2 : win1_4.index t (2 : Fin 5) = 0 := congrFun ht 2
  have q3 : win1_4.index t (3 : Fin 5) = (i 3).val / 256 := congrFun ht 3
  have q4 : win1_4.index t (4 : Fin 5) = 0 := congrFun ht 4
  refine ⟨t, flush1_4 t, ?_⟩
  rw [mem_blk1_4]
  intro a
  match a with
  | ⟨0, _⟩ => show win1_4.index t (0 : Fin 5) * 1 ≤ (i 0).val ∧ (i 0).val < win1_4.index t (0 : Fin 5) * 1 + 1; omega
  | ⟨1, _⟩ => show win1_4.index t (1 : Fin 5) * 1 ≤ (i 1).val ∧ (i 1).val < win1_4.index t (1 : Fin 5) * 1 + 1; omega
  | ⟨2, _⟩ => show win1_4.index t (2 : Fin 5) * 2 ≤ (i 2).val ∧ (i 2).val < win1_4.index t (2 : Fin 5) * 2 + 2; omega
  | ⟨3, _⟩ => show win1_4.index t (3 : Fin 5) * 256 ≤ (i 3).val ∧ (i 3).val < win1_4.index t (3 : Fin 5) * 256 + 256; omega
  | ⟨4, _⟩ => show win1_4.index t (4 : Fin 5) * 2048 ≤ (i 4).val ∧ (i 4).val < win1_4.index t (4 : Fin 5) * 2048 + 2048; omega

/-- THE WEIGHTS ARRAY after the region: at (bi, h2, hh, q, k) the attention weight of key k for query q in head 2·h2 + hh
    of batch bi, computed from the fused projection array the region found. -/
theorem final1_4 (c : Dev nD) : (Hand.dat1 V c).arrAt 4 cfg1.N
    = fun i => Cert.Attn.kattn (V c main_v7) (i 0) (Cert.Attn.headOfPair (i 1) (i 2)) (i 3) (i 4) :=
  (Hand.dat1 V c).arrAt_eq_of_cover 4 _ (fun t _ => flushed1_4_eq V c t) blocks_cover1_4

end Cert.KernelIdeal.Val

end
-- ==== Proof.Val.AttnO.lean ====
/- The context array after region 1, as a function of the fused projection array the region finds, index by index, at the
   exact instance.

   Point (bi, h2, qi) of the grid reads, beside its query and key blocks, all 2048 rows of batch bi of the pair's value
   columns; what its body leaves in the context block at (r, 64·hh + d) is the attention weights of query 256·qi + r in
   head 2·h2 + hh applied to column d of that head's value rows — the point's block of ONE function of the whole array.
   The 256 points' blocks tile the [8192, 1024] array, so the array ends at that function. -/
import proofs.«114294_j50929722196421_2_alg».proof.Proof.Val.AttnW
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.Attn
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-! ## Two column-half stores, read at an index -/

/-- Columns 0-63 of the context block hold the earlier store's payload: the later store does not reach them. -/
theorem canon_half0 (w1 w0 : Vec Ideal S256x64 .f32) (r : Fin 256) (d : Fin 64) :
    View.canon ([⟨Hand.r1_q1, w1⟩, ⟨Hand.r1_q0, w0⟩] : List (View.Piece (Elt Ideal) S256x128 .f32)) (ix2 r (lane 0 d))
      = w0 (ix2 r d) := by
  have hd : d.val < 64 := d.isLt
  have hn : (ix2 r (lane 0 d) : S256x128.Idx) ∉ (⟨Hand.r1_q1, w1⟩ : View.Piece (Elt Ideal) S256x128 .f32).1.set := fun h => by
    have h' : (ix2 r (lane 0 d) : S256x128.Idx) ∈ (Rect.unit (s := S256x128) ![0, 64] S256x64.size inb_S256x128_S256x64_0_64).set := h
    have h1' := (Rect.mem_set_unit.mp h' (1 : Fin 2)).1
    exact absurd h1' (by show ¬ (64 ≤ 64 * 0 + d.val); omega)
  have he : (ix2 r (lane 0 d) : S256x128.Idx) = Hand.r1_q0.emb (ix2 r d) := by
    funext a; apply Fin.ext
    match a with
    | ⟨0, _⟩ => show r.val = 0 + 1 * r.val; omega
    | ⟨1, _⟩ => show 64 * 0 + d.val = 0 + 1 * d.val; omega
  refine (View.canon_cons_of_not_mem (⟨Hand.r1_q1, w1⟩ : View.Piece (Elt Ideal) S256x128 .f32) [⟨Hand.r1_q0, w0⟩] hn).trans ?_
  refine (congrArg (View.canon ([⟨Hand.r1_q0, w0⟩] : List (View.Piece (Elt Ideal) S256x128 .f32))) he).trans ?_
  exact View.canon_cons_emb Hand.r1_q0 w0 [] (ix2 r d)

/-- Columns 64-127 hold the later store's payload. -/
theorem canon_half1 (w1 w0 : Vec Ideal S256x64 .f32) (r : Fin 256) (d : Fin 64) :
    View.canon ([⟨Hand.r1_q1, w1⟩, ⟨Hand.r1_q0, w0⟩] : List (View.Piece (Elt Ideal) S256x128 .f32)) (ix2 r (lane 1 d))
      = w1 (ix2 r d) := by
  have he : (ix2 r (lane 1 d) : S256x128.Idx) = Hand.r1_q1.emb (ix2 r d) := by
    funext a; apply Fin.ext
    match a with
    | ⟨0, _⟩ => show r.val = 0 + 1 * r.val; omega
    | ⟨1, _⟩ => show 64 * 1 + d.val = 64 + 1 * d.val; omega
  refine (congrArg (View.canon ([⟨Hand.r1_q1, w1⟩, ⟨Hand.r1_q0, w0⟩] : List (View.Piece (Elt Ideal) S256x128 .f32))) he).trans ?_
  exact View.canon_cons_emb Hand.r1_q1 w1 [⟨Hand.r1_q0, w0⟩] (ix2 r d)

/-! ## A point's value block is rows and columns of the fused array -/

/-- The value block at point t: all 2048 rows of batch bi, the pair's 128 value columns. -/
theorem iblk1_2_apply (c : Dev nD) (t : Fin cfg1.N) (j : Fin 2048) (e : Fin 128) :
    (Hand.iblk1 V c 2 t : Vec Ideal S2048x128 .f32) (ix2 j e)
      = (V c main_v7 : Fused) (ix2 (row (bi1 t) j) (vcol (pcol (h21 t) e))) := by
  obtain ⟨-, -, -, -, e0, e1, -⟩ := idx_facts1 t
  unfold Hand.iblk1
  rw [View.read_apply]
  show V c main_v7 (((cfg1.win 2).blk t).view.emb (ix2 j e)) = V c main_v7 _
  congr 1
  funext a; apply Fin.ext
  match a with
  | ⟨0, _⟩ =>
    show win1_2.index t (0 : Fin 2) * 2048 + 1 * j.val = win1_4.index t (0 : Fin 5) * 2048 + j.val
    omega
  | ⟨1, _⟩ =>
    show win1_2.index t (1 : Fin 2) * 128 + 1 * e.val = 2048 + (128 * win1_4.index t (1 : Fin 5) + e.val)
    omega

/-! ## The context block a point leaves -/

/-- Over ANY blocks that hold those rows and columns of an array A, the context block the body leaves is, at (r, e), the
    array's context entry of query 256·qi + r of batch bi at the pair's column e. -/
theorem out1_3_apply (A : Fused) (bi : Fin 4) (h2 qi : Fin 8)
    (x0 : Vec Ideal S256x128 .f32) (x1 x2 : Vec Ideal S2048x128 .f32)
    (hx0 : ∀ (r : Fin 256) (e : Fin 128), x0 (ix2 r e) = A (ix2 (row bi (qrow qi r)) (qcol (pcol h2 e))))
    (hx1 : ∀ (j : Fin 2048) (e : Fin 128), x1 (ix2 j e) = A (ix2 (row bi j) (kcol (pcol h2 e))))
    (hx2 : ∀ (j : Fin 2048) (e : Fin 128), x2 (ix2 j e) = A (ix2 (row bi j) (vcol (pcol h2 e))))
    (y : S256x128.Idx) :
    Hand.out1_3 x0 x1 x2 y = kctx A bi (qrow qi (y 0)) (pcol h2 (y 1)) := by
  obtain ⟨r, e, rfl⟩ : ∃ (r : Fin 256) (e : Fin 128), y = ix2 r e := ⟨y 0, y 1, eq_ix2 y⟩
  show Hand.out1_3 x0 x1 x2 (ix2 r e) = kctx A bi (qrow qi r) (pcol h2 e)
  obtain ⟨hh, d, rfl⟩ : ∃ (hh : Fin 2) (d : Fin 64), e = lane hh d :=
    ⟨⟨e.val / 64, by have := e.isLt; omega⟩, ⟨e.val % 64, Nat.mod_lt _ (by decide)⟩,
      Fin.ext (by show e.val = 64 * (e.val / 64) + e.val % 64; omega)⟩
  unfold Hand.out1_3 kctx
  rw [headOf_pcol_lane]
  have hcase : hh = 0 ∨ hh = 1 := by
    rcases hh with ⟨v, hv⟩
    rcases v with _ | _ | v
    · left; rfl
    · right; rfl
    · omega
  rcases hcase with rfl | rfl
  · -- the first head
    refine (canon_half0 _ _ r d).trans ?_
    refine (Pay.k1_pay6_apply _ _ _ r d).trans ?_
    refine Finset.sum_congr rfl fun j _ => ?_
    exact congrArg₂ (· * ·)
      (blkAttn_eq A bi (headOfPair h2 0) qi _ _ (fun r d => by rw [ld_q0, hx0, pcol_lane]) (fun j d => by rw [ld_k0, hx1, pcol_lane]) r j)
      ((ld_k0 x2 j d).trans (hx2 j (lane 0 d)))
  · -- the second head
    refine (canon_half1 _ _ r d).trans ?_
    refine (Pay.k1_pay3_second _ _ _ r d).trans ?_
    refine Finset.sum_congr rfl fun j _ => ?_
    exact congrArg₂ (· * ·)
      (blkAttn_eq A bi (headOfPair h2 1) qi _ _ (fun r d => by rw [ld_q1, hx0, pcol_lane]) (fun j d => by rw [ld_k1, hx1, pcol_lane]) r j)
      ((ld_k1 x2 j d).trans (hx2 j (lane 1 d)))

/-! ## From the blocks to the array -/

/-- A read of point t's block of a function G of the context array's index: the block's (r, e) is the array's
    (2048·bi + 256·qi + r, 128·h2 + e). -/
theorem read_blk1_3 (G : S8192x1024.Idx → EReal) (t : Fin cfg1.N) (y : ((cfg1.win 3).xblock (grid1.coords t)).Idx) :
    ((cfg1.win 3).blk t).view.read (Elt Ideal) G y
      = G (ix2 (row (bi1 t) (qrow (qi1 t) ((cfg1.win 3).xinj (grid1.coords t) y 0))) (pcol (h21 t) ((cfg1.win 3).xinj (grid1.coords t) y 1))) := by
  obtain ⟨-, -, -, -, -, -, e6, e7, -⟩ := idx_facts1 t
  rw [View.read_apply]
  show G (((cfg1.win 3).blk t).view.emb y) = G _
  congr 1
  funext a; apply Fin.ext
  match a with
  | ⟨0, _⟩ => show win1_3.index t (0 : Fin 2) * 256 + 1 * (y 0).val = win1_4.index t (0 : Fin 5) * 2048 + (256 * win1_4.index t (3 : Fin 5) + (y 0).val); omega
  | ⟨1, _⟩ => show win1_3.index t (1 : Fin 2) * 128 + 1 * (y 1).val = 128 * win1_4.index t (1 : Fin 5) + (y 1).val; omega

/-- WHAT POINT t WRITES BACK into the context array is its block of the array-level context. -/
theorem flushed1_3_eq (c : Dev nD) (t : Fin cfg1.N) :
    (Hand.dat1 V c).flushed 3 t = ((cfg1.win 3).blk t).view.read (Elt Ideal)
      (fun i => kctx (V c main_v7) (batchOf (i 0)) (posOf (i 0)) (i 1)) := by
  show (cfg1.win 3).cut (grid1.coords t) ((Hand.dat1 V c).after 3 t) = _
  rw [Hand.after1_3]
  funext y
  have hL := out1_3_apply (V c main_v7) (bi1 t) (h21 t) (qi1 t) (Hand.iblk1 V c 0 t) (Hand.iblk1 V c 1 t) (Hand.iblk1 V c 2 t)
    (iblk1_0_apply V c t) (iblk1_1_apply V c t) (iblk1_2_apply V c t) ((cfg1.win 3).xinj (grid1.coords t) y)
  have hR := read_blk1_3 (fun i => kctx (V c main_v7) (batchOf (i 0)) (posOf (i 0)) (i 1)) t y
  refine hL.trans (Eq.trans ?_ hR.symm)
  show kctx _ _ _ _ = kctx _ (batchOf (row _ _)) (posOf (row _ _)) _
  rw [batchOf_row, posOf_row]

/-- An index of the context array is in point t's block iff each coordinate is in the block's range on its axis. -/
theorem mem_blk1_3 (t : Fin cfg1.N) (i : S8192x1024.Idx) :
    i ∈ ((cfg1.win 3).blk t).view.set ↔ ∀ a : Fin 2, win1_3.index t a * S256x128.size a ≤ (i a).val ∧ (i a).val < win1_3.index t a * S256x128.size a + S256x128.size a := by
  show i ∈ ((View.whole main_v8_0).slice (win1_3.rect t)).set ↔ _
  rw [View.set_slice_whole, Rect.mem_set_unit]
  exact Iff.rfl

/-- Every index of the context array is in the block of the point (row / 2048, column / 128, row % 2048 / 256). -/
theorem blocks_cover1_3 (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  obtain ⟨t, ht⟩ := idx_onto1 ⟨(i 0).val / 2048, by omega⟩ ⟨(i 1).val / 128, by omega⟩ ⟨(i 0).val % 2048 / 256, by omega⟩
  have q0 : win1_4.index t (0 : Fin 5) = (i 0).val / 2048 := congrFun ht 0
  have q1 : win1_4.index t (1 : Fin 5) = (i 1).val / 128 := congrFun ht 1
  have q3 : win1_4.index t (3 : Fin 5) = (i 0).val % 2048 / 256 := congrFun ht 3
  obtain ⟨-, -, -, -, -, -, e6, e7, -⟩ := idx_facts1 t
  refine ⟨t, flush1_3 t, ?_⟩
  rw [mem_blk1_3]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 128 ≤ (i 1).val ∧ (i 1).val < win1_3.index t (1 : Fin 2) * 128 + 128; omega

/-- THE CONTEXT ARRAY after the region: at (row, e) the attention weights of e's head at the row's position applied to
    column e of the value rows of the row's batch, computed from the fused projection array the region found. -/
theorem final1_3 (c : Dev nD) : (Hand.dat1 V c).arrAt 3 cfg1.N
    = fun i => Cert.Attn.kctx (V c main_v7) (Cert.Attn.batchOf (i 0)) (Cert.Attn.posOf (i 0)) (i 1) :=
  (Hand.dat1 V c).arrAt_eq_of_cover 3 _ (fun t _ => flushed1_3_eq V c t) blocks_cover1_3

end Cert.KernelIdeal.Val

end
-- ==== Proof.Val.Attn.lean ====
/- The two arrays region 1 leaves, each as one function of the fused projection array it found, at the exact instance:
   the attention weights (`Cert.KernelIdeal.Val.final1_4`) and the context array (`Cert.KernelIdeal.Val.final1_3`). -/
import proofs.«114294_j50929722196421_2_alg».proof.Proof.Val.AttnW
import proofs.«114294_j50929722196421_2_alg».proof.Proof.Val.AttnO
-- ==== Proof.Bridge.lean ====
/-
  The kernel's form of the attention stages is the specification's.

  Given that the fused array holds the three projections in its three column ranges, the kernel's score (the inner
  product times the word of 0.125) is the specification's (the inner product divided by the word of 8.0); the row
  maximum, the exponentials, their sum and the quotient are then the same functions of equal scores, and the context
  array the same sum of equal products. A flattened array times a weight plus a bias row is the specification's
  projection when the flattened array, the weight's chosen columns and the bias row's chosen entries are the
  specification's; with the context array as the input it is the first result.
-/
import proofs.«114294_j50929722196421_2_alg».proof.Proof.KForm

noncomputable section

open scoped BigOperators
open Idealize.ShloMosaic Idealize.ShloMosaic.ValueIdx

namespace Cert.Attn

section
variable {x : Act} {Wq Wk Wv Wo : Wgt} {bq bk bv bo : Bias} {A : Fused}

/-- Equal factors, and the word of 0.125 against the word of 8.0: the scores agree. -/
theorem kscore_eq (hq : ∀ (bi : Fin 4) (s : Fin 2048) (e : Fin 1024), A (ix2 (row bi s) (qcol e)) = proj x Wq bq bi s e)
    (hk : ∀ (bi : Fin 4) (s : Fin 2048) (e : Fin 1024), A (ix2 (row bi s) (kcol e)) = proj x Wk bk bi s e)
    (bi : Fin 4) (h : Fin 16) (q k : Fin 2048) : kscore A bi h q k = score x Wq bq Wk bk bi h q k := by
  unfold kscore score
  rw [mul_eighth]
  exact congrArg (fun t => Ideal.div t eight) (Finset.sum_congr rfl fun d _ => by rw [hq, hk])

/-- The maxima of equal score rows agree. -/
theorem kmax_eq (hq : ∀ (bi : Fin 4) (s : Fin 2048) (e : Fin 1024), A (ix2 (row bi s) (qcol e)) = proj x Wq bq bi s e)
    (hk : ∀ (bi : Fin 4) (s : Fin 2048) (e : Fin 1024), A (ix2 (row bi s) (kcol e)) = proj x Wk bk bi s e)
    (bi : Fin 4) (h : Fin 16) (q : Fin 2048) : kmax A bi h q = rowMax x Wq bq Wk bk bi h q := by
  unfold kmax rowMax
  exact congrArg (fun f => (Finset.univ : Finset (Fin 2048)).fold max negInf f) (funext fun k => kscore_eq hq hk bi h q k)

/-- The exponentials agree. -/
theorem kex_eq (hq : ∀ (bi : Fin 4) (s : Fin 2048) (e : Fin 1024), A (ix2 (row bi s) (qcol e)) = proj x Wq bq bi s e)
    (hk : ∀ (bi : Fin 4) (s : Fin 2048) (e : Fin 1024), A (ix2 (row bi s) (kcol e)) = proj x Wk bk bi s e)
    (bi : Fin 4) (h : Fin 16) (q k : Fin 2048) : kex A bi h q k = ex x Wq bq Wk bk bi h q k := by
  unfold kex ex
  rw [kscore_eq hq hk, kmax_eq hq hk]

/-- The attention weights agree. -/
theorem kattn_eq (hq : ∀ (bi : Fin 4) (s : Fin 2048) (e : Fin 1024), A (ix2 (row bi s) (qcol e)) = proj x Wq bq bi s e)
    (hk : ∀ (bi : Fin 4) (s : Fin 2048) (e : Fin 1024), A (ix2 (row bi s) (kcol e)) = proj x Wk bk bi s e)
    (bi : Fin 4) (h : Fin 16) (q k : Fin 2048) : kattn A bi h q k = attn x Wq bq Wk bk bi h q k := by
  unfold kattn attn den
  rw [kex_eq hq hk]
  exact congrArg (Ideal.div _) (Finset.sum_congr rfl fun k' _ => kex_eq hq hk bi h q k')

/-- The context arrays agree. -/
theorem kctx_eq (hq : ∀ (bi : Fin 4) (s : Fin 2048) (e : Fin 1024), A (ix2 (row bi s) (qcol e)) = proj x Wq bq bi s e)
    (hk : ∀ (bi : Fin 4) (s : Fin 2048) (e : Fin 1024), A (ix2 (row bi s) (kcol e)) = proj x Wk bk bi s e)
    (hv : ∀ (bi : Fin 4) (s : Fin 2048) (e : Fin 1024), A (ix2 (row bi s) (vcol e)) = proj x Wv bv bi s e)
    (bi : Fin 4) (s : Fin 2048) (e : Fin 1024) : kctx A bi s e = ctx x Wq bq Wk bk Wv bv bi s e := by
  unfold kctx ctx
  exact Finset.sum_congr rfl fun k _ => by rw [kattn_eq hq hk, hv]

/-- A flattened array times chosen columns of a weight, plus the chosen entries of a bias row, is the projection. -/
theorem lin_proj {n : Nat} (X : (⟨2, ![8192, 1024]⟩ : Shape).Idx → EReal) (Wc : (⟨2, ![1024, n]⟩ : Shape).Idx → EReal)
    (Bc : (⟨2, ![1, n]⟩ : Shape).Idx → EReal) (W : Wgt) (b : Bias) (f : Fin 1024 → Fin n)
    (hX : ∀ (bi : Fin 4) (s : Fin 2048) (d : Fin 1024), X (ix2 (row bi s) d) = x (ix3 bi s d))
    (hW : ∀ (d e : Fin 1024), Wc (ix2 d (f e)) = W (ix2 d e))
    (hB : ∀ e : Fin 1024, Bc (ix2 0 (f e)) = b (ix1 e))
    (bi : Fin 4) (s : Fin 2048) (e : Fin 1024) : linAt X Wc Bc (row bi s) (f e) = proj x W b bi s e := by
  unfold linAt proj
  rw [hB]
  exact congrArg (· + b (ix1 e)) (Finset.sum_congr rfl fun d _ => by rw [hX, hW])

/-- The context array times the output weight plus the output bias row is the first result. -/
theorem lin_out (C : Flat) (Wc : (⟨2, ![1024, 1024]⟩ : Shape).Idx → EReal) (Bc : (⟨2, ![1, 1024]⟩ : Shape).Idx → EReal)
    (hC : ∀ (bi : Fin 4) (s : Fin 2048) (d : Fin 1024), C (ix2 (row bi s) d) = ctx x Wq bq Wk bk Wv bv bi s d)
    (hW : ∀ (d e : Fin 1024), Wc (ix2 d e) = Wo (ix2 d e))
    (hB : ∀ e : Fin 1024, Bc (ix2 0 e) = bo (ix1 e))
    (bi : Fin 4) (s : Fin 2048) (e : Fin 1024) : linAt C Wc Bc (row bi s) e = outAt x Wq bq Wk bk Wv bv Wo bo bi s e := by
  unfold linAt outAt
  rw [hB]
  exact congrArg (· + bo (ix1 e)) (Finset.sum_congr rfl fun d _ => by rw [hC, hW])

end

end Cert.Attn

end
-- ==== Proof.Val.Chain.lean ====
/-
  The kernel program's two results are the specification's, at the exact instance.

  Read backwards from the end of @main. The output is the last stretch's re-view of region 2's array, which is
  region 2's input times the output weight plus the output bias row; that input is region 1's context array, the
  attention weights applied to the value columns of the fused projection array; the fused array is region 0's
  output, the flattened input times the joined weight plus the joined bias row, so its three column ranges are the
  query, key and value projections of the specification. The attention weights are the second stretch's re-view of
  region 1's weights array. The kernel multiplies its inner products by 0.125 where the specification divides by 8:
  the same on every extended real. Nothing else differs: each stage of the kernel is the specification's stage at the
  fused array's entries.
-/
import proofs.«114294_j50929722196421_2_alg».proof.Proof.KI.Run
import proofs.«114294_j50929722196421_2_alg».proof.Proof.Val.Lin
import proofs.«114294_j50929722196421_2_alg».proof.Proof.Val.Glue
import proofs.«114294_j50929722196421_2_alg».proof.Proof.Val.Attn
import proofs.«114294_j50929722196421_2_alg».proof.Proof.Bridge

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.Attn

variable (m : (ℓ : Loc nD τ sig) → Buf (Elt Ideal) ℓ) (c : Dev nD)

/-- The nine arguments as arrays. -/
abbrev aX : Act := m ((c : Thread nD τ).loc main_arg0)
abbrev aWq : Wgt := m ((c : Thread nD τ).loc main_arg1)
abbrev aBq : Bias := m ((c : Thread nD τ).loc main_arg2)
abbrev aWk : Wgt := m ((c : Thread nD τ).loc main_arg3)
abbrev aBk : Bias := m ((c : Thread nD τ).loc main_arg4)
abbrev aWv : Wgt := m ((c : Thread nD τ).loc main_arg5)
abbrev aBv : Bias := m ((c : Thread nD τ).loc main_arg6)
abbrev aWo : Wgt := m ((c : Thread nD τ).loc main_arg7)
abbrev aBo : Bias := m ((c : Thread nD τ).loc main_arg8)

/-- The fused projection array region 0 leaves. -/
abbrev fused : Fused := Hand.V2 m c main_v7

/-- It is the flattened input times the joined weight plus the joined bias row. -/
theorem fused_eq : fused m c = fun i => linAt (Hand.V1 m c main_v0) (Hand.V1 m c main_v4) (Hand.V1 m c main_v6) (i 0) (i 1) :=
  (Hand.W2_arr m c 3).trans (final0 (Hand.V1 m) c)

/-- Every head is one of the two heads of a pair. -/
theorem head_pair (h : Fin 16) :
    headOfPair ⟨h.val / 2, by have := h.isLt; omega⟩ ⟨h.val % 2, Nat.mod_lt _ (by decide)⟩ = h :=
  Fin.ext (by show 2 * (h.val / 2) + h.val % 2 = h.val; omega)

/-- An argument array is untouched when region 1 has run. -/
theorem W3_arg (b : Ref sig .tc)
    (h0 : ∀ r ∈ ([main_v0, main_v1, main_v2, main_v3, main_v4, main_v5, main_v6] : List (Ref sig .tc)), b ≠ r)
    (ha0 : ∀ w, Pipeline.arrRef spec0 w ≠ b) (h80 : b ≠ main_v8_0) (h81 : b ≠ main_v8_1) :
    Hand.W3 m c (Proc.devRef .tc b) = m ((c : Thread nD τ).loc b) :=
  (Hand.W3_of_ne m c b h80 h81).trans ((Hand.W2_of_ne m c b ha0).trans (Hand.keep0 _ b h0))

/-- The fused array's query columns are the query projection, -/
theorem fused_q (bi : Fin 4) (s : Fin 2048) (e : Fin 1024) :
    fused m c (ix2 (row bi s) (qcol e)) = proj (aX m c) (aWq m c) (aBq m c) bi s e := by
  rw [fused_eq]
  exact lin_proj (x := aX m c) (Hand.V1 m c main_v0) (Hand.V1 m c main_v4) (Hand.V1 m c main_v6) (aWq m c) (aBq m c) qcol
    (fun bi s d => glue_v0 (Hand.W0 m c) bi s d) (fun d e => glue_v4_q (Hand.W0 m c) d e) (fun e => glue_v6_q (Hand.W0 m c) e) bi s e
/-- its key columns the key projection, -/
theorem fused_k (bi : Fin 4) (s : Fin 2048) (e : Fin 1024) :
    fused m c (ix2 (row bi s) (kcol e)) = proj (aX m c) (aWk m c) (aBk m c) bi s e := by
  rw [fused_eq]
  exact lin_proj (x := aX m c) (Hand.V1 m c main_v0) (Hand.V1 m c main_v4) (Hand.V1 m c main_v6) (aWk m c) (aBk m c) kcol
    (fun bi s d => glue_v0 (Hand.W0 m c) bi s d) (fun d e => glue_v4_k (Hand.W0 m c) d e) (fun e => glue_v6_k (Hand.W0 m c) e) bi s e
/-- and its value columns the value projection. -/
theorem fused_v (bi : Fin 4) (s : Fin 2048) (e : Fin 1024) :
    fused m c (ix2 (row bi s) (vcol e)) = proj (aX m c) (aWv m c) (aBv m c) bi s e := by
  rw [fused_eq]
  exact lin_proj (x := aX m c) (Hand.V1 m c main_v0) (Hand.V1 m c main_v4) (Hand.V1 m c main_v6) (aWv m c) (aBv m c) vcol
    (fun bi s d => glue_v0 (Hand.W0 m c) bi s d) (fun d e => glue_v4_v (Hand.W0 m c) d e) (fun e => glue_v6_v (Hand.W0 m c) e) bi s e

/-- THE SECOND RESULT: the array @main returns as the attention weights is the specification's. -/
theorem weights_eq :
    (Hand.W6 m c (Proc.devRef .tc main_v9) : Wts) = G_attn (aX m c) (aWq m c) (aBq m c) (aWk m c) (aBk m c) := by
  funext i
  obtain ⟨bi, h, q, k, rfl⟩ : ∃ (bi : Fin 4) (h : Fin 16) (q k : Fin 2048), i = ix4 bi h q k := ⟨i 0, i 1, i 2, i 3, eq_ix4 i⟩
  show _ = attn (aX m c) (aWq m c) (aBq m c) (aWk m c) (aBk m c) bi h q k
  have e1 : Hand.W6 m c (Proc.devRef .tc main_v9) = StableHlo.after hostOps2 (Hand.W3 m c) (Proc.devRef .tc main_v9) :=
    (Hand.keep3 _ main_v9 (by decide)).trans (Hand.W5_of_ne m c main_v9 (by decide))
  rw [← head_pair h]
  refine (congrFun e1 _).trans ?_
  refine (glue_v9 (Hand.W3 m c) bi _ _ q k).trans ?_
  refine (congrFun (Hand.W3_v8_1 m c) _).trans ?_
  refine (congrFun (final1_4 (Hand.V2 m) c) _).trans ?_
  exact kattn_eq (fused_q m c) (fused_k m c) bi _ q k

/-- THE FIRST RESULT: the array @main returns as the output is the specification's. -/
theorem output_eq :
    (Hand.W6 m c (Proc.devRef .tc main_v13) : Act)
      = G_out (aX m c) (aWq m c) (aBq m c) (aWk m c) (aBk m c) (aWv m c) (aBv m c) (aWo m c) (aBo m c) := by
  funext i
  obtain ⟨bi, s, e, rfl⟩ : ∃ (bi : Fin 4) (s : Fin 2048) (e : Fin 1024), i = ix3 bi s e := ⟨i 0, i 1, i 2, eq_ix3 i⟩
  show _ = outAt (aX m c) (aWq m c) (aBq m c) (aWk m c) (aBk m c) (aWv m c) (aBv m c) (aWo m c) (aBo m c) bi s e
  refine (glue_v13 (Hand.W5 m c) bi s e).trans ?_
  refine (congrFun (Hand.W5_arr m c 3) _).trans ?_
  refine (congrFun (final2 (Hand.V4 m) c) _).trans ?_
  show linAt (Hand.V4 m c main_v8_0) (Hand.V4 m c main_v10) (Hand.V4 m c main_v11) (row bi s) e = _
  refine lin_out (Hand.V4 m c main_v8_0) (Hand.V4 m c main_v10) (Hand.V4 m c main_v11) ?_ ?_ ?_ bi s e
  · intro bi s d
    have e3 : Hand.V4 m c main_v8_0 = (Hand.dat1 (Hand.V2 m) c).arrAt 3 cfg1.N :=
      (Hand.keep2 _ main_v8_0 (by decide)).trans (Hand.W3_v8_0 m c)
    refine (congrFun e3 _).trans ?_
    refine (congrFun (final1_3 (Hand.V2 m) c) _).trans ?_
    show kctx (fused m c) (batchOf (row bi s)) (posOf (row bi s)) d = _
    rw [batchOf_row, posOf_row]
    exact kctx_eq (fused_q m c) (fused_k m c) (fused_v m c) bi s d
  · intro d e
    refine (glue_v10 (Hand.W3 m c) d e).trans ?_
    exact congrFun (W3_arg m c main_arg7 (by decide) (by decide) (by decide) (by decide)) _
  · intro e
    refine (glue_v11 (Hand.W3 m c) e).trans ?_
    exact congrFun (W3_arg m c main_arg8 (by decide) (by decide) (by decide) (by decide)) _

/-- THE KERNEL PROGRAM AT THE EXACT INSTANCE: every weakly fair execution of @main terminates, nothing faulting, and
    ends with the output at the specification's first result, the attention weights at its second, and the nine
    argument arrays as launched. -/
theorem results (ρ : Dev nD → PrngReg) :
    θ_run defs (onTc (τ := τ) (main (F := Ideal))) ⟨m, fun _ => 0, ρ⟩ (fun r => ∀ c : Dev nD,
      r.2.mem ((c.tc : Thread nD τ).loc main_v13)
          = G_out (aX m c) (aWq m c) (aBq m c) (aWk m c) (aBk m c) (aWv m c) (aBv m c) (aWo m c) (aBo m c)
      ∧ r.2.mem ((c.tc : Thread nD τ).loc main_v9) = G_attn (aX m c) (aWq m c) (aBq m c) (aWk m c) (aBk m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (Hand.mem_uc main_v13 (by decide))).trans (output_eq m c),
     (h c _ (Hand.mem_uc main_v9 (by decide))).trans (weights_eq m c),
     (h c _ (Hand.mem_uc main_arg0 (by decide))).trans (Hand.W6_keep m c main_arg0 (by decide) (by decide) (by decide) (by decide) (by decide) (by decide) (by decide)),
     (h c _ (Hand.mem_uc main_arg1 (by decide))).trans (Hand.W6_keep m c main_arg1 (by decide) (by decide) (by decide) (by decide) (by decide) (by decide) (by decide)),
     (h c _ (Hand.mem_uc main_arg2 (by decide))).trans (Hand.W6_keep m c main_arg2 (by decide) (by decide) (by decide) (by decide) (by decide) (by decide) (by decide)),
     (h c _ (Hand.mem_uc main_arg3 (by decide))).trans (Hand.W6_keep m c main_arg3 (by decide) (by decide) (by decide) (by decide) (by decide) (by decide) (by decide)),
     (h c _ (Hand.mem_uc main_arg4 (by decide))).trans (Hand.W6_keep m c main_arg4 (by decide) (by decide) (by decide) (by decide) (by decide) (by decide) (by decide)),
     (h c _ (Hand.mem_uc main_arg5 (by decide))).trans (Hand.W6_keep m c main_arg5 (by decide) (by decide) (by decide) (by decide) (by decide) (by decide) (by decide)),
     (h c _ (Hand.mem_uc main_arg6 (by decide))).trans (Hand.W6_keep m c main_arg6 (by decide) (by decide) (by decide) (by decide) (by decide) (by decide) (by decide)),
     (h c _ (Hand.mem_uc main_arg7 (by decide))).trans (Hand.W6_keep m c main_arg7 (by decide) (by decide) (by decide) (by decide) (by decide) (by decide) (by decide)),
     (h c _ (Hand.mem_uc main_arg8 (by decide))).trans (Hand.W6_keep m c main_arg8 (by decide) (by decide) (by decide) (by decide) (by decide) (by decide) (by decide))⟩)
    (Hand.run_all m ρ)

end Cert.KernelIdeal.Val

end
-- ==== Proof.Ref.Proj.lean ====
/-
  The three projections of the reference, read at an index.

  The reference multiplies x : [4, 2048, 1024] by a weight [1024, 1024], adds the bias row broadcast over batch and
  position, views the 1024 columns as 16 heads of 64, and exchanges the head axis with the position axis. So the entry
  (bi, h, s, d) of the rearranged array is the sum over c of x(bi, s, c) · W(c, 64·h + d), plus b(64·h + d): the
  specification's proj at the head's column. The flat position of (bi, s, h, d) in [4, 2048, 16, 64] is
  ((bi·2048 + s)·16 + h)·64 + d, and its three coordinates in [4, 2048, 1024] are bi, s and 64·h + d by division with
  remainder.
-/
import proofs.«114294_j50929722196421_2_alg».proof.Proof.Spec
import proofs.«114294_j50929722196421_2_alg».proof.Proof.Gen.ReferenceIdeal.Read

noncomputable section

namespace Cert.ReferenceIdeal.RefValue

open Cert.ReferenceIdeal Cert.ReferenceIdeal.Gen Idealize.ShloMosaic Idealize.ShloMosaic.ValueIdx
open scoped BigOperators

/-! ## Queries, keys, values -/

/-- The query projection before the split into heads: the matrix product's row sum plus the bias entry of the column. -/
theorem v3_at (x : (⟨S4x2048x1024, .f32⟩ : BufTy).Contents (Elt Ideal)) (W : (⟨S1024x1024, .f32⟩ : BufTy).Contents (Elt Ideal)) (b : (⟨S1024, .f32⟩ : BufTy).Contents (Elt Ideal))
    (bi : Fin 4) (s : Fin 2048) (e : Fin 1024) :
    Read.val_main_v3 (F := Ideal) x W b (ix3 bi s e) = Cert.Attn.proj x W b bi s e := by
  have el : ∀ k : Fin 1024, Read.lidx_main_v0 (ix3 bi s e) k = ix3 bi s k := fun k =>
    funext fun a => Fin.ext (by match a with | ⟨0, _⟩ => rfl | ⟨1, _⟩ => rfl | ⟨2, _⟩ => rfl)
  have er : ∀ k : Fin 1024, Read.ridx_main_v0 (ix3 bi s e) k = ix2 k e := fun k =>
    funext fun a => Fin.ext (by match a with | ⟨0, _⟩ => rfl | ⟨1, _⟩ => rfl)
  have eb : Read.idx_main_v1 (Read.idx_main_v2 (ix3 bi s e)) = ix1 e :=
    funext fun a => Fin.ext (by match a with | ⟨0, _⟩ => rfl)
  rw [Read.val_main_v3_apply, Read.val_main_v0_apply, Read.val_main_v2_apply, Read.val_main_v1_apply, eb]
  simp only [el, er, Ideal.addf_def, Cert.Attn.proj]

/-- The same projection after the reshape to 16 heads of 64 columns and the exchange of the head and position axes:
    entry (bi, h, s, d) is the projection's entry (bi, s, 64·h + d). -/
theorem v5_at (x : (⟨S4x2048x1024, .f32⟩ : BufTy).Contents (Elt Ideal)) (W : (⟨S1024x1024, .f32⟩ : BufTy).Contents (Elt Ideal)) (b : (⟨S1024, .f32⟩ : BufTy).Contents (Elt Ideal))
    (bi : Fin 4) (h : Fin 16) (s : Fin 2048) (d : Fin 64) :
    Read.val_main_v5 (F := Ideal) x W b (ix4 bi h s d) = Cert.Attn.proj x W b bi s (Cert.Attn.col h d) := by
  have ei : Read.idx_main_v4 (Read.idx_main_v5 (ix4 bi h s d)) = ix3 bi s (Cert.Attn.col h d) :=
    funext fun a => Fin.ext (by
      have h0 := bi.isLt; have h1 := h.isLt; have h2 := s.isLt; have h3 := d.isLt
      match a with
      | ⟨0, _⟩ => show (((bi.val * 2048 + s.val) * 16 + h.val) * 64 + d.val) / 2097152 = bi.val; omega
      | ⟨1, _⟩ => show (((bi.val * 2048 + s.val) * 16 + h.val) * 64 + d.val) / 1024 % 2048 = s.val; omega
      | ⟨2, _⟩ => show (((bi.val * 2048 + s.val) * 16 + h.val) * 64 + d.val) % 1024 = h.val * 64 + d.val; omega)
  rw [Read.val_main_v5_apply, Read.val_main_v4_apply, ei, v3_at]

/-- The key projection before the split into heads: the matrix product's row sum plus the bias entry of the column. -/
theorem v9_at (x : (⟨S4x2048x1024, .f32⟩ : BufTy).Contents (Elt Ideal)) (W : (⟨S1024x1024, .f32⟩ : BufTy).Contents (Elt Ideal)) (b : (⟨S1024, .f32⟩ : BufTy).Contents (Elt Ideal))
    (bi : Fin 4) (s : Fin 2048) (e : Fin 1024) :
    Read.val_main_v9 (F := Ideal) x W b (ix3 bi s e) = Cert.Attn.proj x W b bi s e := by
  have el : ∀ k : Fin 1024, Read.lidx_main_v6 (ix3 bi s e) k = ix3 bi s k := fun k =>
    funext fun a => Fin.ext (by match a with | ⟨0, _⟩ => rfl | ⟨1, _⟩ => rfl | ⟨2, _⟩ => rfl)
  have er : ∀ k : Fin 1024, Read.ridx_main_v6 (ix3 bi s e) k = ix2 k e := fun k =>
    funext fun a => Fin.ext (by match a with | ⟨0, _⟩ => rfl | ⟨1, _⟩ => rfl)
  have eb : Read.idx_main_v7 (Read.idx_main_v8 (ix3 bi s e)) = ix1 e :=
    funext fun a => Fin.ext (by match a with | ⟨0, _⟩ => rfl)
  rw [Read.val_main_v9_apply, Read.val_main_v6_apply, Read.val_main_v8_apply, Read.val_main_v7_apply, eb]
  simp only [el, er, Ideal.addf_def, Cert.Attn.proj]

/-- The same projection after the reshape to 16 heads of 64 columns and the exchange of the head and position axes:
    entry (bi, h, s, d) is the projection's entry (bi, s, 64·h + d). -/
theorem v11_at (x : (⟨S4x2048x1024, .f32⟩ : BufTy).Contents (Elt Ideal)) (W : (⟨S1024x1024, .f32⟩ : BufTy).Contents (Elt Ideal)) (b : (⟨S1024, .f32⟩ : BufTy).Contents (Elt Ideal))
    (bi : Fin 4) (h : Fin 16) (s : Fin 2048) (d : Fin 64) :
    Read.val_main_v11 (F := Ideal) x W b (ix4 bi h s d) = Cert.Attn.proj x W b bi s (Cert.Attn.col h d) := by
  have ei : Read.idx_main_v10 (Read.idx_main_v11 (ix4 bi h s d)) = ix3 bi s (Cert.Attn.col h d) :=
    funext fun a => Fin.ext (by
      have h0 := bi.isLt; have h1 := h.isLt; have h2 := s.isLt; have h3 := d.isLt
      match a with
      | ⟨0, _⟩ => show (((bi.val * 2048 + s.val) * 16 + h.val) * 64 + d.val) / 2097152 = bi.val; omega
      | ⟨1, _⟩ => show (((bi.val * 2048 + s.val) * 16 + h.val) * 64 + d.val) / 1024 % 2048 = s.val; omega
      | ⟨2, _⟩ => show (((bi.val * 2048 + s.val) * 16 + h.val) * 64 + d.val) % 1024 = h.val * 64 + d.val; omega)
  rw [Read.val_main_v11_apply, Read.val_main_v10_apply, ei, v9_at]

/-- The value projection before the split into heads: the matrix product's row sum plus the bias entry of the column. -/
theorem v15_at (x : (⟨S4x2048x1024, .f32⟩ : BufTy).Contents (Elt Ideal)) (W : (⟨S1024x1024, .f32⟩ : BufTy).Contents (Elt Ideal)) (b : (⟨S1024, .f32⟩ : BufTy).Contents (Elt Ideal))
    (bi : Fin 4) (s : Fin 2048) (e : Fin 1024) :
    Read.val_main_v15 (F := Ideal) x W b (ix3 bi s e) = Cert.Attn.proj x W b bi s e := by
  have el : ∀ k : Fin 1024, Read.lidx_main_v12 (ix3 bi s e) k = ix3 bi s k := fun k =>
    funext fun a => Fin.ext (by match a with | ⟨0, _⟩ => rfl | ⟨1, _⟩ => rfl | ⟨2, _⟩ => rfl)
  have er : ∀ k : Fin 1024, Read.ridx_main_v12 (ix3 bi s e) k = ix2 k e := fun k =>
    funext fun a => Fin.ext (by match a with | ⟨0, _⟩ => rfl | ⟨1, _⟩ => rfl)
  have eb : Read.idx_main_v13 (Read.idx_main_v14 (ix3 bi s e)) = ix1 e :=
    funext fun a => Fin.ext (by match a with | ⟨0, _⟩ => rfl)
  rw [Read.val_main_v15_apply, Read.val_main_v12_apply, Read.val_main_v14_apply, Read.val_main_v13_apply, eb]
  simp only [el, er, Ideal.addf_def, Cert.Attn.proj]

/-- The same projection after the reshape to 16 heads of 64 columns and the exchange of the head and position axes:
    entry (bi, h, s, d) is the projection's entry (bi, s, 64·h + d). -/
theorem v17_at (x : (⟨S4x2048x1024, .f32⟩ : BufTy).Contents (Elt Ideal)) (W : (⟨S1024x1024, .f32⟩ : BufTy).Contents (Elt Ideal)) (b : (⟨S1024, .f32⟩ : BufTy).Contents (Elt Ideal))
    (bi : Fin 4) (h : Fin 16) (s : Fin 2048) (d : Fin 64) :
    Read.val_main_v17 (F := Ideal) x W b (ix4 bi h s d) = Cert.Attn.proj x W b bi s (Cert.Attn.col h d) := by
  have ei : Read.idx_main_v16 (Read.idx_main_v17 (ix4 bi h s d)) = ix3 bi s (Cert.Attn.col h d) :=
    funext fun a => Fin.ext (by
      have h0 := bi.isLt; have h1 := h.isLt; have h2 := s.isLt; have h3 := d.isLt
      match a with
      | ⟨0, _⟩ => show (((bi.val * 2048 + s.val) * 16 + h.val) * 64 + d.val) / 2097152 = bi.val; omega
      | ⟨1, _⟩ => show (((bi.val * 2048 + s.val) * 16 + h.val) * 64 + d.val) / 1024 % 2048 = s.val; omega
      | ⟨2, _⟩ => show (((bi.val * 2048 + s.val) * 16 + h.val) * 64 + d.val) % 1024 = h.val * 64 + d.val; omega)
  rw [Read.val_main_v17_apply, Read.val_main_v16_apply, ei, v15_at]

end Cert.ReferenceIdeal.RefValue

end
-- ==== Proof.Ref.Attn.lean ====
/-
  The attention weights of the reference, read at an index.

  For batch bi, head h and query position q, the score against key position k is the inner product over the head's 64
  columns of the query row and the key row, divided by the word of 8. The row's maximum is taken from the word of −∞
  over the 2048 key positions (and once more against −∞, which changes nothing). Each score minus the maximum goes through
  the exponential; the row's exponentials are summed from the zero word; each exponential is divided by that sum. These
  are, in that order, the specification's score, rowMax, ex, den and attn.
-/
import proofs.«114294_j50929722196421_2_alg».proof.Proof.Ref.Proj

noncomputable section

namespace Cert.ReferenceIdeal.RefValue

open Cert.ReferenceIdeal Cert.ReferenceIdeal.Gen Idealize.ShloMosaic Idealize.ShloMosaic.ValueIdx
open scoped BigOperators

/-- The scaled score at (bi, h, q, k). -/
theorem v20_at (x : (⟨S4x2048x1024, .f32⟩ : BufTy).Contents (Elt Ideal)) (Wq : (⟨S1024x1024, .f32⟩ : BufTy).Contents (Elt Ideal)) (bq : (⟨S1024, .f32⟩ : BufTy).Contents (Elt Ideal)) (Wk : (⟨S1024x1024, .f32⟩ : BufTy).Contents (Elt Ideal)) (bk : (⟨S1024, .f32⟩ : BufTy).Contents (Elt Ideal))
    (bi : Fin 4) (h : Fin 16) (q k : Fin 2048) :
    Read.val_main_v20 (F := Ideal) x Wq bq Wk bk (ix4 bi h q k) = Cert.Attn.score x Wq bq Wk bk bi h q k := by
  have el : ∀ d : Fin 64, Read.lidx_main_v18 (ix4 bi h q k) d = ix4 bi h q d := fun d =>
    funext fun a => Fin.ext (by match a with | ⟨0, _⟩ => rfl | ⟨1, _⟩ => rfl | ⟨2, _⟩ => rfl | ⟨3, _⟩ => rfl)
  have er : ∀ d : Fin 64, Read.ridx_main_v18 (ix4 bi h q k) d = ix4 bi h k d := fun d =>
    funext fun a => Fin.ext (by match a with | ⟨0, _⟩ => rfl | ⟨1, _⟩ => rfl | ⟨2, _⟩ => rfl | ⟨3, _⟩ => rfl)
  rw [Read.val_main_v20_apply, Read.val_main_v18_apply, Read.val_main_v19_apply, Read.val_main_cst_apply]
  simp only [el, er, v5_at, v11_at, Ideal.hostDivf_def, Ideal.ofBits_def, Cert.Attn.score, Cert.Attn.eight]

/-- The shape fact that names the index put back on the reduced axis. -/
theorem reduces_keys : S4x16x2048x2048.Reduces [3] S4x16x2048 := by decide

/-- A row index with key position k put back on the last axis is (bi, h, q, k). -/
theorem lift_keys (bi : Fin 4) (h : Fin 16) (q : Fin 2048) (k : Fin (S4x16x2048x2048.size 3)) :
    reduces_keys.lift (ix3 bi h q) k = ix4 bi h q (⟨k.val, k.isLt⟩ : Fin 2048) := by
  funext c; apply Fin.ext
  fin_cases c <;> rfl

/-- The row maximum at (bi, h, q): the fold of max from −∞ over the key positions. -/
theorem v21_at (x : (⟨S4x2048x1024, .f32⟩ : BufTy).Contents (Elt Ideal)) (Wq : (⟨S1024x1024, .f32⟩ : BufTy).Contents (Elt Ideal)) (bq : (⟨S1024, .f32⟩ : BufTy).Contents (Elt Ideal)) (Wk : (⟨S1024x1024, .f32⟩ : BufTy).Contents (Elt Ideal)) (bk : (⟨S1024, .f32⟩ : BufTy).Contents (Elt Ideal))
    (bi : Fin 4) (h : Fin 16) (q : Fin 2048) :
    Read.val_main_v21 (F := Ideal) x Wq bq Wk bk (ix3 bi h q) = Cert.Attn.rowMax x Wq bq Wk bk bi h q := by
  unfold Read.val_main_v21
  generalize hy : Read.val_main_v20 (F := Ideal) x Wq bq Wk bk = y
  refine (Host.reduce_eq_fold_single (α := Ideal .f32) (s := S4x16x2048x2048) (t := S4x16x2048) (a := 3)
    (FloatOps.maximumf (F := Ideal) (φ := .f32)) y (Read.val_main_cst_0 (F := Ideal))
    reducesTo_S4x16x2048x2048_S4x16x2048_d3 reduces_keys h_S_ (ix3 bi h q)).trans ?_
  have hf : (y ∘ reduces_keys.lift (ix3 bi h q)) = fun k : Fin 2048 => Cert.Attn.score x Wq bq Wk bk bi h q k :=
    funext fun k => by
      show y (reduces_keys.lift (ix3 bi h q) k) = _
      rw [lift_keys, ← hy, v20_at]
      rfl
  rw [Read.val_main_cst_0_apply]
  unfold Cert.Attn.rowMax Cert.Attn.negInf
  exact congrArg (fun f => Finset.fold max (Ideal.ofBits .f32 0xFF800000#32) f (Finset.univ : Finset (Fin 2048))) hf

/-- The maximum against −∞ once more is the same row maximum. -/
theorem v23_at (x : (⟨S4x2048x1024, .f32⟩ : BufTy).Contents (Elt Ideal)) (Wq : (⟨S1024x1024, .f32⟩ : BufTy).Contents (Elt Ideal)) (bq : (⟨S1024, .f32⟩ : BufTy).Contents (Elt Ideal)) (Wk : (⟨S1024x1024, .f32⟩ : BufTy).Contents (Elt Ideal)) (bk : (⟨S1024, .f32⟩ : BufTy).Contents (Elt Ideal))
    (bi : Fin 4) (h : Fin 16) (q : Fin 2048) :
    Read.val_main_v23 (F := Ideal) x Wq bq Wk bk (ix3 bi h q) = Cert.Attn.rowMax x Wq bq Wk bk bi h q := by
  rw [Read.val_main_v23_apply, Read.val_main_v22_apply, Read.val_main_cst_1_apply, v21_at]
  simp only [Ideal.maximumf_def, Ideal.ofBits_def]
  exact Cert.Attn.max_start_fold _ _ _

/-- The exponential of a score's difference to its row's maximum. -/
theorem v27_at (x : (⟨S4x2048x1024, .f32⟩ : BufTy).Contents (Elt Ideal)) (Wq : (⟨S1024x1024, .f32⟩ : BufTy).Contents (Elt Ideal)) (bq : (⟨S1024, .f32⟩ : BufTy).Contents (Elt Ideal)) (Wk : (⟨S1024x1024, .f32⟩ : BufTy).Contents (Elt Ideal)) (bk : (⟨S1024, .f32⟩ : BufTy).Contents (Elt Ideal))
    (bi : Fin 4) (h : Fin 16) (q k : Fin 2048) :
    Read.val_main_v27 (F := Ideal) x Wq bq Wk bk (ix4 bi h q k) = Cert.Attn.ex x Wq bq Wk bk bi h q k := by
  have ei : Read.idx_main_v24 (Read.idx_main_v25 (ix4 bi h q k)) = ix3 bi h q :=
    funext fun a => Fin.ext (by match a with | ⟨0, _⟩ => rfl | ⟨1, _⟩ => rfl | ⟨2, _⟩ => rfl)
  rw [Read.val_main_v27_apply, Read.val_main_v26_apply, Read.val_main_v25_apply, Read.val_main_v24_apply, ei, v23_at, v20_at]
  simp only [Ideal.hostUnary_exp_def, Ideal.subf_def, Cert.Attn.ex]

/-- The sum of a row's exponentials. -/
theorem v28_at (x : (⟨S4x2048x1024, .f32⟩ : BufTy).Contents (Elt Ideal)) (Wq : (⟨S1024x1024, .f32⟩ : BufTy).Contents (Elt Ideal)) (bq : (⟨S1024, .f32⟩ : BufTy).Contents (Elt Ideal)) (Wk : (⟨S1024x1024, .f32⟩ : BufTy).Contents (Elt Ideal)) (bk : (⟨S1024, .f32⟩ : BufTy).Contents (Elt Ideal))
    (bi : Fin 4) (h : Fin 16) (q : Fin 2048) :
    Read.val_main_v28 (F := Ideal) x Wq bq Wk bk (ix3 bi h q) = Cert.Attn.den x Wq bq Wk bk bi h q := by
  have ei : ∀ k : Fin 2048, Read.idx_main_v28 (ix3 bi h q) k = ix4 bi h q k := fun k =>
    funext fun a => Fin.ext (by match a with | ⟨0, _⟩ => rfl | ⟨1, _⟩ => rfl | ⟨2, _⟩ => rfl | ⟨3, _⟩ => rfl)
  rw [Read.val_main_v28_apply, Read.val_main_cst_2_apply]
  simp only [ei, v27_at, Ideal.ofBits_def, Ideal.ofBits_zero_f32, zero_add, Cert.Attn.den]

/-- The attention weight at (bi, h, q, k). -/
theorem v31_at (x : (⟨S4x2048x1024, .f32⟩ : BufTy).Contents (Elt Ideal)) (Wq : (⟨S1024x1024, .f32⟩ : BufTy).Contents (Elt Ideal)) (bq : (⟨S1024, .f32⟩ : BufTy).Contents (Elt Ideal)) (Wk : (⟨S1024x1024, .f32⟩ : BufTy).Contents (Elt Ideal)) (bk : (⟨S1024, .f32⟩ : BufTy).Contents (Elt Ideal))
    (bi : Fin 4) (h : Fin 16) (q k : Fin 2048) :
    Read.val_main_v31 (F := Ideal) x Wq bq Wk bk (ix4 bi h q k) = Cert.Attn.attn x Wq bq Wk bk bi h q k := by
  have ei : Read.idx_main_v29 (Read.idx_main_v30 (ix4 bi h q k)) = ix3 bi h q :=
    funext fun a => Fin.ext (by match a with | ⟨0, _⟩ => rfl | ⟨1, _⟩ => rfl | ⟨2, _⟩ => rfl)
  rw [Read.val_main_v31_apply, Read.val_main_v30_apply, Read.val_main_v29_apply, ei, v28_at, v27_at]
  simp only [Ideal.hostDivf_def, Cert.Attn.attn]

end Cert.ReferenceIdeal.RefValue

end
-- ==== Proof.Ref.Out.lean ====
/-
  The first result of the reference, read at an index.

  Per batch and head the attention weights multiply the head's value rows: entry (bi, h, s, d) of the product is the sum
  over key positions k of the weight (bi, h, s, k) times the value projection at (bi, k, 64·h + d). Exchanging the head and
  position axes back and viewing 16 heads of 64 as 1024 columns, column e of row (bi, s) comes from head e / 64 and lane
  e % 64, and 64·(e / 64) + e % 64 = e: the specification's ctx. The last matrix product with Wo plus the bias row bo is
  outAt.
-/
import proofs.«114294_j50929722196421_2_alg».proof.Proof.Ref.Attn

noncomputable section

namespace Cert.ReferenceIdeal.RefValue

open Cert.ReferenceIdeal Cert.ReferenceIdeal.Gen Idealize.ShloMosaic Idealize.ShloMosaic.ValueIdx
open scoped BigOperators

/-- The weights applied to the value rows, per head. -/
theorem v32_at (x : (⟨S4x2048x1024, .f32⟩ : BufTy).Contents (Elt Ideal)) (Wq : (⟨S1024x1024, .f32⟩ : BufTy).Contents (Elt Ideal)) (bq : (⟨S1024, .f32⟩ : BufTy).Contents (Elt Ideal)) (Wk : (⟨S1024x1024, .f32⟩ : BufTy).Contents (Elt Ideal)) (bk : (⟨S1024, .f32⟩ : BufTy).Contents (Elt Ideal)) (Wv : (⟨S1024x1024, .f32⟩ : BufTy).Contents (Elt Ideal)) (bv : (⟨S1024, .f32⟩ : BufTy).Contents (Elt Ideal))
    (bi : Fin 4) (h : Fin 16) (s : Fin 2048) (d : Fin 64) :
    Read.val_main_v32 (F := Ideal) x Wq bq Wk bk Wv bv (ix4 bi h s d)
      = ∑ k : Fin 2048, Cert.Attn.attn x Wq bq Wk bk bi h s k * Cert.Attn.proj x Wv bv bi k (Cert.Attn.col h d) := by
  have el : ∀ k : Fin 2048, Read.lidx_main_v32 (ix4 bi h s d) k = ix4 bi h s k := fun k =>
    funext fun a => Fin.ext (by match a with | ⟨0, _⟩ => rfl | ⟨1, _⟩ => rfl | ⟨2, _⟩ => rfl | ⟨3, _⟩ => rfl)
  have er : ∀ k : Fin 2048, Read.ridx_main_v32 (ix4 bi h s d) k = ix4 bi h k d := fun k =>
    funext fun a => Fin.ext (by match a with | ⟨0, _⟩ => rfl | ⟨1, _⟩ => rfl | ⟨2, _⟩ => rfl | ⟨3, _⟩ => rfl)
  rw [Read.val_main_v32_apply]
  simp only [el, er, v31_at, v17_at]

/-- The context array: heads side by side again. -/
theorem v34_at (x : (⟨S4x2048x1024, .f32⟩ : BufTy).Contents (Elt Ideal)) (Wq : (⟨S1024x1024, .f32⟩ : BufTy).Contents (Elt Ideal)) (bq : (⟨S1024, .f32⟩ : BufTy).Contents (Elt Ideal)) (Wk : (⟨S1024x1024, .f32⟩ : BufTy).Contents (Elt Ideal)) (bk : (⟨S1024, .f32⟩ : BufTy).Contents (Elt Ideal)) (Wv : (⟨S1024x1024, .f32⟩ : BufTy).Contents (Elt Ideal)) (bv : (⟨S1024, .f32⟩ : BufTy).Contents (Elt Ideal))
    (bi : Fin 4) (s : Fin 2048) (e : Fin 1024) :
    Read.val_main_v34 (F := Ideal) x Wq bq Wk bk Wv bv (ix3 bi s e) = Cert.Attn.ctx x Wq bq Wk bk Wv bv bi s e := by
  have ei : Read.idx_main_v33 (Read.idx_main_v34 (ix3 bi s e))
      = ix4 bi (Cert.Attn.headOf e) s (⟨e.val % 64, Nat.mod_lt _ (by decide)⟩ : Fin 64) :=
    funext fun a => Fin.ext (by
      have h0 := bi.isLt; have h1 := s.isLt; have h2 := e.isLt
      match a with
      | ⟨0, _⟩ => show ((bi.val * 2048 + s.val) * 1024 + e.val) / 2097152 = bi.val; omega
      | ⟨1, _⟩ => show ((bi.val * 2048 + s.val) * 1024 + e.val) / 64 % 16 = e.val / 64; omega
      | ⟨2, _⟩ => show ((bi.val * 2048 + s.val) * 1024 + e.val) / 1024 % 2048 = s.val; omega
      | ⟨3, _⟩ => show ((bi.val * 2048 + s.val) * 1024 + e.val) % 64 = e.val % 64; omega)
  rw [Read.val_main_v34_apply, Read.val_main_v33_apply, ei, v32_at, Cert.Attn.col_headOf]
  rfl

/-- The first result at (bi, s, e). -/
theorem v38_at (x : (⟨S4x2048x1024, .f32⟩ : BufTy).Contents (Elt Ideal)) (Wq : (⟨S1024x1024, .f32⟩ : BufTy).Contents (Elt Ideal)) (bq : (⟨S1024, .f32⟩ : BufTy).Contents (Elt Ideal)) (Wk : (⟨S1024x1024, .f32⟩ : BufTy).Contents (Elt Ideal)) (bk : (⟨S1024, .f32⟩ : BufTy).Contents (Elt Ideal)) (Wv : (⟨S1024x1024, .f32⟩ : BufTy).Contents (Elt Ideal)) (bv : (⟨S1024, .f32⟩ : BufTy).Contents (Elt Ideal)) (Wo : (⟨S1024x1024, .f32⟩ : BufTy).Contents (Elt Ideal)) (bo : (⟨S1024, .f32⟩ : BufTy).Contents (Elt Ideal))
    (bi : Fin 4) (s : Fin 2048) (e : Fin 1024) :
    Read.val_main_v38 (F := Ideal) x Wq bq Wk bk Wv bv Wo bo (ix3 bi s e)
      = Cert.Attn.outAt x Wq bq Wk bk Wv bv Wo bo bi s e := by
  have el : ∀ d : Fin 1024, Read.lidx_main_v35 (ix3 bi s e) d = ix3 bi s d := fun d =>
    funext fun a => Fin.ext (by match a with | ⟨0, _⟩ => rfl | ⟨1, _⟩ => rfl | ⟨2, _⟩ => rfl)
  have er : ∀ d : Fin 1024, Read.ridx_main_v35 (ix3 bi s e) d = ix2 d e := fun d =>
    funext fun a => Fin.ext (by match a with | ⟨0, _⟩ => rfl | ⟨1, _⟩ => rfl)
  have eb : Read.idx_main_v36 (Read.idx_main_v37 (ix3 bi s e)) = ix1 e :=
    funext fun a => Fin.ext (by match a with | ⟨0, _⟩ => rfl)
  rw [Read.val_main_v38_apply, Read.val_main_v35_apply, Read.val_main_v37_apply, Read.val_main_v36_apply, eb]
  simp only [el, er, v34_at, Ideal.addf_def, Cert.Attn.outAt]

end Cert.ReferenceIdeal.RefValue

end
-- ==== Proof.RefValue.lean ====
/-
  The reference computes the specification.

  Its two results, as functions of the nine argument arrays at the exact instance, are the specification's two
  functions: the attention weights G_attn (of x and the query and key weights and biases) and the output G_out (of all
  nine). Both equalities are taken index by index; the stages in between are read in the modules imported here.
-/
import proofs.«114294_j50929722196421_2_alg».proof.Proof.Ref.Attn
import proofs.«114294_j50929722196421_2_alg».proof.Proof.Ref.Out

noncomputable section

namespace Cert.ReferenceIdeal.RefValue

open Cert.ReferenceIdeal Cert.ReferenceIdeal.Gen Idealize.ShloMosaic Idealize.ShloMosaic.ValueIdx

/-- The second result of the reference is the array of attention weights. -/
theorem attn_eq (a0 : (⟨S4x2048x1024, .f32⟩ : BufTy).Contents (Elt Ideal)) (a1 : (⟨S1024x1024, .f32⟩ : BufTy).Contents (Elt Ideal)) (a2 : (⟨S1024, .f32⟩ : BufTy).Contents (Elt Ideal)) (a3 : (⟨S1024x1024, .f32⟩ : BufTy).Contents (Elt Ideal)) (a4 : (⟨S1024, .f32⟩ : BufTy).Contents (Elt Ideal)) :
    Read.val_main_v31 (F := Ideal) a0 a1 a2 a3 a4 = Cert.Attn.G_attn a0 a1 a2 a3 a4 := by
  funext i
  obtain ⟨bi, h, q, k, rfl⟩ : ∃ (bi : Fin 4) (h : Fin 16) (q : Fin 2048) (k : Fin 2048), i = ix4 bi h q k :=
    ⟨i 0, i 1, i 2, i 3, eq_ix4 i⟩
  exact v31_at a0 a1 a2 a3 a4 bi h q k

/-- The first result of the reference is the projected context array. -/
theorem out_eq (a0 : (⟨S4x2048x1024, .f32⟩ : BufTy).Contents (Elt Ideal)) (a1 : (⟨S1024x1024, .f32⟩ : BufTy).Contents (Elt Ideal)) (a2 : (⟨S1024, .f32⟩ : BufTy).Contents (Elt Ideal)) (a3 : (⟨S1024x1024, .f32⟩ : BufTy).Contents (Elt Ideal)) (a4 : (⟨S1024, .f32⟩ : BufTy).Contents (Elt Ideal))
    (a5 : (⟨S1024x1024, .f32⟩ : BufTy).Contents (Elt Ideal)) (a6 : (⟨S1024, .f32⟩ : BufTy).Contents (Elt Ideal)) (a7 : (⟨S1024x1024, .f32⟩ : BufTy).Contents (Elt Ideal)) (a8 : (⟨S1024, .f32⟩ : BufTy).Contents (Elt Ideal)) :
    Read.val_main_v38 (F := Ideal) a0 a1 a2 a3 a4 a5 a6 a7 a8 = Cert.Attn.G_out a0 a1 a2 a3 a4 a5 a6 a7 a8 := by
  funext i
  obtain ⟨bi, s, e, rfl⟩ : ∃ (bi : Fin 4) (s : Fin 2048) (e : Fin 1024), i = ix3 bi s e :=
    ⟨i 0, i 1, i 2, eq_ix3 i⟩
  exact v38_at a0 a1 a2 a3 a4 a5 a6 a7 a8 bi s e

end Cert.ReferenceIdeal.RefValue

end
-- ==== Proof.lean ====
/- The proof of `Cert.Claim` (proofs.«114294_j50929722196421_2_alg».proof.Defs).

   The kernel is multi-head attention over x : [4, 2048, 1024] with 16 heads of width 64, in three regions — the fused
   query / key / value projection, attention per batch and pair of heads, the output projection — among host operations
   that only re-lay arrays; the reference is the same computation written with einsums over [4, 16, 2048, 64] arrays.

   Frames. Each region's grid points fetch their blocks, run the body and write their output blocks back; between two
   items of @main every unscoped buffer is held whole at known contents (Proof/KI/Run.lean, Proof/K/Run.lean: one text
   at the two instances), so @main terminates without a fault, and no item writes an argument array. The attention
   region's three input windows read one array, whose buffer is split into three shares for the region and joined again
   after it. The reference is host operations only: its run is the generated one.

   Values, at the exact instance. Proof/Spec.lean states both results as one function of the nine arguments, element by
   element on the extended reals. The reference's results are that function (Proof/RefValue.lean, one operation at a
   time). The kernel's results are read back through the regions (Proof/Val/Chain.lean): a region's output array is, block
   by block, what its body stores (Proof/Val/Lin.lean, Proof/Val/Attn.lean over the payloads of Proof/Pay.lean), the
   host operations between them are re-views (Proof/Val/Glue.lean), and the kernel's stages are the specification's at
   the fused projection array's entries (Proof/Bridge.lean). The one arithmetic fact used is that multiplying by 0.125
   is dividing by 8 on every extended real; the rest is the order and grouping of sums and maxima, so the precondition
   that the inputs are finite is never opened.

   The idealized kernel is the kernel's own text read at the exact instance: the ledger of rewrites is empty. -/
import proofs.«114294_j50929722196421_2_alg».proof.Defs
import proofs.«114294_j50929722196421_2_alg».proof.Proof.Gen.Kernel
import proofs.«114294_j50929722196421_2_alg».proof.Proof.Gen.KernelIdeal
import proofs.«114294_j50929722196421_2_alg».proof.Proof.Gen.ReferenceIdeal
import proofs.«114294_j50929722196421_2_alg».proof.Proof.Gen.ReferenceIdeal.Read
import proofs.«114294_j50929722196421_2_alg».proof.Proof.Gen.Pre_finite_inputs
import proofs.«114294_j50929722196421_2_alg».proof.Proof.K.Run
import proofs.«114294_j50929722196421_2_alg».proof.Proof.KI.Run
import proofs.«114294_j50929722196421_2_alg».proof.Proof.Val.Chain
import proofs.«114294_j50929722196421_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame m ρ

/-- So does the kernel read at the exact instance. -/
theorem frame_ki : Cert.frame_KernelIdeal := fun m ρ _ => Cert.KernelIdeal.Hand.frame m ρ

/-- The reference is host operations only: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the nine arguments both programs end with the specification's two results of those
    arguments: the kernel by the chain through its three regions, the reference by its operations read one at a time. -/
theorem algebraic : Cert.algebraic_KernelIdeal_ReferenceIdeal := by
  intro m ρ m' ρ' _ hagree
  refine ⟨fun c => Cert.Attn.G_out (Cert.KernelIdeal.Val.aX m c) (Cert.KernelIdeal.Val.aWq m c) (Cert.KernelIdeal.Val.aBq m c)
      (Cert.KernelIdeal.Val.aWk m c) (Cert.KernelIdeal.Val.aBk m c) (Cert.KernelIdeal.Val.aWv m c) (Cert.KernelIdeal.Val.aBv m c)
      (Cert.KernelIdeal.Val.aWo m c) (Cert.KernelIdeal.Val.aBo m c),
    fun c => Cert.Attn.G_attn (Cert.KernelIdeal.Val.aX m c) (Cert.KernelIdeal.Val.aWq m c) (Cert.KernelIdeal.Val.aBq m c)
      (Cert.KernelIdeal.Val.aWk m c) (Cert.KernelIdeal.Val.aBk m c),
    Cert.KernelIdeal.Val.results m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v38_eq, Cert.ReferenceIdeal.RefValue.out_eq, (hagree c).1, (hagree c).2.1, (hagree c).2.2.1,
      (hagree c).2.2.2.1, (hagree c).2.2.2.2.1, (hagree c).2.2.2.2.2.1, (hagree c).2.2.2.2.2.2.1, (hagree c).2.2.2.2.2.2.2.1,
      (hagree c).2.2.2.2.2.2.2.2]
  · rw [Cert.ReferenceIdeal.Read.val_main_v31_eq, Cert.ReferenceIdeal.RefValue.attn_eq, (hagree c).1, (hagree c).2.1, (hagree c).2.2.1,
      (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
